-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v132)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2048 : Shape := ⟨2, ![50000, 2048]⟩
abbrev S2x1600000 : Shape := ⟨2, ![2, 1600000]⟩
abbrev S200000 : Shape := ⟨1, ![200000]⟩
abbrev S1024 : Shape := ⟨1, ![1024]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S50000x2048 : S_.BroadcastsInDim S50000x2048 (![] : Fin 0 → Fin S50000x2048.rank)
  reducesTo_S50000x2048_S_d0_1 : S50000x2048.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S16 .f32) (main_arg17 : FVec F S16x2 .f32) (main_arg18 : FVec F S2 .f32) (main_v63 : IVec S_ 1) (main_v67 : IVec S_ 1) : IVec S_ 1 :=
  let main_v68 : IVec S_ 1 := andi main_v63 main_v67
  let main_v69 : FVec F S16 .f32 := Host.absf main_arg16
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  let main_v74 : FVec F S16x2 .f32 := Host.absf main_arg17
  let main_cst_28 : FVec F S_ .f32 := constant S_ .f32 0x7F800000#32
  let main_v75 : FVec F S16x2 .f32 := broadcastInDim S16x2 ![] bcast_S_S16x2 main_cst_28
  let main_v76 : IVec S16x2 1 := cmpf .olt main_v74 main_v75
  let main_c_29 : IVec S_ 1 := constantI S_ 1 1#1
  let main_v77 : IVec S_ 1 := (fun x v => Host.reduce IntOp.andi x v reducesTo_S16x2_S_d0_1 h_S_) main_v76 main_c_29
  let main_v78 : IVec S_ 1 := andi main_v73 main_v77
  let main_v79 : FVec F S2 .f32 := Host.absf main_arg18
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  main_v83

def fn_part3 {F : FTy → Type} [FloatOps F] (main_arg13 : FVec F S32x16 .f32) (main_arg14 : FVec F S16 .f32) (main_arg15 : FVec F S32x16 .f32) (main_arg16 : FVec F S16 .f32) (main_arg17 : FVec F S16x2 .f32) (main_arg18 : FVec F S2 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x16 .f32 := Host.absf main_arg13
  let main_cst_20 : FVec F S_ .f32 := constant S_ .f32 0x7F800000#32
  let main_v55 : FVec F S32x16 .f32 := broadcastInDim S32x16 ![] bcast_S_S32x16 main_cst_20
  let main_v56 : IVec S32x16 1 := cmpf .olt main_v54 main_v55
  let main_c_21 : IVec S_ 1 := constantI S_ 1 1#1
  let main_v57 : IVec S_ 1 := (fun x v => Host.reduce IntOp.andi x v reducesTo_S32x16_S_d0_1 h_S_) main_v56 main_c_21
  let main_v58 : IVec S_ 1 := andi main_v53 main_v57
  let main_v59 : FVec F S16 .f32 := Host.absf main_arg14
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S32x16 .f32 := Host.absf main_arg15
  let main_cst_24 : FVec F S_ .f32 := constant S_ .f32 0x7F800000#32
  let main_v65 : FVec F S32x16 .f32 := broadcastInDim S32x16 ![] bcast_S_S32x16 main_cst_24
  let main_v66 : IVec S32x16 1 := cmpf .olt main_v64 main_v65
  let main_c_25 : IVec S_ 1 := constantI S_ 1 1#1
  let main_v67 : IVec S_ 1 := (fun x v => Host.reduce IntOp.andi x v reducesTo_S32x16_S_d0_1 h_S_) main_v66 main_c_25
  fn_part4 (F := F) main_arg16 main_arg17 main_arg18 main_v63 main_v67

def fn_part2 {F : FTy → Type} [FloatOps F] (main_arg9 : FVec F S128x64 .f32) (main_arg10 : FVec F S64 .f32) (main_arg11 : FVec F S64x32 .f32) (main_arg12 : FVec F S32 .f32) (main_arg13 : FVec F S32x16 .f32) (main_arg14 : FVec F S16 .f32) (main_arg15 : FVec F S32x16 .f32) (main_arg16 : FVec F S16 .f32) (main_arg17 : FVec F S16x2 .f32) (main_arg18 : FVec F S2 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg11
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_arg15 main_arg16 main_arg17 main_arg18 main_v48 main_v49 main_v50

def fn_part1 {F : FTy → Type} [FloatOps F] (main_arg6 : FVec F S512 .f32) (main_arg7 : FVec F S512x128 .f32) (main_arg8 : FVec F S128 .f32) (main_arg9 : FVec F S128x64 .f32) (main_arg10 : FVec F S64 .f32) (main_arg11 : FVec F S64x32 .f32) (main_arg12 : FVec F S32 .f32) (main_arg13 : FVec F S32x16 .f32) (main_arg14 : FVec F S16 .f32) (main_arg15 : FVec F S32x16 .f32) (main_arg16 : FVec F S16 .f32) (main_arg17 : FVec F S16x2 .f32) (main_arg18 : FVec F S2 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x128 .f32 := Host.absf main_arg7
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x2048 .f32) (main_arg1 : IVec S2x1600000 32) (main_arg2 : IVec S200000 32) (main_arg3 : FVec F S1024 .f32) (main_arg4 : FVec F S1024 .f32) (main_arg5 : FVec F S1024x512 .f32) (main_arg6 : FVec F S512 .f32) (main_arg7 : FVec F S512x128 .f32) (main_arg8 : FVec F S128 .f32) (main_arg9 : FVec F S128x64 .f32) (main_arg10 : FVec F S64 .f32) (main_arg11 : FVec F S64x32 .f32) (main_arg12 : FVec F S32 .f32) (main_arg13 : FVec F S32x16 .f32) (main_arg14 : FVec F S16 .f32) (main_arg15 : FVec F S32x16 .f32) (main_arg16 : FVec F S16 .f32) (main_arg17 : FVec F S16x2 .f32) (main_arg18 : FVec F S2 .f32) : IVec S_ 1 :=
  let main_v0 : FVec F S50000x2048 .f32 := Host.absf main_arg0
  let main_cst : FVec F S_ .f32 := constant S_ .f32 0x7F800000#32
  let main_v1 : FVec F S50000x2048 .f32 := broadcastInDim S50000x2048 ![] bcast_S_S50000x2048 main_cst
  let main_v2 : IVec S50000x2048 1 := cmpf .olt main_v0 main_v1
  let main_c : IVec S_ 1 := constantI S_ 1 1#1
  let main_v3 : IVec S_ 1 := (fun x v => Host.reduce IntOp.andi x v reducesTo_S50000x2048_S_d0_1 h_S_) main_v2 main_c
  let main_v4 : FVec F S1024 .f32 := Host.absf main_arg3
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x512 .f32 := Host.absf main_arg5
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x2048 : Shape := ⟨2, ![50000, 2048]⟩
abbrev S2x1600000 : Shape := ⟨2, ![2, 1600000]⟩
abbrev S200000 : Shape := ⟨1, ![200000]⟩
abbrev S1024 : Shape := ⟨1, ![1024]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x1600000 : Shape := ⟨2, ![1, 1600000]⟩
abbrev S1600000 : Shape := ⟨1, ![1600000]⟩
abbrev S1x1024 : Shape := ⟨2, ![1, 1024]⟩
abbrev S1x512 : Shape := ⟨2, ![1, 512]⟩
abbrev S1x128 : Shape := ⟨2, ![1, 128]⟩
abbrev S1x64 : Shape := ⟨2, ![1, 64]⟩
abbrev S50000x64 : Shape := ⟨2, ![50000, 64]⟩
abbrev S1000x2048 : Shape := ⟨2, ![1000, 2048]⟩
abbrev S1000x64 : Shape := ⟨2, ![1000, 64]⟩
abbrev S200x2048 : Shape := ⟨2, ![200, 2048]⟩
abbrev S200x1024x2 : Shape := ⟨3, ![200, 1024, 2]⟩
abbrev S200x1024 : Shape := ⟨2, ![200, 1024]⟩
abbrev S200 : Shape := ⟨1, ![200]⟩
abbrev S200x1 : Shape := ⟨2, ![200, 1]⟩
abbrev S200x512 : Shape := ⟨2, ![200, 512]⟩
abbrev S200x128 : Shape := ⟨2, ![200, 128]⟩
abbrev S200x64 : Shape := ⟨2, ![200, 64]⟩
abbrev S50000x32 : Shape := ⟨2, ![50000, 32]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1650000x32 : Shape := ⟨2, ![1650000, 32]⟩
abbrev S1x32 : Shape := ⟨2, ![1, 32]⟩
abbrev S50000x16 : Shape := ⟨2, ![50000, 16]⟩
abbrev S1650000x16 : Shape := ⟨2, ![1650000, 16]⟩
abbrev S1x16 : Shape := ⟨2, ![1, 16]⟩
abbrev S200000x1 : Shape := ⟨2, ![200000, 1]⟩
abbrev S2x200000 : Shape := ⟨2, ![2, 200000]⟩
abbrev S1x200000 : Shape := ⟨2, ![1, 200000]⟩
abbrev S200000x16 : Shape := ⟨2, ![200000, 16]⟩
abbrev S200000x32 : Shape := ⟨2, ![200000, 32]⟩
abbrev S200000x2 : Shape := ⟨2, ![200000, 2]⟩
abbrev S1x2 : Shape := ⟨2, ![1, 2]⟩

abbrev nBuf : Space → Nat
  | .hbm => 206
  | .vmem => 12
  | .smem => 0
  | _ => 0

abbrev hbmTy0_0 (i : Nat) : BufTy := match i % 128 with
  | 0 => ⟨S50000x2048, .f32⟩
  | 1 => ⟨S2x1600000, .i32⟩
  | 2 => ⟨S200000, .i32⟩
  | 3 => ⟨S1024, .f32⟩
  | 4 => ⟨S1024, .f32⟩
  | 5 => ⟨S1024x512, .f32⟩
  | 6 => ⟨S512, .f32⟩
  | 7 => ⟨S512x128, .f32⟩
  | 8 => ⟨S128, .f32⟩
  | 9 => ⟨S128x64, .f32⟩
  | 10 => ⟨S64, .f32⟩
  | 11 => ⟨S64x32, .f32⟩
  | 12 => ⟨S32, .f32⟩
  | 13 => ⟨S32x16, .f32⟩
  | 14 => ⟨S16, .f32⟩
  | 15 => ⟨S32x16, .f32⟩
  | 16 => ⟨S16, .f32⟩
  | 17 => ⟨S16x2, .f32⟩
  | 18 => ⟨S2, .f32⟩
  | 19 => ⟨S1x1600000, .i32⟩
  | 20 => ⟨S1600000, .i32⟩
  | 21 => ⟨S1x1600000, .i32⟩
  | 22 => ⟨S1600000, .i32⟩
  | 23 => ⟨S1024x512, .bf16⟩
  | 24 => ⟨S512x128, .bf16⟩
  | 25 => ⟨S128x64, .bf16⟩
  | 26 => ⟨S1x1024, .f32⟩
  | 27 => ⟨S1x1024, .f32⟩
  | 28 => ⟨S1x512, .f32⟩
  | 29 => ⟨S1x128, .f32⟩
  | 30 => ⟨S1x64, .f32⟩
  | 31 => ⟨S50000x64, .f32⟩
  | 32 => ⟨S50000x32, .f32⟩
  | 33 => ⟨S50000, .i32⟩
  | 34 => ⟨S1650000, .i32⟩
  | 35 => ⟨S1650000, .i32⟩
  | 36 => ⟨S_, .f32⟩
  | 37 => ⟨S1650000, .f32⟩
  | 38 => ⟨S_, .f32⟩
  | 39 => ⟨S50000, .f32⟩
  | 40 => ⟨S1650000x1, .i32⟩
  | 41 => ⟨S50000, .f32⟩
  | 42 => ⟨S_, .f32⟩
  | 43 => ⟨S50000, .f32⟩
  | 44 => ⟨S50000, .f32⟩
  | 45 => ⟨S50000, .f32⟩
  | 46 => ⟨S_, .i32⟩
  | 47 => ⟨S1650000, .i32⟩
  | 48 => ⟨S1650000, .i1⟩
  | 49 => ⟨S_, .i32⟩
  | 50 => ⟨S1650000, .i32⟩
  | 51 => ⟨S1650000, .i32⟩
  | 52 => ⟨S1650000, .i32⟩
  | 53 => ⟨S1650000x1, .i32⟩
  | 54 => ⟨S1650000, .f32⟩
  | 55 => ⟨S_, .i32⟩
  | 56 => ⟨S1650000, .i32⟩
  | 57 => ⟨S1650000, .i1⟩
  | 58 => ⟨S_, .i32⟩
  | 59 => ⟨S1650000, .i32⟩
  | 60 => ⟨S1650000, .i32⟩
  | 61 => ⟨S1650000, .i32⟩
  | 62 => ⟨S1650000x1, .i32⟩
  | 63 => ⟨S1650000, .f32⟩
  | 64 => ⟨S1650000, .f32⟩
  | 65 => ⟨S_, .i32⟩
  | 66 => ⟨S1650000, .i32⟩
  | 67 => ⟨S1650000, .i1⟩
  | 68 => ⟨S_, .i32⟩
  | 69 => ⟨S1650000, .i32⟩
  | 70 => ⟨S1650000, .i32⟩
  | 71 => ⟨S1650000, .i32⟩
  | 72 => ⟨S1650000x1, .i32⟩
  | 73 => ⟨S1650000x32, .f32⟩
  | 74 => ⟨S1650000x1, .f32⟩
  | 75 => ⟨S1650000x32, .f32⟩
  | 76 => ⟨S1650000x32, .f32⟩
  | 77 => ⟨S_, .f32⟩
  | 78 => ⟨S50000x32, .f32⟩
  | 79 => ⟨S1650000x1, .i32⟩
  | 80 => ⟨S50000x32, .f32⟩
  | 81 => ⟨S1x32, .f32⟩
  | 82 => ⟨S50000x32, .f32⟩
  | 83 => ⟨S50000x32, .f32⟩
  | 84 => ⟨S_, .f32⟩
  | 85 => ⟨S50000x32, .f32⟩
  | 86 => ⟨S50000x32, .i1⟩
  | 87 => ⟨S_, .f32⟩
  | 88 => ⟨S50000x32, .f32⟩
  | 89 => ⟨S50000x32, .i1⟩
  | 90 => ⟨S_, .f32⟩
  | 91 => ⟨S_, .f32⟩
  | 92 => ⟨S50000x32, .f32⟩
  | 93 => ⟨S50000x32, .f32⟩
  | 94 => ⟨S50000x32, .f32⟩
  | 95 => ⟨S_, .f32⟩
  | 96 => ⟨S50000x32, .f32⟩
  | 97 => ⟨S50000x32, .f32⟩
  | 98 => ⟨S50000x32, .f32⟩
  | 99 => ⟨S50000x16, .f32⟩
  | 100 => ⟨S50000, .i32⟩
  | 101 => ⟨S1650000, .i32⟩
  | 102 => ⟨S1650000, .i32⟩
  | 103 => ⟨S_, .f32⟩
  | 104 => ⟨S1650000, .f32⟩
  | 105 => ⟨S_, .f32⟩
  | 106 => ⟨S50000, .f32⟩
  | 107 => ⟨S1650000x1, .i32⟩
  | 108 => ⟨S50000, .f32⟩
  | 109 => ⟨S_, .f32⟩
  | 110 => ⟨S50000, .f32⟩
  | 111 => ⟨S50000, .f32⟩
  | 112 => ⟨S50000, .f32⟩
  | 113 => ⟨S_, .i32⟩
  | 114 => ⟨S1650000, .i32⟩
  | 115 => ⟨S1650000, .i1⟩
  | 116 => ⟨S_, .i32⟩
  | 117 => ⟨S1650000, .i32⟩
  | 118 => ⟨S1650000, .i32⟩
  | 119 => ⟨S1650000, .i32⟩
  | 120 => ⟨S1650000x1, .i32⟩
  | 121 => ⟨S1650000, .f32⟩
  | 122 => ⟨S_, .i32⟩
  | 123 => ⟨S1650000, .i32⟩
  | 124 => ⟨S1650000, .i1⟩
  | 125 => ⟨S_, .i32⟩
  | 126 => ⟨S1650000, .i32⟩
  | 127 => ⟨S1650000, .i32⟩
  | _ => ⟨S50000x2048, .f32⟩

abbrev hbmTy0_1 (i : Nat) : BufTy := match i % 128 with
  | 0 => ⟨S1650000, .i32⟩
  | 1 => ⟨S1650000x1, .i32⟩
  | 2 => ⟨S1650000, .f32⟩
  | 3 => ⟨S1650000, .f32⟩
  | 4 => ⟨S_, .i32⟩
  | 5 => ⟨S1650000, .i32⟩
  | 6 => ⟨S1650000, .i1⟩
  | 7 => ⟨S_, .i32⟩
  | 8 => ⟨S1650000, .i32⟩
  | 9 => ⟨S1650000, .i32⟩
  | 10 => ⟨S1650000, .i32⟩
  | 11 => ⟨S1650000x1, .i32⟩
  | 12 => ⟨S1650000x16, .f32⟩
  | 13 => ⟨S1650000x1, .f32⟩
  | 14 => ⟨S1650000x16, .f32⟩
  | 15 => ⟨S1650000x16, .f32⟩
  | 16 => ⟨S_, .f32⟩
  | 17 => ⟨S50000x16, .f32⟩
  | 18 => ⟨S1650000x1, .i32⟩
  | 19 => ⟨S50000x16, .f32⟩
  | 20 => ⟨S1x16, .f32⟩
  | 21 => ⟨S50000x16, .f32⟩
  | 22 => ⟨S50000x16, .f32⟩
  | 23 => ⟨S_, .i32⟩
  | 24 => ⟨S200000, .i32⟩
  | 25 => ⟨S200000, .i1⟩
  | 26 => ⟨S_, .i32⟩
  | 27 => ⟨S200000, .i32⟩
  | 28 => ⟨S200000, .i32⟩
  | 29 => ⟨S200000, .i32⟩
  | 30 => ⟨S200000x1, .i32⟩
  | 31 => ⟨S2x200000, .i32⟩
  | 32 => ⟨S1x200000, .i32⟩
  | 33 => ⟨S200000, .i32⟩
  | 34 => ⟨S_, .i32⟩
  | 35 => ⟨S200000, .i32⟩
  | 36 => ⟨S200000, .i1⟩
  | 37 => ⟨S_, .i32⟩
  | 38 => ⟨S200000, .i32⟩
  | 39 => ⟨S200000, .i32⟩
  | 40 => ⟨S200000, .i32⟩
  | 41 => ⟨S200000x1, .i32⟩
  | 42 => ⟨S200000x16, .f32⟩
  | 43 => ⟨S1x200000, .i32⟩
  | 44 => ⟨S200000, .i32⟩
  | 45 => ⟨S_, .i32⟩
  | 46 => ⟨S200000, .i32⟩
  | 47 => ⟨S200000, .i1⟩
  | 48 => ⟨S_, .i32⟩
  | 49 => ⟨S200000, .i32⟩
  | 50 => ⟨S200000, .i32⟩
  | 51 => ⟨S200000, .i32⟩
  | 52 => ⟨S200000x1, .i32⟩
  | 53 => ⟨S200000x16, .f32⟩
  | 54 => ⟨S200000x32, .f32⟩
  | 55 => ⟨S200000x16, .f32⟩
  | 56 => ⟨S1x16, .f32⟩
  | 57 => ⟨S200000x16, .f32⟩
  | 58 => ⟨S200000x16, .f32⟩
  | 59 => ⟨S_, .f32⟩
  | 60 => ⟨S200000x16, .f32⟩
  | 61 => ⟨S200000x16, .i1⟩
  | 62 => ⟨S_, .f32⟩
  | 63 => ⟨S200000x16, .f32⟩
  | 64 => ⟨S200000x16, .i1⟩
  | 65 => ⟨S_, .f32⟩
  | 66 => ⟨S_, .f32⟩
  | 67 => ⟨S200000x16, .f32⟩
  | 68 => ⟨S200000x16, .f32⟩
  | 69 => ⟨S200000x16, .f32⟩
  | 70 => ⟨S_, .f32⟩
  | 71 => ⟨S200000x16, .f32⟩
  | 72 => ⟨S200000x16, .f32⟩
  | 73 => ⟨S200000x16, .f32⟩
  | 74 => ⟨S200000x2, .f32⟩
  | 75 => ⟨S1x2, .f32⟩
  | 76 => ⟨S200000x2, .f32⟩
  | 77 => ⟨S200000x2, .f32⟩
  | _ => ⟨S50000x2048, .f32⟩

abbrev hbmTy (i : Nat) : BufTy := match i / 128 with
  | 0 => hbmTy0_0 i
  | 1 => hbmTy0_1 i
  | _ => ⟨S50000x2048, .f32⟩

abbrev bufTy : (tb : Table) → Fin (tcTables nBuf tb) → BufTy
  | .hbm, ⟨i, _⟩ => hbmTy i
  | .local _ .vmem, ⟨0, _⟩ => ⟨S1000x2048, .f32⟩
  | .local _ .vmem, ⟨1, _⟩ => ⟨S1000x2048, .f32⟩
  | .local _ .vmem, ⟨2, _⟩ => ⟨S1x1024, .f32⟩
  | .local _ .vmem, ⟨3, _⟩ => ⟨S1x1024, .f32⟩
  | .local _ .vmem, ⟨4, _⟩ => ⟨S1024x512, .bf16⟩
  | .local _ .vmem, ⟨5, _⟩ => ⟨S1x512, .f32⟩
  | .local _ .vmem, ⟨6, _⟩ => ⟨S512x128, .bf16⟩
  | .local _ .vmem, ⟨7, _⟩ => ⟨S1x128, .f32⟩
  | .local _ .vmem, ⟨8, _⟩ => ⟨S128x64, .bf16⟩
  | .local _ .vmem, ⟨9, _⟩ => ⟨S1x64, .f32⟩
  | .local _ .vmem, ⟨10, _⟩ => ⟨S1000x64, .f32⟩
  | .local _ .vmem, ⟨11, _⟩ => ⟨S1000x64, .f32⟩
  | _, _ => ⟨S50000x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_cst_0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_1 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c : Ref sig .tc := ⟨.hbm, 46, rfl⟩
abbrev main_v24 : Ref sig .tc := ⟨.hbm, 47, rfl⟩
abbrev main_v25 : Ref sig .tc := ⟨.hbm, 48, rfl⟩
abbrev main_c_2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_3 : Ref sig .tc := ⟨.hbm, 55, rfl⟩
abbrev main_v31 : Ref sig .tc := ⟨.hbm, 56, rfl⟩
abbrev main_v32 : Ref sig .tc := ⟨.hbm, 57, rfl⟩
abbrev main_c_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_5 : Ref sig .tc := ⟨.hbm, 65, rfl⟩
abbrev main_v39 : Ref sig .tc := ⟨.hbm, 66, rfl⟩
abbrev main_v40 : Ref sig .tc := ⟨.hbm, 67, rfl⟩
abbrev main_c_6 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_7 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call0_cst : Ref sig .tc := ⟨.hbm, 84, rfl⟩
abbrev main_call0_v0 : Ref sig .tc := ⟨.hbm, 85, rfl⟩
abbrev main_call0_v1 : Ref sig .tc := ⟨.hbm, 86, rfl⟩
abbrev main_call0_cst_0 : Ref sig .tc := ⟨.hbm, 87, rfl⟩
abbrev main_call0_v2 : Ref sig .tc := ⟨.hbm, 88, rfl⟩
abbrev main_call0_v3 : Ref sig .tc := ⟨.hbm, 89, rfl⟩
abbrev main_call0_cst_1 : Ref sig .tc := ⟨.hbm, 90, rfl⟩
abbrev main_call0_call0_v0 : Ref sig .tc := ⟨.hbm, 91, rfl⟩
abbrev main_call0_call0_v1 : Ref sig .tc := ⟨.hbm, 92, rfl⟩
abbrev main_call0_v4 : Ref sig .tc := ⟨.hbm, 93, rfl⟩
abbrev main_call0_v5 : Ref sig .tc := ⟨.hbm, 94, rfl⟩
abbrev main_call0_cst_2 : Ref sig .tc := ⟨.hbm, 95, rfl⟩
abbrev main_call0_v6 : Ref sig .tc := ⟨.hbm, 96, rfl⟩
abbrev main_call0_v7 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_cst_8 : Ref sig .tc := ⟨.hbm, 103, rfl⟩
abbrev main_v60 : Ref sig .tc := ⟨.hbm, 104, rfl⟩
abbrev main_cst_9 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_cst_10 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_c_11 : Ref sig .tc := ⟨.hbm, 113, rfl⟩
abbrev main_v67 : Ref sig .tc := ⟨.hbm, 114, rfl⟩
abbrev main_v68 : Ref sig .tc := ⟨.hbm, 115, rfl⟩
abbrev main_c_12 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_c_13 : Ref sig .tc := ⟨.hbm, 122, rfl⟩
abbrev main_v74 : Ref sig .tc := ⟨.hbm, 123, rfl⟩
abbrev main_v75 : Ref sig .tc := ⟨.hbm, 124, rfl⟩
abbrev main_c_14 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_c_15 : Ref sig .tc := ⟨.hbm, 132, rfl⟩
abbrev main_v82 : Ref sig .tc := ⟨.hbm, 133, rfl⟩
abbrev main_v83 : Ref sig .tc := ⟨.hbm, 134, rfl⟩
abbrev main_c_16 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_cst_17 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_c_18 : Ref sig .tc := ⟨.hbm, 151, rfl⟩
abbrev main_v98 : Ref sig .tc := ⟨.hbm, 152, rfl⟩
abbrev main_v99 : Ref sig .tc := ⟨.hbm, 153, rfl⟩
abbrev main_c_19 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_c_20 : Ref sig .tc := ⟨.hbm, 162, rfl⟩
abbrev main_v107 : Ref sig .tc := ⟨.hbm, 163, rfl⟩
abbrev main_v108 : Ref sig .tc := ⟨.hbm, 164, rfl⟩
abbrev main_c_21 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_c_22 : Ref sig .tc := ⟨.hbm, 173, rfl⟩
abbrev main_v116 : Ref sig .tc := ⟨.hbm, 174, rfl⟩
abbrev main_v117 : Ref sig .tc := ⟨.hbm, 175, rfl⟩
abbrev main_c_23 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_call1_cst : Ref sig .tc := ⟨.hbm, 187, rfl⟩
abbrev main_call1_v0 : Ref sig .tc := ⟨.hbm, 188, rfl⟩
abbrev main_call1_v1 : Ref sig .tc := ⟨.hbm, 189, rfl⟩
abbrev main_call1_cst_0 : Ref sig .tc := ⟨.hbm, 190, rfl⟩
abbrev main_call1_v2 : Ref sig .tc := ⟨.hbm, 191, rfl⟩
abbrev main_call1_v3 : Ref sig .tc := ⟨.hbm, 192, rfl⟩
abbrev main_call1_cst_1 : Ref sig .tc := ⟨.hbm, 193, rfl⟩
abbrev main_call1_call0_v0 : Ref sig .tc := ⟨.hbm, 194, rfl⟩
abbrev main_call1_call0_v1 : Ref sig .tc := ⟨.hbm, 195, rfl⟩
abbrev main_call1_v4 : Ref sig .tc := ⟨.hbm, 196, rfl⟩
abbrev main_call1_v5 : Ref sig .tc := ⟨.hbm, 197, rfl⟩
abbrev main_call1_cst_2 : Ref sig .tc := ⟨.hbm, 198, rfl⟩
abbrev main_call1_v6 : Ref sig .tc := ⟨.hbm, 199, rfl⟩
abbrev main_call1_v7 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![50], ![false]⟩

@[reducible] def k0_t1_loop : Scf.Loop 32 :=
  let c0_i32 : BitVec 32 := 0#32
  let c5_i32 : BitVec 32 := 5#32
  let v0 : BitVec 32 := Scalar.addi c0_i32 c5_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c200_i32 : BitVec 32 := 200#32
  let v1 : BitVec 32 := Scalar.muli arg11 c200_i32
  v1
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c200_i32 : BitVec 32 := 200#32
  let v1 : BitVec 32 := Scalar.muli arg11 c200_i32
  let v2 : BitVec 32 := v1
  let v3 : Index := Scalar.indexCast v2
  let c0 : Index := 0#32
  ![v3.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c200_i32 : BitVec 32 := 200#32
  let v1 : BitVec 32 := Scalar.muli arg11 c200_i32
  let v2 : BitVec 32 := v1
  let v75 : Index := Scalar.indexCast v2
  let c0_31 : Index := 0#32
  ![v75.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  shapeCasts_S1024_S1x1024 : S1024.ShapeCasts S1x1024
  shapeCasts_S512_S1x512 : S512.ShapeCasts S1x512
  shapeCasts_S128_S1x128 : S128.ShapeCasts S1x128
  shapeCasts_S64_S1x64 : S64.ShapeCasts S1x64
  h_S200x2048 : 0 < S200x2048.numel
  shapeCasts_S200x2048_S200x1024x2 : S200x2048.ShapeCasts S200x1024x2
  reduces_S200x1024x2_S200x1024 : S200x1024x2.Reduces [2] S200x1024
  reduces_S200x1024_S200 : S200x1024.Reduces [1] S200
  shapeCasts_S200_S200x1 : S200.ShapeCasts S200x1
  broadcasts_S200x1_S200x1024 : S200x1.Broadcasts S200x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S200x1024 : S1x1024.Broadcasts S200x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S200x512 : S1x512.Broadcasts S200x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  h_S200x64 : 0 < S200x64.numel
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x32_0_1 : S1650000x1.BroadcastsInDim S1650000x32 (![0, 1] : Fin 2 → Fin S1650000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S1650000x1_S1650000x16_0_1 : S1650000x1.BroadcastsInDim S1650000x16 (![0, 1] : Fin 2 → Fin S1650000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  concatenates_S200000x16_S200000x16_S200000x32_d1 : Shape.Concatenates [S200000x16, S200000x16] S200000x32 1
  bcast_S1x16_S200000x16_0_1 : S1x16.BroadcastsInDim S200000x16 (![0, 1] : Fin 2 → Fin S200000x16.rank)
  bcast_S_S200000x16 : S_.BroadcastsInDim S200000x16 (![] : Fin 0 → Fin S200000x16.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  dot_S200x1024_S1024x512_S200x512_1_0_0_1_n_n_wf : DotDims.WF S200x1024 S1024x512 S200x512 [1] [0] [0] [1] [] []
  dot_S200x512_S512x128_S200x128_1_0_0_1_n_n_wf : DotDims.WF S200x512 S512x128 S200x128 [1] [0] [0] [1] [] []
  dot_S200x128_S128x64_S200x64_1_0_0_1_n_n_wf : DotDims.WF S200x128 S128x64 S200x64 [1] [0] [0] [1] [] []
  dot_S50000x64_S64x32_S50000x32_1_0_0_1_n_n_wf : DotDims.WF S50000x64 S64x32 S50000x32 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x32_S1650000x1_S1650000x32_1_0_n_n_0_1_132_wf : GatherDims.WF S50000x32 S1650000x1 S1650000x32 [1] [0] [] [0] [] 1 ![1, 32]
  scatter_S50000x32_S1650000x1_S1650000x32_1_0_0_1_wf : ScatterDims.WF S50000x32 S1650000x1 S1650000x32 [1] [0] [0] 1
  dot_S50000x32_S32x16_S50000x16_1_0_0_1_n_n_wf : DotDims.WF S50000x32 S32x16 S50000x16 [1] [0] [0] [1] [] []
  gather_S50000x16_S1650000x1_S1650000x16_1_0_n_n_0_1_116_wf : GatherDims.WF S50000x16 S1650000x1 S1650000x16 [1] [0] [] [0] [] 1 ![1, 16]
  scatter_S50000x16_S1650000x1_S1650000x16_1_0_0_1_wf : ScatterDims.WF S50000x16 S1650000x1 S1650000x16 [1] [0] [0] 1
  gather_S2x1600000_S200000x1_S2x200000_0_1_n_n_1_1_21_wf : GatherDims.WF S2x1600000 S200000x1 S2x200000 [0] [1] [] [1] [] 1 ![2, 1]
  gather_S50000x16_S200000x1_S200000x16_1_0_n_n_0_1_116_wf : GatherDims.WF S50000x16 S200000x1 S200000x16 [1] [0] [] [0] [] 1 ![1, 16]
  dot_S200000x32_S32x16_S200000x16_1_0_0_1_n_n_wf : DotDims.WF S200000x32 S32x16 S200000x16 [1] [0] [0] [1] [] []
  dot_S200000x16_S16x2_S200000x2_1_0_0_1_n_n_wf : DotDims.WF S200000x16 S16x2 S200000x2 [1] [0] [0] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S200x2048.size a ≤ S1000x2048.size a
  k0_off2_inb : ∀ k0_t1 : Fin k0_t1_loop.trips, ∀ a, (k0_off2 k0_t1) a + S200x64.size a ≤ S1000x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2048.size a ≤ S50000x2048.size a
  hwx0_0 : ∀ i : grid0.Coords, EltTy.bits .f32 = 32 ∨ (Rect.block (s := S50000x2048) S1000x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .bf16 = 32 ∨ (Rect.block (s := S512x128) S512x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .bf16 = 32 ∨ (Rect.block (s := S128x64) S128x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x64.size a ≤ S50000x64.size a
  hwx0_9 : ∀ i : grid0.Coords, EltTy.bits .f32 = 32 ∨ (Rect.block (s := S50000x64) S1000x64.size (cc0_transform_9 i) (hinb0_9 i)).WholeWords (EltTy.packing .f32)

variable [Facts₀]

def dot_S200x1024_S1024x512_S200x512_1_0_0_1_n_n : DotDims S200x1024 S1024x512 S200x512 where
  lhsContracting := [1]
  rhsContracting := [0]
  lhsNonContracting := [0]
  rhsNonContracting := [1]
  lhsBatch := []
  rhsBatch := []
  wf := dot_S200x1024_S1024x512_S200x512_1_0_0_1_n_n_wf
def dot_S200x512_S512x128_S200x128_1_0_0_1_n_n : DotDims S200x512 S512x128 S200x128 where
  lhsContracting := [1]
  rhsContracting := [0]
  lhsNonContracting := [0]
  rhsNonContracting := [1]
  lhsBatch := []
  rhsBatch := []
  wf := dot_S200x512_S512x128_S200x128_1_0_0_1_n_n_wf
def dot_S200x128_S128x64_S200x64_1_0_0_1_n_n : DotDims S200x128 S128x64 S200x64 where
  lhsContracting := [1]
  rhsContracting := [0]
  lhsNonContracting := [0]
  rhsNonContracting := [1]
  lhsBatch := []
  rhsBatch := []
  wf := dot_S200x128_S128x64_S200x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x32_S1650000x1_S1650000x32_1_0_n_n_0_1_132 : GatherDims S50000x32 S1650000x1 S1650000x32 where
  offsetDims := [1]
  collapsedSliceDims := [0]
  operandBatchingDims := []
  startIndicesBatchingDims := []
  startIndexMap := [0]
  indexVectorDim := 1
  sliceSizes := ![1, 32]
  wf := gather_S50000x32_S1650000x1_S1650000x32_1_0_n_n_0_1_132_wf
def scatter_S50000x32_S1650000x1_S1650000x32_1_0_0_1 : ScatterDims S50000x32 S1650000x1 S1650000x32 where
  updateWindowDims := [1]
  insertedWindowDims := [0]
  scatterDimsToOperandDims := [0]
  indexVectorDim := 1
  wf := scatter_S50000x32_S1650000x1_S1650000x32_1_0_0_1_wf
def dot_S50000x32_S32x16_S50000x16_1_0_0_1_n_n : DotDims S50000x32 S32x16 S50000x16 where
  lhsContracting := [1]
  rhsContracting := [0]
  lhsNonContracting := [0]
  rhsNonContracting := [1]
  lhsBatch := []
  rhsBatch := []
  wf := dot_S50000x32_S32x16_S50000x16_1_0_0_1_n_n_wf
def gather_S50000x16_S1650000x1_S1650000x16_1_0_n_n_0_1_116 : GatherDims S50000x16 S1650000x1 S1650000x16 where
  offsetDims := [1]
  collapsedSliceDims := [0]
  operandBatchingDims := []
  startIndicesBatchingDims := []
  startIndexMap := [0]
  indexVectorDim := 1
  sliceSizes := ![1, 16]
  wf := gather_S50000x16_S1650000x1_S1650000x16_1_0_n_n_0_1_116_wf
def scatter_S50000x16_S1650000x1_S1650000x16_1_0_0_1 : ScatterDims S50000x16 S1650000x1 S1650000x16 where
  updateWindowDims := [1]
  insertedWindowDims := [0]
  scatterDimsToOperandDims := [0]
  indexVectorDim := 1
  wf := scatter_S50000x16_S1650000x1_S1650000x16_1_0_0_1_wf
def gather_S2x1600000_S200000x1_S2x200000_0_1_n_n_1_1_21 : GatherDims S2x1600000 S200000x1 S2x200000 where
  offsetDims := [0]
  collapsedSliceDims := [1]
  operandBatchingDims := []
  startIndicesBatchingDims := []
  startIndexMap := [1]
  indexVectorDim := 1
  sliceSizes := ![2, 1]
  wf := gather_S2x1600000_S200000x1_S2x200000_0_1_n_n_1_1_21_wf
def gather_S50000x16_S200000x1_S200000x16_1_0_n_n_0_1_116 : GatherDims S50000x16 S200000x1 S200000x16 where
  offsetDims := [1]
  collapsedSliceDims := [0]
  operandBatchingDims := []
  startIndicesBatchingDims := []
  startIndexMap := [0]
  indexVectorDim := 1
  sliceSizes := ![1, 16]
  wf := gather_S50000x16_S200000x1_S200000x16_1_0_n_n_0_1_116_wf
def dot_S200000x32_S32x16_S200000x16_1_0_0_1_n_n : DotDims S200000x32 S32x16 S200000x16 where
  lhsContracting := [1]
  rhsContracting := [0]
  lhsNonContracting := [0]
  rhsNonContracting := [1]
  lhsBatch := []
  rhsBatch := []
  wf := dot_S200000x32_S32x16_S200000x16_1_0_0_1_n_n_wf
def dot_S200000x16_S16x2_S200000x2_1_0_0_1_n_n : DotDims S200000x16 S16x2 S200000x2 where
  lhsContracting := [1]
  rhsContracting := [0]
  lhsNonContracting := [0]
  rhsNonContracting := [1]
  lhsBatch := []
  rhsBatch := []
  wf := dot_S200000x16_S16x2_S200000x2_1_0_0_1_n_n_wf

abbrev win0_0 : Pipeline.Window sig grid0 :=
  Pipeline.Window.ofSpec (Memref.whole main_arg0) S1000x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x2048 : Shape := ⟨2, ![50000, 2048]⟩
abbrev S2x1600000 : Shape := ⟨2, ![2, 1600000]⟩
abbrev S200000 : Shape := ⟨1, ![200000]⟩
abbrev S1024 : Shape := ⟨1, ![1024]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x1600000 : Shape := ⟨2, ![1, 1600000]⟩
abbrev S1600000 : Shape := ⟨1, ![1600000]⟩
abbrev S50000x1024x2 : Shape := ⟨3, ![50000, 1024, 2]⟩
abbrev S_ : Shape := ⟨0, ![]⟩
abbrev S50000x1024 : Shape := ⟨2, ![50000, 1024]⟩
abbrev S50000 : Shape := ⟨1, ![50000]⟩
abbrev S50000x1 : Shape := ⟨2, ![50000, 1]⟩
abbrev S1x1024 : Shape := ⟨2, ![1, 1024]⟩
abbrev S50000x512 : Shape := ⟨2, ![50000, 512]⟩
abbrev S1x512 : Shape := ⟨2, ![1, 512]⟩
abbrev S50000x128 : Shape := ⟨2, ![50000, 128]⟩
abbrev S1x128 : Shape := ⟨2, ![1, 128]⟩
abbrev S50000x64 : Shape := ⟨2, ![50000, 64]⟩
abbrev S1x64 : Shape := ⟨2, ![1, 64]⟩
abbrev S50000x32 : Shape := ⟨2, ![50000, 32]⟩
abbrev S1650000 : Shape := ⟨1, ![1650000]⟩
abbrev S1650000x1 : Shape := ⟨2, ![1650000, 1]⟩
abbrev S1650000x32 : Shape := ⟨2, ![1650000, 32]⟩
abbrev S1x32 : Shape := ⟨2, ![1, 32]⟩
abbrev S50000x16 : Shape := ⟨2, ![50000, 16]⟩
abbrev S1650000x16 : Shape := ⟨2, ![1650000, 16]⟩
abbrev S1x16 : Shape := ⟨2, ![1, 16]⟩
abbrev S200000x1 : Shape := ⟨2, ![200000, 1]⟩
abbrev S2x200000 : Shape := ⟨2, ![2, 200000]⟩
abbrev S1x200000 : Shape := ⟨2, ![1, 200000]⟩
abbrev S200000x16 : Shape := ⟨2, ![200000, 16]⟩
abbrev S200000x32 : Shape := ⟨2, ![200000, 32]⟩
abbrev S200000x2 : Shape := ⟨2, ![200000, 2]⟩
abbrev S1x2 : Shape := ⟨2, ![1, 2]⟩

abbrev nBuf : Space → Nat
  | .hbm => 286
  | .vmem => 0
  | .smem => 0
  | _ => 0

abbrev hbmTy0_0 (i : Nat) : BufTy := match i % 128 with
  | 0 => ⟨S50000x2048, .f32⟩
  | 1 => ⟨S2x1600000, .i32⟩
  | 2 => ⟨S200000, .i32⟩
  | 3 => ⟨S1024, .f32⟩
  | 4 => ⟨S1024, .f32⟩
  | 5 => ⟨S1024x512, .f32⟩
  | 6 => ⟨S512, .f32⟩
  | 7 => ⟨S512x128, .f32⟩
  | 8 => ⟨S128, .f32⟩
  | 9 => ⟨S128x64, .f32⟩
  | 10 => ⟨S64, .f32⟩
  | 11 => ⟨S64x32, .f32⟩
  | 12 => ⟨S32, .f32⟩
  | 13 => ⟨S32x16, .f32⟩
  | 14 => ⟨S16, .f32⟩
  | 15 => ⟨S32x16, .f32⟩
  | 16 => ⟨S16, .f32⟩
  | 17 => ⟨S16x2, .f32⟩
  | 18 => ⟨S2, .f32⟩
  | 19 => ⟨S1x1600000, .i32⟩
  | 20 => ⟨S1600000, .i32⟩
  | 21 => ⟨S1x1600000, .i32⟩
  | 22 => ⟨S1600000, .i32⟩
  | 23 => ⟨S50000x1024x2, .f32⟩
  | 24 => ⟨S_, .f32⟩
  | 25 => ⟨S50000x1024, .f32⟩
  | 26 => ⟨S_, .f32⟩
  | 27 => ⟨S50000, .f32⟩
  | 28 => ⟨S50000x1, .f32⟩
  | 29 => ⟨S_, .f32⟩
  | 30 => ⟨S50000x1, .f32⟩
  | 31 => ⟨S50000x1, .f32⟩
  | 32 => ⟨S50000x1024, .f32⟩
  | 33 => ⟨S50000x1024, .f32⟩
  | 34 => ⟨S50000x1024, .f32⟩
  | 35 => ⟨S_, .f32⟩
  | 36 => ⟨S50000, .f32⟩
  | 37 => ⟨S50000x1, .f32⟩
  | 38 => ⟨S_, .f32⟩
  | 39 => ⟨S50000x1, .f32⟩
  | 40 => ⟨S50000x1, .f32⟩
  | 41 => ⟨S50000x1024, .f32⟩
  | 42 => ⟨S50000x1024, .f32⟩
  | 43 => ⟨S_, .f32⟩
  | 44 => ⟨S50000x1, .f32⟩
  | 45 => ⟨S50000x1, .f32⟩
  | 46 => ⟨S50000x1, .f32⟩
  | 47 => ⟨S50000x1024, .f32⟩
  | 48 => ⟨S50000x1024, .f32⟩
  | 49 => ⟨S1x1024, .f32⟩
  | 50 => ⟨S50000x1024, .f32⟩
  | 51 => ⟨S50000x1024, .f32⟩
  | 52 => ⟨S1x1024, .f32⟩
  | 53 => ⟨S50000x1024, .f32⟩
  | 54 => ⟨S50000x1024, .f32⟩
  | 55 => ⟨S50000x512, .f32⟩
  | 56 => ⟨S1x512, .f32⟩
  | 57 => ⟨S50000x512, .f32⟩
  | 58 => ⟨S50000x512, .f32⟩
  | 59 => ⟨S_, .f32⟩
  | 60 => ⟨S50000x512, .f32⟩
  | 61 => ⟨S50000x512, .i1⟩
  | 62 => ⟨S_, .f32⟩
  | 63 => ⟨S50000x512, .f32⟩
  | 64 => ⟨S50000x512, .i1⟩
  | 65 => ⟨S_, .f32⟩
  | 66 => ⟨S_, .f32⟩
  | 67 => ⟨S50000x512, .f32⟩
  | 68 => ⟨S50000x512, .f32⟩
  | 69 => ⟨S50000x512, .f32⟩
  | 70 => ⟨S_, .f32⟩
  | 71 => ⟨S50000x512, .f32⟩
  | 72 => ⟨S50000x512, .f32⟩
  | 73 => ⟨S50000x512, .f32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S50000x128, .f32⟩
  | 80 => ⟨S50000x128, .i1⟩
  | 81 => ⟨S_, .f32⟩
  | 82 => ⟨S50000x128, .f32⟩
  | 83 => ⟨S50000x128, .i1⟩
  | 84 => ⟨S_, .f32⟩
  | 85 => ⟨S_, .f32⟩
  | 86 => ⟨S50000x128, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S50000x128, .f32⟩
  | 93 => ⟨S50000x64, .f32⟩
  | 94 => ⟨S1x64, .f32⟩
  | 95 => ⟨S50000x64, .f32⟩
  | 96 => ⟨S50000x64, .f32⟩
  | 97 => ⟨S_, .f32⟩
  | 98 => ⟨S50000x64, .f32⟩
  | 99 => ⟨S50000x64, .i1⟩
  | 100 => ⟨S_, .f32⟩
  | 101 => ⟨S50000x64, .f32⟩
  | 102 => ⟨S50000x64, .i1⟩
  | 103 => ⟨S_, .f32⟩
  | 104 => ⟨S_, .f32⟩
  | 105 => ⟨S50000x64, .f32⟩
  | 106 => ⟨S50000x64, .f32⟩
  | 107 => ⟨S50000x64, .f32⟩
  | 108 => ⟨S_, .f32⟩
  | 109 => ⟨S50000x64, .f32⟩
  | 110 => ⟨S50000x64, .f32⟩
  | 111 => ⟨S50000x64, .f32⟩
  | 112 => ⟨S50000x32, .f32⟩
  | 113 => ⟨S50000, .i32⟩
  | 114 => ⟨S1650000, .i32⟩
  | 115 => ⟨S1650000, .i32⟩
  | 116 => ⟨S_, .f32⟩
  | 117 => ⟨S1650000, .f32⟩
  | 118 => ⟨S_, .f32⟩
  | 119 => ⟨S50000, .f32⟩
  | 120 => ⟨S1650000x1, .i32⟩
  | 121 => ⟨S50000, .f32⟩
  | 122 => ⟨S_, .f32⟩
  | 123 => ⟨S50000, .f32⟩
  | 124 => ⟨S50000, .f32⟩
  | 125 => ⟨S50000, .f32⟩
  | 126 => ⟨S_, .i32⟩
  | 127 => ⟨S1650000, .i32⟩
  | _ => ⟨S50000x2048, .f32⟩

abbrev hbmTy0_1 (i : Nat) : BufTy := match i % 128 with
  | 0 => ⟨S1650000, .i1⟩
  | 1 => ⟨S_, .i32⟩
  | 2 => ⟨S1650000, .i32⟩
  | 3 => ⟨S1650000, .i32⟩
  | 4 => ⟨S1650000, .i32⟩
  | 5 => ⟨S1650000x1, .i32⟩
  | 6 => ⟨S1650000, .f32⟩
  | 7 => ⟨S_, .i32⟩
  | 8 => ⟨S1650000, .i32⟩
  | 9 => ⟨S1650000, .i1⟩
  | 10 => ⟨S_, .i32⟩
  | 11 => ⟨S1650000, .i32⟩
  | 12 => ⟨S1650000, .i32⟩
  | 13 => ⟨S1650000, .i32⟩
  | 14 => ⟨S1650000x1, .i32⟩
  | 15 => ⟨S1650000, .f32⟩
  | 16 => ⟨S1650000, .f32⟩
  | 17 => ⟨S_, .i32⟩
  | 18 => ⟨S1650000, .i32⟩
  | 19 => ⟨S1650000, .i1⟩
  | 20 => ⟨S_, .i32⟩
  | 21 => ⟨S1650000, .i32⟩
  | 22 => ⟨S1650000, .i32⟩
  | 23 => ⟨S1650000, .i32⟩
  | 24 => ⟨S1650000x1, .i32⟩
  | 25 => ⟨S1650000x32, .f32⟩
  | 26 => ⟨S1650000x1, .f32⟩
  | 27 => ⟨S1650000x32, .f32⟩
  | 28 => ⟨S1650000x32, .f32⟩
  | 29 => ⟨S_, .f32⟩
  | 30 => ⟨S50000x32, .f32⟩
  | 31 => ⟨S1650000x1, .i32⟩
  | 32 => ⟨S50000x32, .f32⟩
  | 33 => ⟨S1x32, .f32⟩
  | 34 => ⟨S50000x32, .f32⟩
  | 35 => ⟨S50000x32, .f32⟩
  | 36 => ⟨S_, .f32⟩
  | 37 => ⟨S50000x32, .f32⟩
  | 38 => ⟨S50000x32, .i1⟩
  | 39 => ⟨S_, .f32⟩
  | 40 => ⟨S50000x32, .f32⟩
  | 41 => ⟨S50000x32, .i1⟩
  | 42 => ⟨S_, .f32⟩
  | 43 => ⟨S_, .f32⟩
  | 44 => ⟨S50000x32, .f32⟩
  | 45 => ⟨S50000x32, .f32⟩
  | 46 => ⟨S50000x32, .f32⟩
  | 47 => ⟨S_, .f32⟩
  | 48 => ⟨S50000x32, .f32⟩
  | 49 => ⟨S50000x32, .f32⟩
  | 50 => ⟨S50000x32, .f32⟩
  | 51 => ⟨S50000x16, .f32⟩
  | 52 => ⟨S50000, .i32⟩
  | 53 => ⟨S1650000, .i32⟩
  | 54 => ⟨S1650000, .i32⟩
  | 55 => ⟨S_, .f32⟩
  | 56 => ⟨S1650000, .f32⟩
  | 57 => ⟨S_, .f32⟩
  | 58 => ⟨S50000, .f32⟩
  | 59 => ⟨S1650000x1, .i32⟩
  | 60 => ⟨S50000, .f32⟩
  | 61 => ⟨S_, .f32⟩
  | 62 => ⟨S50000, .f32⟩
  | 63 => ⟨S50000, .f32⟩
  | 64 => ⟨S50000, .f32⟩
  | 65 => ⟨S_, .i32⟩
  | 66 => ⟨S1650000, .i32⟩
  | 67 => ⟨S1650000, .i1⟩
  | 68 => ⟨S_, .i32⟩
  | 69 => ⟨S1650000, .i32⟩
  | 70 => ⟨S1650000, .i32⟩
  | 71 => ⟨S1650000, .i32⟩
  | 72 => ⟨S1650000x1, .i32⟩
  | 73 => ⟨S1650000, .f32⟩
  | 74 => ⟨S_, .i32⟩
  | 75 => ⟨S1650000, .i32⟩
  | 76 => ⟨S1650000, .i1⟩
  | 77 => ⟨S_, .i32⟩
  | 78 => ⟨S1650000, .i32⟩
  | 79 => ⟨S1650000, .i32⟩
  | 80 => ⟨S1650000, .i32⟩
  | 81 => ⟨S1650000x1, .i32⟩
  | 82 => ⟨S1650000, .f32⟩
  | 83 => ⟨S1650000, .f32⟩
  | 84 => ⟨S_, .i32⟩
  | 85 => ⟨S1650000, .i32⟩
  | 86 => ⟨S1650000, .i1⟩
  | 87 => ⟨S_, .i32⟩
  | 88 => ⟨S1650000, .i32⟩
  | 89 => ⟨S1650000, .i32⟩
  | 90 => ⟨S1650000, .i32⟩
  | 91 => ⟨S1650000x1, .i32⟩
  | 92 => ⟨S1650000x16, .f32⟩
  | 93 => ⟨S1650000x1, .f32⟩
  | 94 => ⟨S1650000x16, .f32⟩
  | 95 => ⟨S1650000x16, .f32⟩
  | 96 => ⟨S_, .f32⟩
  | 97 => ⟨S50000x16, .f32⟩
  | 98 => ⟨S1650000x1, .i32⟩
  | 99 => ⟨S50000x16, .f32⟩
  | 100 => ⟨S1x16, .f32⟩
  | 101 => ⟨S50000x16, .f32⟩
  | 102 => ⟨S50000x16, .f32⟩
  | 103 => ⟨S_, .i32⟩
  | 104 => ⟨S200000, .i32⟩
  | 105 => ⟨S200000, .i1⟩
  | 106 => ⟨S_, .i32⟩
  | 107 => ⟨S200000, .i32⟩
  | 108 => ⟨S200000, .i32⟩
  | 109 => ⟨S200000, .i32⟩
  | 110 => ⟨S200000x1, .i32⟩
  | 111 => ⟨S2x200000, .i32⟩
  | 112 => ⟨S1x200000, .i32⟩
  | 113 => ⟨S200000, .i32⟩
  | 114 => ⟨S_, .i32⟩
  | 115 => ⟨S200000, .i32⟩
  | 116 => ⟨S200000, .i1⟩
  | 117 => ⟨S_, .i32⟩
  | 118 => ⟨S200000, .i32⟩
  | 119 => ⟨S200000, .i32⟩
  | 120 => ⟨S200000, .i32⟩
  | 121 => ⟨S200000x1, .i32⟩
  | 122 => ⟨S200000x16, .f32⟩
  | 123 => ⟨S1x200000, .i32⟩
  | 124 => ⟨S200000, .i32⟩
  | 125 => ⟨S_, .i32⟩
  | 126 => ⟨S200000, .i32⟩
  | 127 => ⟨S200000, .i1⟩
  | _ => ⟨S50000x2048, .f32⟩

abbrev hbmTy0_2 (i : Nat) : BufTy := match i % 128 with
  | 0 => ⟨S_, .i32⟩
  | 1 => ⟨S200000, .i32⟩
  | 2 => ⟨S200000, .i32⟩
  | 3 => ⟨S200000, .i32⟩
  | 4 => ⟨S200000x1, .i32⟩
  | 5 => ⟨S200000x16, .f32⟩
  | 6 => ⟨S200000x32, .f32⟩
  | 7 => ⟨S200000x16, .f32⟩
  | 8 => ⟨S1x16, .f32⟩
  | 9 => ⟨S200000x16, .f32⟩
  | 10 => ⟨S200000x16, .f32⟩
  | 11 => ⟨S_, .f32⟩
  | 12 => ⟨S200000x16, .f32⟩
  | 13 => ⟨S200000x16, .i1⟩
  | 14 => ⟨S_, .f32⟩
  | 15 => ⟨S200000x16, .f32⟩
  | 16 => ⟨S200000x16, .i1⟩
  | 17 => ⟨S_, .f32⟩
  | 18 => ⟨S_, .f32⟩
  | 19 => ⟨S200000x16, .f32⟩
  | 20 => ⟨S200000x16, .f32⟩
  | 21 => ⟨S200000x16, .f32⟩
  | 22 => ⟨S_, .f32⟩
  | 23 => ⟨S200000x16, .f32⟩
  | 24 => ⟨S200000x16, .f32⟩
  | 25 => ⟨S200000x16, .f32⟩
  | 26 => ⟨S200000x2, .f32⟩
  | 27 => ⟨S1x2, .f32⟩
  | 28 => ⟨S200000x2, .f32⟩
  | 29 => ⟨S200000x2, .f32⟩
  | _ => ⟨S50000x2048, .f32⟩

abbrev hbmTy (i : Nat) : BufTy := match i / 128 with
  | 0 => hbmTy0_0 i
  | 1 => hbmTy0_1 i
  | 2 => hbmTy0_2 i
  | _ => ⟨S50000x2048, .f32⟩

abbrev bufTy : (tb : Table) → Fin (tcTables nBuf tb) → BufTy
  | .hbm, ⟨i, _⟩ => hbmTy i
  | _, _ => ⟨S50000x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_2 : Ref sig .tc := ⟨.hbm, 35, rfl⟩
abbrev main_v13 : Ref sig .tc := ⟨.hbm, 36, rfl⟩
abbrev main_v14 : Ref sig .tc := ⟨.hbm, 37, rfl⟩
abbrev main_cst_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_cst_0 : Ref sig .tc := ⟨.hbm, 62, rfl⟩
abbrev main_call0_v2 : Ref sig .tc := ⟨.hbm, 63, rfl⟩
abbrev main_call0_v3 : Ref sig .tc := ⟨.hbm, 64, rfl⟩
abbrev main_call0_cst_1 : Ref sig .tc := ⟨.hbm, 65, rfl⟩
abbrev main_call0_call0_v0 : Ref sig .tc := ⟨.hbm, 66, rfl⟩
abbrev main_call0_call0_v1 : Ref sig .tc := ⟨.hbm, 67, rfl⟩
abbrev main_call0_v4 : Ref sig .tc := ⟨.hbm, 68, rfl⟩
abbrev main_call0_v5 : Ref sig .tc := ⟨.hbm, 69, rfl⟩
abbrev main_call0_cst_2 : Ref sig .tc := ⟨.hbm, 70, rfl⟩
abbrev main_call0_v6 : Ref sig .tc := ⟨.hbm, 71, rfl⟩
abbrev main_call0_v7 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_cst_0 : Ref sig .tc := ⟨.hbm, 81, rfl⟩
abbrev main_call1_v2 : Ref sig .tc := ⟨.hbm, 82, rfl⟩
abbrev main_call1_v3 : Ref sig .tc := ⟨.hbm, 83, rfl⟩
abbrev main_call1_cst_1 : Ref sig .tc := ⟨.hbm, 84, rfl⟩
abbrev main_call1_call0_v0 : Ref sig .tc := ⟨.hbm, 85, rfl⟩
abbrev main_call1_call0_v1 : Ref sig .tc := ⟨.hbm, 86, rfl⟩
abbrev main_call1_v4 : Ref sig .tc := ⟨.hbm, 87, rfl⟩
abbrev main_call1_v5 : Ref sig .tc := ⟨.hbm, 88, rfl⟩
abbrev main_call1_cst_2 : Ref sig .tc := ⟨.hbm, 89, rfl⟩
abbrev main_call1_v6 : Ref sig .tc := ⟨.hbm, 90, rfl⟩
abbrev main_call1_v7 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_call2_cst : Ref sig .tc := ⟨.hbm, 97, rfl⟩
abbrev main_call2_v0 : Ref sig .tc := ⟨.hbm, 98, rfl⟩
abbrev main_call2_v1 : Ref sig .tc := ⟨.hbm, 99, rfl⟩
abbrev main_call2_cst_0 : Ref sig .tc := ⟨.hbm, 100, rfl⟩
abbrev main_call2_v2 : Ref sig .tc := ⟨.hbm, 101, rfl⟩
abbrev main_call2_v3 : Ref sig .tc := ⟨.hbm, 102, rfl⟩
abbrev main_call2_cst_1 : Ref sig .tc := ⟨.hbm, 103, rfl⟩
abbrev main_call2_call0_v0 : Ref sig .tc := ⟨.hbm, 104, rfl⟩
abbrev main_call2_call0_v1 : Ref sig .tc := ⟨.hbm, 105, rfl⟩
abbrev main_call2_v4 : Ref sig .tc := ⟨.hbm, 106, rfl⟩
abbrev main_call2_v5 : Ref sig .tc := ⟨.hbm, 107, rfl⟩
abbrev main_call2_cst_2 : Ref sig .tc := ⟨.hbm, 108, rfl⟩
abbrev main_call2_v6 : Ref sig .tc := ⟨.hbm, 109, rfl⟩
abbrev main_call2_v7 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_cst_5 : Ref sig .tc := ⟨.hbm, 116, rfl⟩
abbrev main_v49 : Ref sig .tc := ⟨.hbm, 117, rfl⟩
abbrev main_cst_6 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_cst_7 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_c : Ref sig .tc := ⟨.hbm, 126, rfl⟩
abbrev main_v56 : Ref sig .tc := ⟨.hbm, 127, rfl⟩
abbrev main_v57 : Ref sig .tc := ⟨.hbm, 128, rfl⟩
abbrev main_c_8 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_c_9 : Ref sig .tc := ⟨.hbm, 135, rfl⟩
abbrev main_v63 : Ref sig .tc := ⟨.hbm, 136, rfl⟩
abbrev main_v64 : Ref sig .tc := ⟨.hbm, 137, rfl⟩
abbrev main_c_10 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_c_11 : Ref sig .tc := ⟨.hbm, 145, rfl⟩
abbrev main_v71 : Ref sig .tc := ⟨.hbm, 146, rfl⟩
abbrev main_v72 : Ref sig .tc := ⟨.hbm, 147, rfl⟩
abbrev main_c_12 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_cst_13 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_call3_cst : Ref sig .tc := ⟨.hbm, 164, rfl⟩
abbrev main_call3_v0 : Ref sig .tc := ⟨.hbm, 165, rfl⟩
abbrev main_call3_v1 : Ref sig .tc := ⟨.hbm, 166, rfl⟩
abbrev main_call3_cst_0 : Ref sig .tc := ⟨.hbm, 167, rfl⟩
abbrev main_call3_v2 : Ref sig .tc := ⟨.hbm, 168, rfl⟩
abbrev main_call3_v3 : Ref sig .tc := ⟨.hbm, 169, rfl⟩
abbrev main_call3_cst_1 : Ref sig .tc := ⟨.hbm, 170, rfl⟩
abbrev main_call3_call0_v0 : Ref sig .tc := ⟨.hbm, 171, rfl⟩
abbrev main_call3_call0_v1 : Ref sig .tc := ⟨.hbm, 172, rfl⟩
abbrev main_call3_v4 : Ref sig .tc := ⟨.hbm, 173, rfl⟩
abbrev main_call3_v5 : Ref sig .tc := ⟨.hbm, 174, rfl⟩
abbrev main_call3_cst_2 : Ref sig .tc := ⟨.hbm, 175, rfl⟩
abbrev main_call3_v6 : Ref sig .tc := ⟨.hbm, 176, rfl⟩
abbrev main_call3_v7 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_v91 : Ref sig .tc := ⟨.hbm, 182, rfl⟩
abbrev main_cst_14 : Ref sig .tc := ⟨.hbm, 183, rfl⟩
abbrev main_v92 : Ref sig .tc := ⟨.hbm, 184, rfl⟩
abbrev main_cst_15 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_cst_16 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_c_17 : Ref sig .tc := ⟨.hbm, 193, rfl⟩
abbrev main_v99 : Ref sig .tc := ⟨.hbm, 194, rfl⟩
abbrev main_v100 : Ref sig .tc := ⟨.hbm, 195, rfl⟩
abbrev main_c_18 : Ref sig .tc := ⟨.hbm, 196, rfl⟩
abbrev main_v101 : Ref sig .tc := ⟨.hbm, 197, rfl⟩
abbrev main_v102 : Ref sig .tc := ⟨.hbm, 198, rfl⟩
abbrev main_v103 : Ref sig .tc := ⟨.hbm, 199, rfl⟩
abbrev main_v104 : Ref sig .tc := ⟨.hbm, 200, rfl⟩
abbrev main_v105 : Ref sig .tc := ⟨.hbm, 201, rfl⟩
abbrev main_c_19 : Ref sig .tc := ⟨.hbm, 202, rfl⟩
abbrev main_v106 : Ref sig .tc := ⟨.hbm, 203, rfl⟩
abbrev main_v107 : Ref sig .tc := ⟨.hbm, 204, rfl⟩
abbrev main_c_20 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_v113 : Ref sig .tc := ⟨.hbm, 211, rfl⟩
abbrev main_c_21 : Ref sig .tc := ⟨.hbm, 212, rfl⟩
abbrev main_v114 : Ref sig .tc := ⟨.hbm, 213, rfl⟩
abbrev main_v115 : Ref sig .tc := ⟨.hbm, 214, rfl⟩
abbrev main_c_22 : Ref sig .tc := ⟨.hbm, 215, rfl⟩
abbrev main_v116 : Ref sig .tc := ⟨.hbm, 216, rfl⟩
abbrev main_v117 : Ref sig .tc := ⟨.hbm, 217, rfl⟩
abbrev main_v118 : Ref sig .tc := ⟨.hbm, 218, rfl⟩
abbrev main_v119 : Ref sig .tc := ⟨.hbm, 219, rfl⟩
abbrev main_v120 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_cst_23 : Ref sig .tc := ⟨.hbm, 224, rfl⟩
abbrev main_v124 : Ref sig .tc := ⟨.hbm, 225, rfl⟩
abbrev main_v125 : Ref sig .tc := ⟨.hbm, 226, rfl⟩
abbrev main_v126 : Ref sig .tc := ⟨.hbm, 227, rfl⟩
abbrev main_v127 : Ref sig .tc := ⟨.hbm, 228, rfl⟩
abbrev main_v128 : Ref sig .tc := ⟨.hbm, 229, rfl⟩
abbrev main_v129 : Ref sig .tc := ⟨.hbm, 230, rfl⟩
abbrev main_c_24 : Ref sig .tc := ⟨.hbm, 231, rfl⟩
abbrev main_v130 : Ref sig .tc := ⟨.hbm, 232, rfl⟩
abbrev main_v131 : Ref sig .tc := ⟨.hbm, 233, rfl⟩
abbrev main_c_25 : Ref sig .tc := ⟨.hbm, 234, rfl⟩
abbrev main_v132 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_v136 : Ref sig .tc := ⟨.hbm, 239, rfl⟩
abbrev main_v137 : Ref sig .tc := ⟨.hbm, 240, rfl⟩
abbrev main_v138 : Ref sig .tc := ⟨.hbm, 241, rfl⟩
abbrev main_c_26 : Ref sig .tc := ⟨.hbm, 242, rfl⟩
abbrev main_v139 : Ref sig .tc := ⟨.hbm, 243, rfl⟩
abbrev main_v140 : Ref sig .tc := ⟨.hbm, 244, rfl⟩
abbrev main_c_27 : Ref sig .tc := ⟨.hbm, 245, rfl⟩
abbrev main_v141 : Ref sig .tc := ⟨.hbm, 246, rfl⟩
abbrev main_v142 : Ref sig .tc := ⟨.hbm, 247, rfl⟩
abbrev main_v143 : Ref sig .tc := ⟨.hbm, 248, rfl⟩
abbrev main_v144 : Ref sig .tc := ⟨.hbm, 249, rfl⟩
abbrev main_v145 : Ref sig .tc := ⟨.hbm, 250, rfl⟩
abbrev main_v146 : Ref sig .tc := ⟨.hbm, 251, rfl⟩
abbrev main_v147 : Ref sig .tc := ⟨.hbm, 252, rfl⟩
abbrev main_c_28 : Ref sig .tc := ⟨.hbm, 253, rfl⟩
abbrev main_v148 : Ref sig .tc := ⟨.hbm, 254, rfl⟩
abbrev main_v149 : Ref sig .tc := ⟨.hbm, 255, rfl⟩
abbrev main_c_29 : Ref sig .tc := ⟨.hbm, 256, rfl⟩
abbrev main_v150 : Ref sig .tc := ⟨.hbm, 257, rfl⟩
abbrev main_v151 : Ref sig .tc := ⟨.hbm, 258, rfl⟩
abbrev main_v152 : Ref sig .tc := ⟨.hbm, 259, rfl⟩
abbrev main_v153 : Ref sig .tc := ⟨.hbm, 260, rfl⟩
abbrev main_v154 : Ref sig .tc := ⟨.hbm, 261, rfl⟩
abbrev main_v155 : Ref sig .tc := ⟨.hbm, 262, rfl⟩
abbrev main_v156 : Ref sig .tc := ⟨.hbm, 263, rfl⟩
abbrev main_v157 : Ref sig .tc := ⟨.hbm, 264, rfl⟩
abbrev main_v158 : Ref sig .tc := ⟨.hbm, 265, rfl⟩
abbrev main_v159 : Ref sig .tc := ⟨.hbm, 266, rfl⟩
abbrev main_call4_cst : Ref sig .tc := ⟨.hbm, 267, rfl⟩
abbrev main_call4_v0 : Ref sig .tc := ⟨.hbm, 268, rfl⟩
abbrev main_call4_v1 : Ref sig .tc := ⟨.hbm, 269, rfl⟩
abbrev main_call4_cst_0 : Ref sig .tc := ⟨.hbm, 270, rfl⟩
abbrev main_call4_v2 : Ref sig .tc := ⟨.hbm, 271, rfl⟩
abbrev main_call4_v3 : Ref sig .tc := ⟨.hbm, 272, rfl⟩
abbrev main_call4_cst_1 : Ref sig .tc := ⟨.hbm, 273, rfl⟩
abbrev main_call4_call0_v0 : Ref sig .tc := ⟨.hbm, 274, rfl⟩
abbrev main_call4_call0_v1 : Ref sig .tc := ⟨.hbm, 275, rfl⟩
abbrev main_call4_v4 : Ref sig .tc := ⟨.hbm, 276, rfl⟩
abbrev main_call4_v5 : Ref sig .tc := ⟨.hbm, 277, rfl⟩
abbrev main_call4_cst_2 : Ref sig .tc := ⟨.hbm, 278, rfl⟩
abbrev main_call4_v6 : Ref sig .tc := ⟨.hbm, 279, rfl⟩
abbrev main_call4_v7 : Ref sig .tc := ⟨.hbm, 280, rfl⟩
abbrev main_v160 : Ref sig .tc := ⟨.hbm, 281, rfl⟩
abbrev main_v161 : Ref sig .tc := ⟨.hbm, 282, rfl⟩
abbrev main_v162 : Ref sig .tc := ⟨.hbm, 283, rfl⟩
abbrev main_v163 : Ref sig .tc := ⟨.hbm, 284, rfl⟩
abbrev main_v164 : Ref sig .tc := ⟨.hbm, 285, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S50000x2048_S50000x1024x2 : S50000x2048.ShapeCasts S50000x1024x2
  reducesTo_S50000x1024x2_S50000x1024_d2 : S50000x1024x2.ReducesTo [2] S50000x1024
  h_S_ : 0 < S_.numel
  reducesTo_S50000x1024_S50000_d1 : S50000x1024.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x1024_0_1 : S50000x1.BroadcastsInDim S50000x1024 (![0, 1] : Fin 2 → Fin S50000x1024.rank)
  bcast_S1024_S1x1024_1 : S1024.BroadcastsInDim S1x1024 (![1] : Fin 1 → Fin S1x1024.rank)
  bcast_S1x1024_S50000x1024_0_1 : S1x1024.BroadcastsInDim S50000x1024 (![0, 1] : Fin 2 → Fin S50000x1024.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x32_0_1 : S1650000x1.BroadcastsInDim S1650000x32 (![0, 1] : Fin 2 → Fin S1650000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S1650000x1_S1650000x16_0_1 : S1650000x1.BroadcastsInDim S1650000x16 (![0, 1] : Fin 2 → Fin S1650000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  concatenates_S200000x16_S200000x16_S200000x32_d1 : Shape.Concatenates [S200000x16, S200000x16] S200000x32 1
  bcast_S1x16_S200000x16_0_1 : S1x16.BroadcastsInDim S200000x16 (![0, 1] : Fin 2 → Fin S200000x16.rank)
  bcast_S_S200000x16 : S_.BroadcastsInDim S200000x16 (![] : Fin 0 → Fin S200000x16.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  dot_S50000x1024_S1024x512_S50000x512_1_0_0_1_n_n_wf : DotDims.WF S50000x1024 S1024x512 S50000x512 [1] [0] [0] [1] [] []
  dot_S50000x512_S512x128_S50000x128_1_0_0_1_n_n_wf : DotDims.WF S50000x512 S512x128 S50000x128 [1] [0] [0] [1] [] []
  dot_S50000x128_S128x64_S50000x64_1_0_0_1_n_n_wf : DotDims.WF S50000x128 S128x64 S50000x64 [1] [0] [0] [1] [] []
  dot_S50000x64_S64x32_S50000x32_1_0_0_1_n_n_wf : DotDims.WF S50000x64 S64x32 S50000x32 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x32_S1650000x1_S1650000x32_1_0_n_n_0_1_132_wf : GatherDims.WF S50000x32 S1650000x1 S1650000x32 [1] [0] [] [0] [] 1 ![1, 32]
  scatter_S50000x32_S1650000x1_S1650000x32_1_0_0_1_wf : ScatterDims.WF S50000x32 S1650000x1 S1650000x32 [1] [0] [0] 1
  dot_S50000x32_S32x16_S50000x16_1_0_0_1_n_n_wf : DotDims.WF S50000x32 S32x16 S50000x16 [1] [0] [0] [1] [] []
  gather_S50000x16_S1650000x1_S1650000x16_1_0_n_n_0_1_116_wf : GatherDims.WF S50000x16 S1650000x1 S1650000x16 [1] [0] [] [0] [] 1 ![1, 16]
  scatter_S50000x16_S1650000x1_S1650000x16_1_0_0_1_wf : ScatterDims.WF S50000x16 S1650000x1 S1650000x16 [1] [0] [0] 1
  gather_S2x1600000_S200000x1_S2x200000_0_1_n_n_1_1_21_wf : GatherDims.WF S2x1600000 S200000x1 S2x200000 [0] [1] [] [1] [] 1 ![2, 1]
  gather_S50000x16_S200000x1_S200000x16_1_0_n_n_0_1_116_wf : GatherDims.WF S50000x16 S200000x1 S200000x16 [1] [0] [] [0] [] 1 ![1, 16]
  dot_S200000x32_S32x16_S200000x16_1_0_0_1_n_n_wf : DotDims.WF S200000x32 S32x16 S200000x16 [1] [0] [0] [1] [] []
  dot_S200000x16_S16x2_S200000x2_1_0_0_1_n_n_wf : DotDims.WF S200000x16 S16x2 S200000x2 [1] [0] [0] [1] [] []

variable [Facts₀]

def dot_S50000x1024_S1024x512_S50000x512_1_0_0_1_n_n : DotDims S50000x1024 S1024x512 S50000x512 where
  lhsContracting := [1]
  rhsContracting := [0]
  lhsNonContracting := [0]
  rhsNonContracting := [1]
  lhsBatch := []
  rhsBatch := []
  wf := dot_S50000x1024_S1024x512_S50000x512_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x32_S1650000x1_S1650000x32_1_0_n_n_0_1_132 : GatherDims S50000x32 S1650000x1 S1650000x32 where
  offsetDims := [1]
  collapsedSliceDims := [0]
  operandBatchingDims := []
  startIndicesBatchingDims := []
  startIndexMap := [0]
  indexVectorDim := 1
  sliceSizes := ![1, 32]
  wf := gather_S50000x32_S1650000x1_S1650000x32_1_0_n_n_0_1_132_wf
def scatter_S50000x32_S1650000x1_S1650000x32_1_0_0_1 : ScatterDims S50000x32 S1650000x1 S1650000x32 where
  updateWindowDims := [1]
  insertedWindowDims := [0]
  scatterDimsToOperandDims := [0]
  indexVectorDim := 1
  wf := scatter_S50000x32_S1650000x1_S1650000x32_1_0_0_1_wf
def dot_S50000x32_S32x16_S50000x16_1_0_0_1_n_n : DotDims S50000x32 S32x16 S50000x16 where
  lhsContracting := [1]
  rhsContracting := [0]
  lhsNonContracting := [0]
  rhsNonContracting := [1]
  lhsBatch := []
  rhsBatch := []
  wf := dot_S50000x32_S32x16_S50000x16_1_0_0_1_n_n_wf
def gather_S50000x16_S1650000x1_S1650000x16_1_0_n_n_0_1_116 : GatherDims S50000x16 S1650000x1 S1650000x16 where
  offsetDims := [1]
  collapsedSliceDims := [0]
  operandBatchingDims := []
  startIndicesBatchingDims := []
  startIndexMap := [0]
  indexVectorDim := 1
  sliceSizes := ![1, 16]
  wf := gather_S50000x16_S1650000x1_S1650000x16_1_0_n_n_0_1_116_wf
def scatter_S50000x16_S1650000x1_S1650000x16_1_0_0_1 : ScatterDims S50000x16 S1650000x1 S1650000x16 where
  updateWindowDims := [1]
  insertedWindowDims := [0]
  scatterDimsToOperandDims := [0]
  indexVectorDim := 1
  wf := scatter_S50000x16_S1650000x1_S1650000x16_1_0_0_1_wf
def gather_S2x1600000_S200000x1_S2x200000_0_1_n_n_1_1_21 : GatherDims S2x1600000 S200000x1 S2x200000 where
  offsetDims := [0]
  collapsedSliceDims := [1]
  operandBatchingDims := []
  startIndicesBatchingDims := []
  startIndexMap := [1]
  indexVectorDim := 1
  sliceSizes := ![2, 1]
  wf := gather_S2x1600000_S200000x1_S2x200000_0_1_n_n_1_1_21_wf
def gather_S50000x16_S200000x1_S200000x16_1_0_n_n_0_1_116 : GatherDims S50000x16 S200000x1 S200000x16 where
  offsetDims := [1]
  collapsedSliceDims := [0]
  operandBatchingDims := []
  startIndicesBatchingDims := []
  startIndexMap := [0]
  indexVectorDim := 1
  sliceSizes := ![1, 16]
  wf := gather_S50000x16_S200000x1_S200000x16_1_0_n_n_0_1_116_wf
def dot_S200000x32_S32x16_S200000x16_1_0_0_1_n_n : DotDims S200000x32 S32x16 S200000x16 where
  lhsContracting := [1]
  rhsContracting := [0]
  lhsNonContracting := [0]
  rhsNonContracting := [1]
  lhsBatch := []
  rhsBatch := []
  wf := dot_S200000x32_S32x16_S200000x16_1_0_0_1_n_n_wf
def dot_S200000x16_S16x2_S200000x2_1_0_0_1_n_n : DotDims S200000x16 S16x2 S200000x2 where
  lhsContracting := [1]
  rhsContracting := [0]
  lhsNonContracting := [0]
  rhsNonContracting := [1]
  lhsBatch := []
  rhsBatch := []
  wf := dot_S200000x16_S16x2_S200000x2_1_0_0_1_n_n_wf

class Facts : Prop extends Facts₀ where

variable [Facts]
-- ==== Proof.KBHostDefs.lean ====
import proofs.«106491_j82652350644592_2_alg».proof.Proof.Gen.Kernel.Launch
import proofs.«106491_j82652350644592_2_alg».proof.Proof.Gen.Kernel.Skeleton
import proofs.«106491_j82652350644592_2_alg».proof.Proof.Gen.Kernel.Points
import proofs.«106491_j82652350644592_2_alg».proof.Proof.Gen.Kernel.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The valuation at the region's entry, and the windows' blocks read off it -/

/-- The stretches of host lines after the region, in order. -/
abbrev tails : List (List (HloOp τ sig (Elt F))) :=
  [Gen.hostOps1, Gen.hostOps1_1, Gen.hostOps1_2, Gen.hostOps1_3, Gen.hostOps1_4]

/-- Core `c`'s TensorCore buffer contents when the region is entered, as a valuation: the initial memory after the
    host lines before the region. -/
abbrev V0 (m : (ℓ : Loc nD τ sig) → Buf (Elt F) ℓ) (c : Dev nD) : Valuation τ sig (Elt F) :=
  StableHlo.after (List.flatten [Gen.hostOps0]) (fun b => m (c, b))

/-- The same read at a TensorCore reference. -/
abbrev V (m : (ℓ : Loc nD τ sig) → Buf (Elt F) ℓ) (c : Dev nD) (b : Ref sig .tc) :
    Buf (Elt F) ((c : Thread nD τ).loc b) := V0 m c (Proc.devRef .tc b)

/-- Window `w`'s block at point `t`, read off its array as the region finds it. -/
def iblk (m : (ℓ : Loc nD τ sig) → Buf (Elt F) ℓ) (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

end Cert.Kernel.Hand

end
-- ==== Proof.KBBodyRun.lean ====
import proofs.«106491_j82652350644592_2_alg».proof.Proof.KBHostDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel body on any staging memrefs

The body is one counted loop of five trips; trip `k` reads rows `200 k … 200 k + 199` of the input block and the
whole of the eight parameter blocks, and stores one `200 × 64` slab of the output block at row offset `200 k`.
Run on ten whole memrefs — the nine inputs at given contents, the output at anything — it hands the continuation
the inputs as they were and the output with the five slabs written: the list of those slabs (last first) is the
witness the run finds. -/

/-- One staging buffer of the output window, through which its contents are stated (over a cover the choice of
    the buffer does not matter). -/
abbrev VO0_9 : View sig .tc .vmem S1000x64 .f32 := (Memref.whole cc0_stg9_0 : Memref sig .tc .vmem S1000x64 .f32).view

/-- Window 0's current staging memref at point `t`, and its wholeness. -/
abbrev ms0_0 (t : Fin cfg0.N) : Memref sig .tc .vmem S1000x2048 .f32 := win0_0.stage (cfg0.slots t 0)
abbrev hs0_0 (t : Fin cfg0.N) : (ms0_0 t).IsWhole := hstage0_0 ((cfg0.slots t 0).cast nbuf0_0)
/-- Window 1's current staging memref at point `t`, and its wholeness. -/
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
/-- Window 2's current staging memref at point `t`, and its wholeness. -/
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
/-- Window 3's current staging memref at point `t`, and its wholeness. -/
abbrev ms0_3 (t : Fin cfg0.N) : Memref sig .tc .vmem S1024x512 .bf16 := win0_3.stage (cfg0.slots t 3)
abbrev hs0_3 (t : Fin cfg0.N) : (ms0_3 t).IsWhole := hstage0_3 ((cfg0.slots t 3).cast nbuf0_3)
/-- Window 4's current staging memref at point `t`, and its wholeness. -/
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
/-- Window 5's current staging memref at point `t`, and its wholeness. -/
abbrev ms0_5 (t : Fin cfg0.N) : Memref sig .tc .vmem S512x128 .bf16 := win0_5.stage (cfg0.slots t 5)
abbrev hs0_5 (t : Fin cfg0.N) : (ms0_5 t).IsWhole := hstage0_5 ((cfg0.slots t 5).cast nbuf0_5)
/-- Window 6's current staging memref at point `t`, and its wholeness. -/
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
/-- Window 7's current staging memref at point `t`, and its wholeness. -/
abbrev ms0_7 (t : Fin cfg0.N) : Memref sig .tc .vmem S128x64 .bf16 := win0_7.stage (cfg0.slots t 7)
abbrev hs0_7 (t : Fin cfg0.N) : (ms0_7 t).IsWhole := hstage0_7 ((cfg0.slots t 7).cast nbuf0_7)
/-- Window 8's current staging memref at point `t`, and its wholeness. -/
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)
/-- Window 9's current staging memref at point `t`, and its wholeness. -/
abbrev ms0_9 (t : Fin cfg0.N) : Memref sig .tc .vmem S1000x64 .f32 := win0_9.stage (cfg0.slots t 9)
abbrev hs0_9 (t : Fin cfg0.N) : (ms0_9 t).IsWhole := hstage0_9 ((cfg0.slots t 9).cast nbuf0_9)

set_option maxHeartbeats 1000000 in
/-- What the body's stores leave in the output's memref, as pieces (last first), WITH the proof that on whole
    memrefs — the inputs' at their contents `x0 … x8`, the output's at anything — the body runs to the
    continuation holding the inputs' as they were and the output's with the pieces written. -/
noncomputable def kernelRun0 (c : Dev nD) (i : grid0.Coords) (arg1 : Memref sig .tc .vmem S1000x2048 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1x512 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S128x64 .bf16) (harg8 : arg8.IsWhole) (arg9 : Memref sig .tc .vmem S1x64 .f32) (harg9 : arg9.IsWhole) (arg10 : Memref sig .tc .vmem S1000x64 .f32) (harg10 : arg10.IsWhole)
    (x0 : Vec F S1000x2048 .f32) (x1 x2 : Vec F S1x1024 .f32) (x3 : Vec F S1024x512 .bf16) (x4 : Vec F S1x512 .f32) (x5 : Vec F S512x128 .bf16) (x6 : Vec F S1x128 .f32) (x7 : Vec F S128x64 .bf16) (x8 : Vec F S1x64 .f32) :
    { L9 : List (View.Piece (Elt F) S1000x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9)) -∗ K ⟨⟩))
          ⊢ wp frame (wpE (defs₀ (F := F)) Variants.none c none) E (cc0__pool_norm_mlp_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__pool_norm_mlp_kernel_eq_skeleton]; unfold cc0__pool_norm_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    iexists _; iexact H9

end Cert.Kernel.Hand

end
-- ==== Proof.KBBody.lean ====
import proofs.«106491_j82652350644592_2_alg».proof.Proof.KBBodyRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the output's buffer holds after the body

The five slabs the run writes are rows `200 k … 200 k + 199` for `k = 0 … 4`: they tile the `1000 × 64` block, so
every index of the block lies in one of them, and reading the buffer back does not depend on what it held before. -/

/-- The run's pieces for the output tile its block (five slabs of `200 × 64`), so they cover it. -/
theorem cover0_9 (c : Dev nD) (i : grid0.Coords) (arg1 : Memref sig .tc .vmem S1000x2048 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1x512 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S128x64 .bf16) (harg8 : arg8.IsWhole) (arg9 : Memref sig .tc .vmem S1x64 .f32) (harg9 : arg9.IsWhole) (arg10 : Memref sig .tc .vmem S1000x64 .f32) (harg10 : arg10.IsWhole)
    (x0 : Vec F S1000x2048 .f32) (x1 x2 : Vec F S1x1024 .f32) (x3 : Vec F S1024x512 .bf16) (x4 : Vec F S1x512 .f32) (x5 : Vec F S512x128 .bf16) (x6 : Vec F S1x128 .f32) (x7 : Vec F S128x64 .bf16) (x8 : Vec F S1x64 .f32) (y : S1000x64.Idx) :
    ∃ pc ∈ (kernelRun0 c i arg1 harg1 arg2 harg2 arg3 harg3 arg4 harg4 arg5 harg5 arg6 harg6 arg7 harg7 arg8 harg8 arg9 harg9 arg10 harg10 x0 x1 x2 x3 x4 x5 x6 x7 x8).1, y ∈ pc.1.set :=
  View.cover_of_tiledL (kernelRun0 c i arg1 harg1 arg2 harg2 arg3 harg3 arg4 harg4 arg5 harg5 arg6 harg6 arg7 harg7 arg8 harg8 arg9 harg9 arg10 harg10 x0 x1 x2 x3 x4 x5 x6 x7 x8).1 S200x64.size (by sl_kernel_rfl) y

/-- What the run leaves in the output's buffer: its pieces read back over junk. -/
def out0_9 (c : Dev nD) (i : grid0.Coords) (arg1 : Memref sig .tc .vmem S1000x2048 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1x512 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S128x64 .bf16) (harg8 : arg8.IsWhole) (arg9 : Memref sig .tc .vmem S1x64 .f32) (harg9 : arg9.IsWhole) (arg10 : Memref sig .tc .vmem S1000x64 .f32) (harg10 : arg10.IsWhole)
    (x0 : Vec F S1000x2048 .f32) (x1 x2 : Vec F S1x1024 .f32) (x3 : Vec F S1024x512 .bf16) (x4 : Vec F S1x512 .f32) (x5 : Vec F S512x128 .bf16) (x6 : Vec F S1x128 .f32) (x7 : Vec F S128x64 .bf16) (x8 : Vec F S1x64 .f32) : Vec F S1000x64 .f32 :=
  VO0_9.read (Elt F) (VO0_9.writes (Elt F) VO0_9.junk (kernelRun0 c i arg1 harg1 arg2 harg2 arg3 harg3 arg4 harg4 arg5 harg5 arg6 harg6 arg7 harg7 arg8 harg8 arg9 harg9 arg10 harg10 x0 x1 x2 x3 x4 x5 x6 x7 x8).1)

/-- What the output's buffer holds after the body at point `t`: the run's contents at the point's memrefs and
    input blocks. -/
def outsAt0 (c : Dev nD) (t : Fin cfg0.N) : Vec F S1000x64 .f32 :=
  out0_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) (iblk m c 8 t)

/-! ## The pipeline's proof data -/

/-- The proof data of the one pipeline on core `c`: the arrays as the region finds them; after the body at point
    `t` each input's buffer at its block and the output's at `outsAt0`; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t)
  Φ _ := Pipeline.ΦA spec0 c
  q _ := fullShare
  owed _ := 0

/-- The proof data's arrays are the region-entry contents (the definition projected, the valuation never unfolded). -/
theorem A_eq (c : Dev nD) (w : Fin cfg0.W) : (dats m 0 c).A w = V m c (Pipeline.arrRef spec0 w) := by
  dsimp only [dats]

/-- The invariant is the same at every point. -/
theorem hΦ (c : Dev nD) (t : Fin (cfg0.N + 1)) : (dats m 0 c).Φ t = Pipeline.ΦA spec0 c := rfl

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t) := by dsimp only [dats]

/-! Each input's current staging buffer holds its block at every point, fetched there or not: where it was not
    fetched, its block index has not moved since the last fetch and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)

/-! ## The body obligation, at a generic point -/

/-- What the body is called with at point `t`: the invariant, what the core owes, and each window's current
    staging buffer at what it then holds, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 400000 in
/-- The body at any point: the inputs' memrefs hold their blocks, so the run applies; the invariant passes through
    unread; the core owes nothing throughout; the output's buffer, whatever it held, ends at the run's pieces read
    back, since they cover the block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  unfold outsAt0
  unfold out0_9
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0 c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover0_9 c _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KBHostLate.lean ====
import proofs.«106491_j82652350644592_2_alg».proof.Proof.Gen.Kernel.Launch
import proofs.«106491_j82652350644592_2_alg».proof.Proof.Gen.Kernel.Skeleton
import proofs.«106491_j82652350644592_2_alg».proof.Proof.Gen.Kernel.Points
import proofs.«106491_j82652350644592_2_alg».proof.Proof.Gen.Kernel.Loops
import proofs.«106491_j82652350644592_2_alg».proof.Proof.KBHostDefs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What a host line writes

Every host line of the program allocates nothing and writes exactly one buffer, its own result. The TensorCore's
references are numbered in the order the program introduces them: the nineteen arguments first (0 to 18), then the
results of the lines before the region (19 to 30), the region's output (31), then the results of the lines after the
region (32 and up). So which buffers a stretch of lines leaves alone is read off the numbers. -/

/-- The operation allocates nothing and writes exactly one buffer, numbered `n` or more. -/
def WritesFrom (n : ℕ) (op : HloOp τ sig (Elt F)) : Prop :=
  op.fresh = ∅ ∧ ∃ y : Ref sig .tc, op.writes = {Proc.devRef .tc y} ∧ n ≤ y.idx.val

/-- Such an operation writes no buffer numbered below `n`. -/
theorem WritesFrom.not_writes {n : ℕ} {op : HloOp τ sig (Elt F)} (h : WritesFrom n op) (r : Ref sig .tc)
    (hr : r.idx.val < n) : Proc.devRef .tc r ∉ op.writes := by
  obtain ⟨-, y, hy, hn⟩ := h
  rw [hy, Finset.mem_singleton]
  exact StableHlo.devRef_ne_of_ne (fun e => by subst e; omega)

/-- A stretch of such operations leaves a buffer numbered below `n` as it was. -/
theorem after_of_writesFrom {n : ℕ} (ops : List (HloOp τ sig (Elt F))) (hops : ∀ op ∈ ops, WritesFrom n op)
    (Vl : Valuation τ sig (Elt F)) (r : Ref sig .tc) (hr : r.idx.val < n) :
    StableHlo.after ops Vl (Proc.devRef .tc r) = Vl (Proc.devRef .tc r) :=
  StableHlo.after_of_forall_not_mem ops Vl fun op hop => (hops op hop).not_writes r hr

/-- The lines before the region write buffers 19 and up. -/
theorem hostOps0_from : (Gen.hostOps0 : List (HloOp τ sig (Elt F))).Forall (WritesFrom 19) :=
  ⟨⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩⟩

end Cert.Kernel.Hand

end
-- ==== Proof.KBHostOpsA.lean ====
import proofs.«106491_j82652350644592_2_alg».proof.Proof.Gen.Kernel.Launch
import proofs.«106491_j82652350644592_2_alg».proof.Proof.Gen.Kernel.Skeleton
import proofs.«106491_j82652350644592_2_alg».proof.Proof.Gen.Kernel.Points
import proofs.«106491_j82652350644592_2_alg».proof.Proof.Gen.Kernel.Loops
import proofs.«106491_j82652350644592_2_alg».proof.Proof.KBHostLate
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The lines after the region write buffers 32 and up -/

/-- Each line of this stretch after the region writes a buffer numbered 32 or more. -/
theorem hostOps1_from : (Gen.hostOps1 : List (HloOp τ sig (Elt F))).Forall (WritesFrom 32) :=
  ⟨⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩⟩

/-- Each line of this stretch after the region writes a buffer numbered 32 or more. -/
theorem hostOps1_1_from : (Gen.hostOps1_1 : List (HloOp τ sig (Elt F))).Forall (WritesFrom 32) :=
  ⟨⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩⟩

/-- Each line of this stretch after the region writes a buffer numbered 32 or more. -/
theorem hostOps1_3_from : (Gen.hostOps1_3 : List (HloOp τ sig (Elt F))).Forall (WritesFrom 32) :=
  ⟨⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩⟩

/-- Each line of this stretch after the region writes a buffer numbered 32 or more. -/
theorem hostOps1_4_from : (Gen.hostOps1_4 : List (HloOp τ sig (Elt F))).Forall (WritesFrom 32) :=
  ⟨⟨rfl, _, rfl, by decide⟩,
   ⟨rfl, _, rfl, by decide⟩,
   ⟨rfl, _, rfl, by decide⟩,
   ⟨rfl, _, rfl, by decide⟩⟩

end Cert.Kernel.Hand

end
-- ==== Proof.KBHostOpsB.lean ====
import proofs.«106491_j82652350644592_2_alg».proof.Proof.Gen.Kernel.Launch
import proofs.«106491_j82652350644592_2_alg».proof.Proof.Gen.Kernel.Skeleton
import proofs.«106491_j82652350644592_2_alg».proof.Proof.Gen.Kernel.Points
import proofs.«106491_j82652350644592_2_alg».proof.Proof.Gen.Kernel.Loops
import proofs.«106491_j82652350644592_2_alg».proof.Proof.KBHostLate
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The lines after the region write buffers 32 and up -/

/-- Each line of this stretch after the region writes a buffer numbered 32 or more. -/
theorem hostOps1_2_from : (Gen.hostOps1_2 : List (HloOp τ sig (Elt F))).Forall (WritesFrom 32) :=
  ⟨⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩⟩

end Cert.Kernel.Hand

end
-- ==== Proof.KBHostAround.lean ====
import proofs.«106491_j82652350644592_2_alg».proof.Proof.Gen.Kernel.Launch
import proofs.«106491_j82652350644592_2_alg».proof.Proof.Gen.Kernel.Skeleton
import proofs.«106491_j82652350644592_2_alg».proof.Proof.Gen.Kernel.Points
import proofs.«106491_j82652350644592_2_alg».proof.Proof.Gen.Kernel.Loops
import proofs.«106491_j82652350644592_2_alg».proof.Proof.KBHostOpsA
import proofs.«106491_j82652350644592_2_alg».proof.Proof.KBHostOpsB
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main around the region -/

/-- Every line after the region allocates nothing and writes one buffer numbered 32 or more, stretch by stretch. -/
theorem tails_from : (tails : List (List (HloOp τ sig (Elt F)))).Forall fun ops => ops.Forall (WritesFrom 32) :=
  ⟨hostOps1_from, hostOps1_1_from, hostOps1_2_from, hostOps1_3_from, hostOps1_4_from⟩

/-- The same, line by line. -/
theorem tails_from_mem : ∀ ops ∈ (tails : List (List (HloOp τ sig (Elt F)))), ∀ op ∈ ops, WritesFrom 32 op :=
  fun ops hops op hop =>
    List.forall_iff_forall_mem.mp (List.forall_iff_forall_mem.mp tails_from ops hops) op hop

/-- The same over the stretches run as one line. -/
theorem tails_flatten_from : ∀ op ∈ (tails : List (List (HloOp τ sig (Elt F)))).flatten, WritesFrom 32 op :=
  fun op hop => by
    obtain ⟨ops, hops, hop'⟩ := List.mem_flatten.mp hop
    exact tails_from_mem ops hops op hop'

/-- Every line after the region touches TensorCore references only. -/
theorem tails_tc : (tails : List (List (HloOp τ sig (Elt F)))).Forall fun ops =>
    ops.Forall fun op => op.bufs ⊆ StableHlo.tcRefs τ sig :=
  ⟨hostOps1_sub, hostOps1_1_sub, hostOps1_2_sub, hostOps1_3_sub, hostOps1_4_sub⟩

/-- The lines before the region allocate nothing. -/
theorem hostOps0_fresh : (Gen.hostOps0 : List (HloOp τ sig (Elt F))).Forall fun op => op.fresh = ∅ :=
  List.forall_iff_forall_mem.mpr fun op hop => (List.forall_iff_forall_mem.mp hostOps0_from op hop).1

/-- @main around the region, at any variants: the host lines before it, the region, the host lines after it; it reduces
    to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tails.map StableHlo.seq)) :=
  Pipeline.hmain_around cfgs 0 defs₀ 𝒱₀ m main [Gen.hostOps0] tails hostOps0_sub hostOps0_fresh main_chain

/-- The lines after the region touch the pipeline's arrays and the bypassing buffers only: each operation's buffers are
    unscoped TensorCore references, and with nothing prefetched every such reference is one or the other. -/
theorem sfx_sub : ∀ ops ∈ (tails : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op
    (List.forall_iff_forall_mem.mp (List.forall_iff_forall_mem.mp tails_tc ops hops) op hop)

/-- They allocate nothing. -/
theorem sfx_fresh : ∀ ops ∈ (tails : List (List (HloOp τ sig (Elt F)))), ∀ op ∈ ops, op.fresh = ∅ :=
  fun ops hops op hop => (tails_from_mem ops hops op hop).1

/-- The windows' arrays are numbered below 32. -/
theorem arr_lt : ∀ w : Fin 10, (Pipeline.arrRef spec0 w).idx.val < 32 := by decide

/-- And they write no array of the pipeline: each writes only its own result buffer, numbered 32 or more. -/
theorem sfx_keeps : ∀ ops ∈ (tails : List (List (HloOp τ sig (Elt F)))), ∀ op ∈ ops,
    ∀ w, Proc.devRef .tc (Pipeline.arrRef spec0 w) ∉ op.writes :=
  fun ops hops op hop w => (tails_from_mem ops hops op hop).not_writes _ (arr_lt w)

/-! ## What the region finds and what the later lines leave, at the low-numbered buffers -/

/-- A buffer numbered below 19 (an argument) is, when the region is entered, as the memory had it: no line before the
    region writes it. -/
theorem V0_of_lt (c : Dev nD) (b : Ref sig .tc) (hb : b.idx.val < 19) :
    V0 m c (Proc.devRef .tc b) = m ((c.tc : Thread nD τ).loc b) :=
  after_of_writesFrom _ (fun op hop => by
    obtain ⟨ops, hops, hop'⟩ := List.mem_flatten.mp hop
    rw [List.mem_singleton] at hops
    subst hops
    exact List.forall_iff_forall_mem.mp hostOps0_from op hop') _ b hb

/-- A buffer numbered below 32 that is no array of the pipeline is, after the later lines, as the region found it. -/
theorem afterTail_of_lt (dats : (p : Fin 1) → (c : Dev nD) → Dat τ (Elt F) Unit ℕ (UR sig nD τ) ℕ (cfgs p) c)
    (c : Dev nD) (b : Ref sig .tc) (hb : b.idx.val < 32) (harr : ∀ w, Pipeline.arrRef spec0 w ≠ b) :
    Pipeline.afterTail₀ cfgs dats 0 (V0 m) tails c b = V0 m c (Proc.devRef .tc b) := by
  unfold Pipeline.afterTail₀
  rw [after_of_writesFrom _ tails_flatten_from _ b hb]
  exact Pipeline.withArrays_of_ne _ c (V0 m c) _ b harr

/-- An argument that no window stages is, after the whole program's host lines, as the memory had it. -/
theorem afterTail_arg (dats : (p : Fin 1) → (c : Dev nD) → Dat τ (Elt F) Unit ℕ (UR sig nD τ) ℕ (cfgs p) c)
    (c : Dev nD) (b : Ref sig .tc) (hb : b.idx.val < 19) (harr : ∀ w, Pipeline.arrRef spec0 w ≠ b) :
    Pipeline.afterTail₀ cfgs dats 0 (V0 m) tails c b = m ((c.tc : Thread nD τ).loc b) :=
  (afterTail_of_lt m dats c b (by omega) harr).trans (V0_of_lt m c b hb)

/-- Such an argument bypasses the region: it is unscoped and no window's array. -/
theorem arg_mem_rest (b : Ref sig .tc) (hs : b.isScoped = false) (harr : ∀ w, Pipeline.arrRef spec0 w ≠ b) :
    b ∈ Pipeline.restRefs sig spec0 :=
  Pipeline.mem_restRefs_of b hs harr

end Cert.Kernel.Hand

end
-- ==== Proof.KBHostFrame.lean ====
import proofs.«106491_j82652350644592_2_alg».proof.Proof.Gen.Kernel.Launch
import proofs.«106491_j82652350644592_2_alg».proof.Proof.Gen.Kernel.Skeleton
import proofs.«106491_j82652350644592_2_alg».proof.Proof.Gen.Kernel.Points
import proofs.«106491_j82652350644592_2_alg».proof.Proof.Gen.Kernel.Loops
import proofs.«106491_j82652350644592_2_alg».proof.Proof.KBHostAround
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The frame claim's post from the frame run's -/

/-- An argument that bypasses the region ends as the memory had it: the frame run's post gives it the contents the later
    lines leave, and no host line, before or after the region, writes it. -/
theorem kept_arg (dats : (p : Fin 1) → (c : Dev nD) → Dat τ (Elt F) Unit ℕ (UR sig nD τ) ℕ (cfgs p) c)
    {r : PUnit × MemSt nD τ sig (Elt F)} (hr : Pipeline.FramePost cfgs dats 0 (Pipeline.afterTail₀ cfgs dats 0 (V0 m) tails) r)
    (c : Dev nD) (b : Ref sig .tc) (hs : b.isScoped = false) (hb : b.idx.val < 19) (harr : ∀ w, Pipeline.arrRef spec0 w ≠ b) :
    r.2.mem ((c.tc : Thread nD τ).loc b) = m ((c.tc : Thread nD τ).loc b) :=
  ((hr c).2 b (arg_mem_rest b hs harr)).trans (afterTail_arg m dats c b hb harr)

/-- The first argument is the array of input window 0: the region leaves an input's array as it found it, and it found
    it as the memory had it. -/
theorem kept_arg0 (dats : (p : Fin 1) → (c : Dev nD) → Dat τ (Elt F) Unit ℕ (UR sig nD τ) ℕ (cfgs p) c)
    (hA : ∀ c w, (dats 0 c).A w = V m c (Pipeline.arrRef spec0 w))
    {r : PUnit × MemSt nD τ sig (Elt F)} (hr : Pipeline.FramePost cfgs dats 0 (Pipeline.afterTail₀ cfgs dats 0 (V0 m) tails) r)
    (c : Dev nD) : r.2.mem ((c.tc : Thread nD τ).loc main_arg0) = m ((c.tc : Thread nD τ).loc main_arg0) :=
  ((hr c).1 0).trans (((dats 0 c).arrAt_in 0 rfl _).trans ((hA c 0).trans (V0_of_lt m c main_arg0 (by decide))))

/-- Every argument array ends unchanged, in any state the frame run's post describes. -/
theorem kept_all (dats : (p : Fin 1) → (c : Dev nD) → Dat τ (Elt F) Unit ℕ (UR sig nD τ) ℕ (cfgs p) c)
    (hA : ∀ c w, (dats 0 c).A w = V m c (Pipeline.arrRef spec0 w))
    {r : PUnit × MemSt nD τ sig (Elt F)} (hr : Pipeline.FramePost cfgs dats 0 (Pipeline.afterTail₀ cfgs dats 0 (V0 m) tails) r)
    (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨kept_arg0 m dats hA hr c,
    kept_arg m dats hr c main_arg1 rfl (by decide) (by decide),
    kept_arg m dats hr c main_arg2 rfl (by decide) (by decide),
    kept_arg m dats hr c main_arg3 rfl (by decide) (by decide),
    kept_arg m dats hr c main_arg4 rfl (by decide) (by decide),
    kept_arg m dats hr c main_arg5 rfl (by decide) (by decide),
    kept_arg m dats hr c main_arg6 rfl (by decide) (by decide),
    kept_arg m dats hr c main_arg7 rfl (by decide) (by decide),
    kept_arg m dats hr c main_arg8 rfl (by decide) (by decide),
    kept_arg m dats hr c main_arg9 rfl (by decide) (by decide),
    kept_arg m dats hr c main_arg10 rfl (by decide) (by decide),
    kept_arg m dats hr c main_arg11 rfl (by decide) (by decide),
    kept_arg m dats hr c main_arg12 rfl (by decide) (by decide),
    kept_arg m dats hr c main_arg13 rfl (by decide) (by decide),
    kept_arg m dats hr c main_arg14 rfl (by decide) (by decide),
    kept_arg m dats hr c main_arg15 rfl (by decide) (by decide),
    kept_arg m dats hr c main_arg16 rfl (by decide) (by decide),
    kept_arg m dats hr c main_arg17 rfl (by decide) (by decide),
    kept_arg m dats hr c main_arg18 rfl (by decide) (by decide)⟩

/-- THE FRAME from a frame run: for any proof data whose arrays are the region-entry contents, a run to the frame run's
    post, read at the argument arrays, is the frame claim's post at any `F`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tails))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ hr c => kept_all m dats hA hr c) h

/-- The same run read at the program's result as well: the result buffer bypasses the region and ends at what the later
    lines compute from the region's exit contents. -/
theorem result_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tails))) :
    θ_run defs (onTc (τ := τ) (main (F := F))) ⟨m, fun _ => 0, ρ⟩ (fun r => ∀ c : Dev nD,
      r.2.mem ((c.tc : Thread nD τ).loc main_v132) = Pipeline.afterTail₀ cfgs dats 0 (V0 m) tails c main_v132
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ hr c =>
    ⟨(hr c).2 main_v132 (Pipeline.mem_restRefs_of main_v132 rfl (by decide)), kept_all m dats hA hr c⟩) h

end Cert.Kernel.Hand

end
-- ==== Proof.KBRun.lean ====
/-
  The kernel program's run at the word-level instance: the host lines before the region, the fifty grid points each running the body on its blocks (the body's triple and the proof data on one side, the host lines around the region on the other), and the host lines after it.
-/
import proofs.«106491_j82652350644592_2_alg».proof.Proof.KBBody
import proofs.«106491_j82652350644592_2_alg».proof.Proof.KBHostFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- From any memory with zero counters every weakly fair execution of the program terminates; afterwards every array
    the region stages holds what the proof data compute — the output array its blocks written back in grid order —
    and every other buffer what the host lines after the region leave in it. -/
theorem run_main : θ_run defs (onTc (τ := τ) (main (F := F))) (s₀ m ρ)
    (Pipeline.FramePost cfgs (dats m) 0 (Pipeline.afterTail₀ cfgs (dats m) 0 (V0 m) tails)) :=
  Pipeline.θ_run_frame_around cfgs (dats m) (0 : Fin 1) Gen.launch0 defs₀ Variants.none m ρ main
    (hbody := fun c => (body_obligation m c).loose) (hshare := fun c => (dats m 0 c).share_full fun _ => rfl)
    (howed := fun _ _ => rfl) (V₀ := V0 m) (opss := tails) (hsub := sfx_sub) (hfresh := sfx_fresh) (hkeep := sfx_keeps)
    (hmain := hmain m Variants.none) (hA := A_eq m) (hΦ := hΦ m)

end Cert.Kernel.Hand

end
-- ==== Proof.KIHostDefs.lean ====
import proofs.«106491_j82652350644592_2_alg».proof.Proof.Gen.KernelIdeal.Launch
import proofs.«106491_j82652350644592_2_alg».proof.Proof.Gen.KernelIdeal.Skeleton
import proofs.«106491_j82652350644592_2_alg».proof.Proof.Gen.KernelIdeal.Points
import proofs.«106491_j82652350644592_2_alg».proof.Proof.Gen.KernelIdeal.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The valuation at the region's entry, and the windows' blocks read off it -/

/-- The stretches of host lines after the region, in order. -/
abbrev tails : List (List (HloOp τ sig (Elt F))) :=
  [Gen.hostOps1, Gen.hostOps1_1, Gen.hostOps1_2, Gen.hostOps1_3, Gen.hostOps1_4]

/-- Core `c`'s TensorCore buffer contents when the region is entered, as a valuation: the initial memory after the
    host lines before the region. -/
abbrev V0 (m : (ℓ : Loc nD τ sig) → Buf (Elt F) ℓ) (c : Dev nD) : Valuation τ sig (Elt F) :=
  StableHlo.after (List.flatten [Gen.hostOps0]) (fun b => m (c, b))

/-- The same read at a TensorCore reference. -/
abbrev V (m : (ℓ : Loc nD τ sig) → Buf (Elt F) ℓ) (c : Dev nD) (b : Ref sig .tc) :
    Buf (Elt F) ((c : Thread nD τ).loc b) := V0 m c (Proc.devRef .tc b)

/-- Window `w`'s block at point `t`, read off its array as the region finds it. -/
def iblk (m : (ℓ : Loc nD τ sig) → Buf (Elt F) ℓ) (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

end Cert.KernelIdeal.Hand

end
-- ==== Proof.KIBodyRun.lean ====
import proofs.«106491_j82652350644592_2_alg».proof.Proof.KIHostDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel body on any staging memrefs

The body is one counted loop of five trips; trip `k` reads rows `200 k … 200 k + 199` of the input block and the
whole of the eight parameter blocks, and stores one `200 × 64` slab of the output block at row offset `200 k`.
Run on ten whole memrefs — the nine inputs at given contents, the output at anything — it hands the continuation
the inputs as they were and the output with the five slabs written: the list of those slabs (last first) is the
witness the run finds. -/

/-- One staging buffer of the output window, through which its contents are stated (over a cover the choice of
    the buffer does not matter). -/
abbrev VO0_9 : View sig .tc .vmem S1000x64 .f32 := (Memref.whole cc0_stg9_0 : Memref sig .tc .vmem S1000x64 .f32).view

/-- Window 0's current staging memref at point `t`, and its wholeness. -/
abbrev ms0_0 (t : Fin cfg0.N) : Memref sig .tc .vmem S1000x2048 .f32 := win0_0.stage (cfg0.slots t 0)
abbrev hs0_0 (t : Fin cfg0.N) : (ms0_0 t).IsWhole := hstage0_0 ((cfg0.slots t 0).cast nbuf0_0)
/-- Window 1's current staging memref at point `t`, and its wholeness. -/
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
/-- Window 2's current staging memref at point `t`, and its wholeness. -/
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
/-- Window 3's current staging memref at point `t`, and its wholeness. -/
abbrev ms0_3 (t : Fin cfg0.N) : Memref sig .tc .vmem S1024x512 .bf16 := win0_3.stage (cfg0.slots t 3)
abbrev hs0_3 (t : Fin cfg0.N) : (ms0_3 t).IsWhole := hstage0_3 ((cfg0.slots t 3).cast nbuf0_3)
/-- Window 4's current staging memref at point `t`, and its wholeness. -/
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
/-- Window 5's current staging memref at point `t`, and its wholeness. -/
abbrev ms0_5 (t : Fin cfg0.N) : Memref sig .tc .vmem S512x128 .bf16 := win0_5.stage (cfg0.slots t 5)
abbrev hs0_5 (t : Fin cfg0.N) : (ms0_5 t).IsWhole := hstage0_5 ((cfg0.slots t 5).cast nbuf0_5)
/-- Window 6's current staging memref at point `t`, and its wholeness. -/
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
/-- Window 7's current staging memref at point `t`, and its wholeness. -/
abbrev ms0_7 (t : Fin cfg0.N) : Memref sig .tc .vmem S128x64 .bf16 := win0_7.stage (cfg0.slots t 7)
abbrev hs0_7 (t : Fin cfg0.N) : (ms0_7 t).IsWhole := hstage0_7 ((cfg0.slots t 7).cast nbuf0_7)
/-- Window 8's current staging memref at point `t`, and its wholeness. -/
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)
/-- Window 9's current staging memref at point `t`, and its wholeness. -/
abbrev ms0_9 (t : Fin cfg0.N) : Memref sig .tc .vmem S1000x64 .f32 := win0_9.stage (cfg0.slots t 9)
abbrev hs0_9 (t : Fin cfg0.N) : (ms0_9 t).IsWhole := hstage0_9 ((cfg0.slots t 9).cast nbuf0_9)

set_option maxHeartbeats 1000000 in
/-- What the body's stores leave in the output's memref, as pieces (last first), WITH the proof that on whole
    memrefs — the inputs' at their contents `x0 … x8`, the output's at anything — the body runs to the
    continuation holding the inputs' as they were and the output's with the pieces written. -/
noncomputable def kernelRun0 (c : Dev nD) (i : grid0.Coords) (arg1 : Memref sig .tc .vmem S1000x2048 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1x512 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S128x64 .bf16) (harg8 : arg8.IsWhole) (arg9 : Memref sig .tc .vmem S1x64 .f32) (harg9 : arg9.IsWhole) (arg10 : Memref sig .tc .vmem S1000x64 .f32) (harg10 : arg10.IsWhole)
    (x0 : Vec F S1000x2048 .f32) (x1 x2 : Vec F S1x1024 .f32) (x3 : Vec F S1024x512 .bf16) (x4 : Vec F S1x512 .f32) (x5 : Vec F S512x128 .bf16) (x6 : Vec F S1x128 .f32) (x7 : Vec F S128x64 .bf16) (x8 : Vec F S1x64 .f32) :
    { L9 : List (View.Piece (Elt F) S1000x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9)) -∗ K ⟨⟩))
          ⊢ wp frame (wpE (defs₀ (F := F)) Variants.none c none) E (cc0__pool_norm_mlp_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__pool_norm_mlp_kernel_eq_skeleton]; unfold cc0__pool_norm_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    iexists _; iexact H9

end Cert.KernelIdeal.Hand

end
-- ==== Proof.KIBody.lean ====
import proofs.«106491_j82652350644592_2_alg».proof.Proof.KIBodyRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the output's buffer holds after the body

The five slabs the run writes are rows `200 k … 200 k + 199` for `k = 0 … 4`: they tile the `1000 × 64` block, so
every index of the block lies in one of them, and reading the buffer back does not depend on what it held before. -/

/-- The run's pieces for the output tile its block (five slabs of `200 × 64`), so they cover it. -/
theorem cover0_9 (c : Dev nD) (i : grid0.Coords) (arg1 : Memref sig .tc .vmem S1000x2048 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1x512 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S128x64 .bf16) (harg8 : arg8.IsWhole) (arg9 : Memref sig .tc .vmem S1x64 .f32) (harg9 : arg9.IsWhole) (arg10 : Memref sig .tc .vmem S1000x64 .f32) (harg10 : arg10.IsWhole)
    (x0 : Vec F S1000x2048 .f32) (x1 x2 : Vec F S1x1024 .f32) (x3 : Vec F S1024x512 .bf16) (x4 : Vec F S1x512 .f32) (x5 : Vec F S512x128 .bf16) (x6 : Vec F S1x128 .f32) (x7 : Vec F S128x64 .bf16) (x8 : Vec F S1x64 .f32) (y : S1000x64.Idx) :
    ∃ pc ∈ (kernelRun0 c i arg1 harg1 arg2 harg2 arg3 harg3 arg4 harg4 arg5 harg5 arg6 harg6 arg7 harg7 arg8 harg8 arg9 harg9 arg10 harg10 x0 x1 x2 x3 x4 x5 x6 x7 x8).1, y ∈ pc.1.set :=
  View.cover_of_tiledL (kernelRun0 c i arg1 harg1 arg2 harg2 arg3 harg3 arg4 harg4 arg5 harg5 arg6 harg6 arg7 harg7 arg8 harg8 arg9 harg9 arg10 harg10 x0 x1 x2 x3 x4 x5 x6 x7 x8).1 S200x64.size (by sl_kernel_rfl) y

/-- What the run leaves in the output's buffer: its pieces read back over junk. -/
def out0_9 (c : Dev nD) (i : grid0.Coords) (arg1 : Memref sig .tc .vmem S1000x2048 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1x512 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S128x64 .bf16) (harg8 : arg8.IsWhole) (arg9 : Memref sig .tc .vmem S1x64 .f32) (harg9 : arg9.IsWhole) (arg10 : Memref sig .tc .vmem S1000x64 .f32) (harg10 : arg10.IsWhole)
    (x0 : Vec F S1000x2048 .f32) (x1 x2 : Vec F S1x1024 .f32) (x3 : Vec F S1024x512 .bf16) (x4 : Vec F S1x512 .f32) (x5 : Vec F S512x128 .bf16) (x6 : Vec F S1x128 .f32) (x7 : Vec F S128x64 .bf16) (x8 : Vec F S1x64 .f32) : Vec F S1000x64 .f32 :=
  VO0_9.read (Elt F) (VO0_9.writes (Elt F) VO0_9.junk (kernelRun0 c i arg1 harg1 arg2 harg2 arg3 harg3 arg4 harg4 arg5 harg5 arg6 harg6 arg7 harg7 arg8 harg8 arg9 harg9 arg10 harg10 x0 x1 x2 x3 x4 x5 x6 x7 x8).1)

/-- What the output's buffer holds after the body at point `t`: the run's contents at the point's memrefs and
    input blocks. -/
def outsAt0 (c : Dev nD) (t : Fin cfg0.N) : Vec F S1000x64 .f32 :=
  out0_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) (iblk m c 8 t)

/-! ## The pipeline's proof data -/

/-- The proof data of the one pipeline on core `c`: the arrays as the region finds them; after the body at point
    `t` each input's buffer at its block and the output's at `outsAt0`; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t)
  Φ _ := Pipeline.ΦA spec0 c
  q _ := fullShare
  owed _ := 0

/-- The proof data's arrays are the region-entry contents (the definition projected, the valuation never unfolded). -/
theorem A_eq (c : Dev nD) (w : Fin cfg0.W) : (dats m 0 c).A w = V m c (Pipeline.arrRef spec0 w) := by
  dsimp only [dats]

/-- The invariant is the same at every point. -/
theorem hΦ (c : Dev nD) (t : Fin (cfg0.N + 1)) : (dats m 0 c).Φ t = Pipeline.ΦA spec0 c := rfl

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t) := by dsimp only [dats]

/-! Each input's current staging buffer holds its block at every point, fetched there or not: where it was not
    fetched, its block index has not moved since the last fetch and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)

/-! ## The body obligation, at a generic point -/

/-- What the body is called with at point `t`: the invariant, what the core owes, and each window's current
    staging buffer at what it then holds, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 400000 in
/-- The body at any point: the inputs' memrefs hold their blocks, so the run applies; the invariant passes through
    unread; the core owes nothing throughout; the output's buffer, whatever it held, ends at the run's pieces read
    back, since they cover the block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  unfold outsAt0
  unfold out0_9
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0 c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover0_9 c _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIHostLate.lean ====
import proofs.«106491_j82652350644592_2_alg».proof.Proof.Gen.KernelIdeal.Launch
import proofs.«106491_j82652350644592_2_alg».proof.Proof.Gen.KernelIdeal.Skeleton
import proofs.«106491_j82652350644592_2_alg».proof.Proof.Gen.KernelIdeal.Points
import proofs.«106491_j82652350644592_2_alg».proof.Proof.Gen.KernelIdeal.Loops
import proofs.«106491_j82652350644592_2_alg».proof.Proof.KIHostDefs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What a host line writes

Every host line of the program allocates nothing and writes exactly one buffer, its own result. The TensorCore's
references are numbered in the order the program introduces them: the nineteen arguments first (0 to 18), then the
results of the lines before the region (19 to 30), the region's output (31), then the results of the lines after the
region (32 and up). So which buffers a stretch of lines leaves alone is read off the numbers. -/

/-- The operation allocates nothing and writes exactly one buffer, numbered `n` or more. -/
def WritesFrom (n : ℕ) (op : HloOp τ sig (Elt F)) : Prop :=
  op.fresh = ∅ ∧ ∃ y : Ref sig .tc, op.writes = {Proc.devRef .tc y} ∧ n ≤ y.idx.val

/-- Such an operation writes no buffer numbered below `n`. -/
theorem WritesFrom.not_writes {n : ℕ} {op : HloOp τ sig (Elt F)} (h : WritesFrom n op) (r : Ref sig .tc)
    (hr : r.idx.val < n) : Proc.devRef .tc r ∉ op.writes := by
  obtain ⟨-, y, hy, hn⟩ := h
  rw [hy, Finset.mem_singleton]
  exact StableHlo.devRef_ne_of_ne (fun e => by subst e; omega)

/-- A stretch of such operations leaves a buffer numbered below `n` as it was. -/
theorem after_of_writesFrom {n : ℕ} (ops : List (HloOp τ sig (Elt F))) (hops : ∀ op ∈ ops, WritesFrom n op)
    (Vl : Valuation τ sig (Elt F)) (r : Ref sig .tc) (hr : r.idx.val < n) :
    StableHlo.after ops Vl (Proc.devRef .tc r) = Vl (Proc.devRef .tc r) :=
  StableHlo.after_of_forall_not_mem ops Vl fun op hop => (hops op hop).not_writes r hr

/-- The lines before the region write buffers 19 and up. -/
theorem hostOps0_from : (Gen.hostOps0 : List (HloOp τ sig (Elt F))).Forall (WritesFrom 19) :=
  ⟨⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩⟩

end Cert.KernelIdeal.Hand

end
-- ==== Proof.KIHostOpsA.lean ====
import proofs.«106491_j82652350644592_2_alg».proof.Proof.Gen.KernelIdeal.Launch
import proofs.«106491_j82652350644592_2_alg».proof.Proof.Gen.KernelIdeal.Skeleton
import proofs.«106491_j82652350644592_2_alg».proof.Proof.Gen.KernelIdeal.Points
import proofs.«106491_j82652350644592_2_alg».proof.Proof.Gen.KernelIdeal.Loops
import proofs.«106491_j82652350644592_2_alg».proof.Proof.KIHostLate
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The lines after the region write buffers 32 and up -/

/-- Each line of this stretch after the region writes a buffer numbered 32 or more. -/
theorem hostOps1_from : (Gen.hostOps1 : List (HloOp τ sig (Elt F))).Forall (WritesFrom 32) :=
  ⟨⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩⟩

/-- Each line of this stretch after the region writes a buffer numbered 32 or more. -/
theorem hostOps1_1_from : (Gen.hostOps1_1 : List (HloOp τ sig (Elt F))).Forall (WritesFrom 32) :=
  ⟨⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩⟩

/-- Each line of this stretch after the region writes a buffer numbered 32 or more. -/
theorem hostOps1_3_from : (Gen.hostOps1_3 : List (HloOp τ sig (Elt F))).Forall (WritesFrom 32) :=
  ⟨⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩⟩

/-- Each line of this stretch after the region writes a buffer numbered 32 or more. -/
theorem hostOps1_4_from : (Gen.hostOps1_4 : List (HloOp τ sig (Elt F))).Forall (WritesFrom 32) :=
  ⟨⟨rfl, _, rfl, by decide⟩,
   ⟨rfl, _, rfl, by decide⟩,
   ⟨rfl, _, rfl, by decide⟩,
   ⟨rfl, _, rfl, by decide⟩⟩

end Cert.KernelIdeal.Hand

end
-- ==== Proof.KIHostOpsB.lean ====
import proofs.«106491_j82652350644592_2_alg».proof.Proof.Gen.KernelIdeal.Launch
import proofs.«106491_j82652350644592_2_alg».proof.Proof.Gen.KernelIdeal.Skeleton
import proofs.«106491_j82652350644592_2_alg».proof.Proof.Gen.KernelIdeal.Points
import proofs.«106491_j82652350644592_2_alg».proof.Proof.Gen.KernelIdeal.Loops
import proofs.«106491_j82652350644592_2_alg».proof.Proof.KIHostLate
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The lines after the region write buffers 32 and up -/

/-- Each line of this stretch after the region writes a buffer numbered 32 or more. -/
theorem hostOps1_2_from : (Gen.hostOps1_2 : List (HloOp τ sig (Elt F))).Forall (WritesFrom 32) :=
  ⟨⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩,
   ⟨rfl, _, rfl, by decide⟩⟩

end Cert.KernelIdeal.Hand

end
-- ==== Proof.KIHostAround.lean ====
import proofs.«106491_j82652350644592_2_alg».proof.Proof.Gen.KernelIdeal.Launch
import proofs.«106491_j82652350644592_2_alg».proof.Proof.Gen.KernelIdeal.Skeleton
import proofs.«106491_j82652350644592_2_alg».proof.Proof.Gen.KernelIdeal.Points
import proofs.«106491_j82652350644592_2_alg».proof.Proof.Gen.KernelIdeal.Loops
import proofs.«106491_j82652350644592_2_alg».proof.Proof.KIHostOpsA
import proofs.«106491_j82652350644592_2_alg».proof.Proof.KIHostOpsB
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main around the region -/

/-- Every line after the region allocates nothing and writes one buffer numbered 32 or more, stretch by stretch. -/
theorem tails_from : (tails : List (List (HloOp τ sig (Elt F)))).Forall fun ops => ops.Forall (WritesFrom 32) :=
  ⟨hostOps1_from, hostOps1_1_from, hostOps1_2_from, hostOps1_3_from, hostOps1_4_from⟩

/-- The same, line by line. -/
theorem tails_from_mem : ∀ ops ∈ (tails : List (List (HloOp τ sig (Elt F)))), ∀ op ∈ ops, WritesFrom 32 op :=
  fun ops hops op hop =>
    List.forall_iff_forall_mem.mp (List.forall_iff_forall_mem.mp tails_from ops hops) op hop

/-- The same over the stretches run as one line. -/
theorem tails_flatten_from : ∀ op ∈ (tails : List (List (HloOp τ sig (Elt F)))).flatten, WritesFrom 32 op :=
  fun op hop => by
    obtain ⟨ops, hops, hop'⟩ := List.mem_flatten.mp hop
    exact tails_from_mem ops hops op hop'

/-- Every line after the region touches TensorCore references only. -/
theorem tails_tc : (tails : List (List (HloOp τ sig (Elt F)))).Forall fun ops =>
    ops.Forall fun op => op.bufs ⊆ StableHlo.tcRefs τ sig :=
  ⟨hostOps1_sub, hostOps1_1_sub, hostOps1_2_sub, hostOps1_3_sub, hostOps1_4_sub⟩

/-- The lines before the region allocate nothing. -/
theorem hostOps0_fresh : (Gen.hostOps0 : List (HloOp τ sig (Elt F))).Forall fun op => op.fresh = ∅ :=
  List.forall_iff_forall_mem.mpr fun op hop => (List.forall_iff_forall_mem.mp hostOps0_from op hop).1

/-- @main around the region, at any variants: the host lines before it, the region, the host lines after it; it reduces
    to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tails.map StableHlo.seq)) :=
  Pipeline.hmain_around cfgs 0 defs₀ 𝒱₀ m main [Gen.hostOps0] tails hostOps0_sub hostOps0_fresh main_chain

/-- The lines after the region touch the pipeline's arrays and the bypassing buffers only: each operation's buffers are
    unscoped TensorCore references, and with nothing prefetched every such reference is one or the other. -/
theorem sfx_sub : ∀ ops ∈ (tails : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op
    (List.forall_iff_forall_mem.mp (List.forall_iff_forall_mem.mp tails_tc ops hops) op hop)

/-- They allocate nothing. -/
theorem sfx_fresh : ∀ ops ∈ (tails : List (List (HloOp τ sig (Elt F)))), ∀ op ∈ ops, op.fresh = ∅ :=
  fun ops hops op hop => (tails_from_mem ops hops op hop).1

/-- The windows' arrays are numbered below 32. -/
theorem arr_lt : ∀ w : Fin 10, (Pipeline.arrRef spec0 w).idx.val < 32 := by decide

/-- And they write no array of the pipeline: each writes only its own result buffer, numbered 32 or more. -/
theorem sfx_keeps : ∀ ops ∈ (tails : List (List (HloOp τ sig (Elt F)))), ∀ op ∈ ops,
    ∀ w, Proc.devRef .tc (Pipeline.arrRef spec0 w) ∉ op.writes :=
  fun ops hops op hop w => (tails_from_mem ops hops op hop).not_writes _ (arr_lt w)

/-! ## What the region finds and what the later lines leave, at the low-numbered buffers -/

/-- A buffer numbered below 19 (an argument) is, when the region is entered, as the memory had it: no line before the
    region writes it. -/
theorem V0_of_lt (c : Dev nD) (b : Ref sig .tc) (hb : b.idx.val < 19) :
    V0 m c (Proc.devRef .tc b) = m ((c.tc : Thread nD τ).loc b) :=
  after_of_writesFrom _ (fun op hop => by
    obtain ⟨ops, hops, hop'⟩ := List.mem_flatten.mp hop
    rw [List.mem_singleton] at hops
    subst hops
    exact List.forall_iff_forall_mem.mp hostOps0_from op hop') _ b hb

/-- A buffer numbered below 32 that is no array of the pipeline is, after the later lines, as the region found it. -/
theorem afterTail_of_lt (dats : (p : Fin 1) → (c : Dev nD) → Dat τ (Elt F) Unit ℕ (UR sig nD τ) ℕ (cfgs p) c)
    (c : Dev nD) (b : Ref sig .tc) (hb : b.idx.val < 32) (harr : ∀ w, Pipeline.arrRef spec0 w ≠ b) :
    Pipeline.afterTail₀ cfgs dats 0 (V0 m) tails c b = V0 m c (Proc.devRef .tc b) := by
  unfold Pipeline.afterTail₀
  rw [after_of_writesFrom _ tails_flatten_from _ b hb]
  exact Pipeline.withArrays_of_ne _ c (V0 m c) _ b harr

/-- An argument that no window stages is, after the whole program's host lines, as the memory had it. -/
theorem afterTail_arg (dats : (p : Fin 1) → (c : Dev nD) → Dat τ (Elt F) Unit ℕ (UR sig nD τ) ℕ (cfgs p) c)
    (c : Dev nD) (b : Ref sig .tc) (hb : b.idx.val < 19) (harr : ∀ w, Pipeline.arrRef spec0 w ≠ b) :
    Pipeline.afterTail₀ cfgs dats 0 (V0 m) tails c b = m ((c.tc : Thread nD τ).loc b) :=
  (afterTail_of_lt m dats c b (by omega) harr).trans (V0_of_lt m c b hb)

/-- Such an argument bypasses the region: it is unscoped and no window's array. -/
theorem arg_mem_rest (b : Ref sig .tc) (hs : b.isScoped = false) (harr : ∀ w, Pipeline.arrRef spec0 w ≠ b) :
    b ∈ Pipeline.restRefs sig spec0 :=
  Pipeline.mem_restRefs_of b hs harr

end Cert.KernelIdeal.Hand

end
-- ==== Proof.KIHostFrame.lean ====
import proofs.«106491_j82652350644592_2_alg».proof.Proof.Gen.KernelIdeal.Launch
import proofs.«106491_j82652350644592_2_alg».proof.Proof.Gen.KernelIdeal.Skeleton
import proofs.«106491_j82652350644592_2_alg».proof.Proof.Gen.KernelIdeal.Points
import proofs.«106491_j82652350644592_2_alg».proof.Proof.Gen.KernelIdeal.Loops
import proofs.«106491_j82652350644592_2_alg».proof.Proof.KIHostAround
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The frame claim's post from the frame run's -/

/-- An argument that bypasses the region ends as the memory had it: the frame run's post gives it the contents the later
    lines leave, and no host line, before or after the region, writes it. -/
theorem kept_arg (dats : (p : Fin 1) → (c : Dev nD) → Dat τ (Elt F) Unit ℕ (UR sig nD τ) ℕ (cfgs p) c)
    {r : PUnit × MemSt nD τ sig (Elt F)} (hr : Pipeline.FramePost cfgs dats 0 (Pipeline.afterTail₀ cfgs dats 0 (V0 m) tails) r)
    (c : Dev nD) (b : Ref sig .tc) (hs : b.isScoped = false) (hb : b.idx.val < 19) (harr : ∀ w, Pipeline.arrRef spec0 w ≠ b) :
    r.2.mem ((c.tc : Thread nD τ).loc b) = m ((c.tc : Thread nD τ).loc b) :=
  ((hr c).2 b (arg_mem_rest b hs harr)).trans (afterTail_arg m dats c b hb harr)

/-- The first argument is the array of input window 0: the region leaves an input's array as it found it, and it found
    it as the memory had it. -/
theorem kept_arg0 (dats : (p : Fin 1) → (c : Dev nD) → Dat τ (Elt F) Unit ℕ (UR sig nD τ) ℕ (cfgs p) c)
    (hA : ∀ c w, (dats 0 c).A w = V m c (Pipeline.arrRef spec0 w))
    {r : PUnit × MemSt nD τ sig (Elt F)} (hr : Pipeline.FramePost cfgs dats 0 (Pipeline.afterTail₀ cfgs dats 0 (V0 m) tails) r)
    (c : Dev nD) : r.2.mem ((c.tc : Thread nD τ).loc main_arg0) = m ((c.tc : Thread nD τ).loc main_arg0) :=
  ((hr c).1 0).trans (((dats 0 c).arrAt_in 0 rfl _).trans ((hA c 0).trans (V0_of_lt m c main_arg0 (by decide))))

/-- Every argument array ends unchanged, in any state the frame run's post describes. -/
theorem kept_all (dats : (p : Fin 1) → (c : Dev nD) → Dat τ (Elt F) Unit ℕ (UR sig nD τ) ℕ (cfgs p) c)
    (hA : ∀ c w, (dats 0 c).A w = V m c (Pipeline.arrRef spec0 w))
    {r : PUnit × MemSt nD τ sig (Elt F)} (hr : Pipeline.FramePost cfgs dats 0 (Pipeline.afterTail₀ cfgs dats 0 (V0 m) tails) r)
    (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨kept_arg0 m dats hA hr c,
    kept_arg m dats hr c main_arg1 rfl (by decide) (by decide),
    kept_arg m dats hr c main_arg2 rfl (by decide) (by decide),
    kept_arg m dats hr c main_arg3 rfl (by decide) (by decide),
    kept_arg m dats hr c main_arg4 rfl (by decide) (by decide),
    kept_arg m dats hr c main_arg5 rfl (by decide) (by decide),
    kept_arg m dats hr c main_arg6 rfl (by decide) (by decide),
    kept_arg m dats hr c main_arg7 rfl (by decide) (by decide),
    kept_arg m dats hr c main_arg8 rfl (by decide) (by decide),
    kept_arg m dats hr c main_arg9 rfl (by decide) (by decide),
    kept_arg m dats hr c main_arg10 rfl (by decide) (by decide),
    kept_arg m dats hr c main_arg11 rfl (by decide) (by decide),
    kept_arg m dats hr c main_arg12 rfl (by decide) (by decide),
    kept_arg m dats hr c main_arg13 rfl (by decide) (by decide),
    kept_arg m dats hr c main_arg14 rfl (by decide) (by decide),
    kept_arg m dats hr c main_arg15 rfl (by decide) (by decide),
    kept_arg m dats hr c main_arg16 rfl (by decide) (by decide),
    kept_arg m dats hr c main_arg17 rfl (by decide) (by decide),
    kept_arg m dats hr c main_arg18 rfl (by decide) (by decide)⟩

/-- THE FRAME from a frame run: for any proof data whose arrays are the region-entry contents, a run to the frame run's
    post, read at the argument arrays, is the frame claim's post at any `F`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tails))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ hr c => kept_all m dats hA hr c) h

/-- The same run read at the program's result as well: the result buffer bypasses the region and ends at what the later
    lines compute from the region's exit contents. -/
theorem result_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tails))) :
    θ_run defs (onTc (τ := τ) (main (F := F))) ⟨m, fun _ => 0, ρ⟩ (fun r => ∀ c : Dev nD,
      r.2.mem ((c.tc : Thread nD τ).loc main_v132) = Pipeline.afterTail₀ cfgs dats 0 (V0 m) tails c main_v132
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ hr c =>
    ⟨(hr c).2 main_v132 (Pipeline.mem_restRefs_of main_v132 rfl (by decide)), kept_all m dats hA hr c⟩) h

end Cert.KernelIdeal.Hand

end
-- ==== Proof.KIRun.lean ====
/-
  The idealized kernel program's run: the host lines before the region, the fifty grid points each running the body on its blocks (the body's triple and the proof data on one side, the host lines around the region on the other), and the host lines after it.
-/
import proofs.«106491_j82652350644592_2_alg».proof.Proof.KIBody
import proofs.«106491_j82652350644592_2_alg».proof.Proof.KIHostFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- From any memory with zero counters every weakly fair execution of the program terminates; afterwards every array
    the region stages holds what the proof data compute — the output array its blocks written back in grid order —
    and every other buffer what the host lines after the region leave in it. -/
theorem run_main : θ_run defs (onTc (τ := τ) (main (F := F))) (s₀ m ρ)
    (Pipeline.FramePost cfgs (dats m) 0 (Pipeline.afterTail₀ cfgs (dats m) 0 (V0 m) tails)) :=
  Pipeline.θ_run_frame_around cfgs (dats m) (0 : Fin 1) Gen.launch0 defs₀ Variants.none m ρ main
    (hbody := fun c => (body_obligation m c).loose) (hshare := fun c => (dats m 0 c).share_full fun _ => rfl)
    (howed := fun _ _ => rfl) (V₀ := V0 m) (opss := tails) (hsub := sfx_sub) (hfresh := sfx_fresh) (hkeep := sfx_keeps)
    (hmain := hmain m Variants.none) (hA := A_eq m) (hΦ := hΦ m)

end Cert.KernelIdeal.Hand

end
-- ==== Proof.RefOps0.lean ====
/- The reference's first sixty statements as two lists of single operations: up to the third ELU (pairwise maximum, the layer normalisation over 1024 features, three affine layers 1024 → 512 → 128 → 64 each followed by ELU), and the nine after it (the fourth matrix product and the edge lists extended by the self loops). A call's operations stand where the call stood. -/
import proofs.«106491_j82652350644592_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Everything up to the third ELU's result, the ELUs' own operations in place of their calls. -/
abbrev ops_pre : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    reshape main_arg0 main_v4 rfl shapeCasts_S50000x2048_S50000x1024x2,
    nullary main_cst (constant S_ .f32 0xFF800000#32),
    binary main_v4 main_cst main_v5 ((fun x v => Host.reduce FloatOps.maximumf x v reducesTo_S50000x1024x2_S50000x1024_d2 h_S_) : (⟨S50000x1024x2, .f32⟩ : BufTy).Contents (Elt F) → (⟨S_, .f32⟩ : BufTy).Contents (Elt F) → (⟨S50000x1024, .f32⟩ : BufTy).Contents (Elt F)),
    nullary main_cst_0 (constant S_ .f32 0x00000000#32),
    binary main_v5 main_cst_0 main_v6 ((fun x v => Host.reduceAdd x v reducesTo_S50000x1024_S50000_d1 h_S_) : (⟨S50000x1024, .f32⟩ : BufTy).Contents (Elt F) → (⟨S_, .f32⟩ : BufTy).Contents (Elt F) → (⟨S50000, .f32⟩ : BufTy).Contents (Elt F)),
    unary main_v6 main_v7 (broadcastInDim S50000x1 ![0] bcast_S50000_S50000x1_0 : (⟨S50000, .f32⟩ : BufTy).Contents (Elt F) → (⟨S50000x1, .f32⟩ : BufTy).Contents (Elt F)),
    nullary main_cst_1 (constant S_ .f32 0x44800000#32),
    unary main_cst_1 main_v8 (broadcastInDim S50000x1 ![] bcast_S_S50000x1 : (⟨S_, .f32⟩ : BufTy).Contents (Elt F) → (⟨S50000x1, .f32⟩ : BufTy).Contents (Elt F)),
    binary main_v7 main_v8 main_v9 (Host.divf : (⟨S50000x1, .f32⟩ : BufTy).Contents (Elt F) → (⟨S50000x1, .f32⟩ : BufTy).Contents (Elt F) → (⟨S50000x1, .f32⟩ : BufTy).Contents (Elt F)),
    unary main_v9 main_v10 (broadcastInDim S50000x1024 ![0, 1] bcast_S50000x1_S50000x1024_0_1 : (⟨S50000x1, .f32⟩ : BufTy).Contents (Elt F) → (⟨S50000x1024, .f32⟩ : BufTy).Contents (Elt F)),
    binary main_v5 main_v10 main_v11 (subf : (⟨S50000x1024, .f32⟩ : BufTy).Contents (Elt F) → (⟨S50000x1024, .f32⟩ : BufTy).Contents (Elt F) → (⟨S50000x1024, .f32⟩ : BufTy).Contents (Elt F)),
    binary main_v11 main_v11 main_v12 (mulf : (⟨S50000x1024, .f32⟩ : BufTy).Contents (Elt F) → (⟨S50000x1024, .f32⟩ : BufTy).Contents (Elt F) → (⟨S50000x1024, .f32⟩ : BufTy).Contents (Elt F)),
    nullary main_cst_2 (constant S_ .f32 0x00000000#32),
    binary main_v12 main_cst_2 main_v13 ((fun x v => Host.reduceAdd x v reducesTo_S50000x1024_S50000_d1 h_S_) : (⟨S50000x1024, .f32⟩ : BufTy).Contents (Elt F) → (⟨S_, .f32⟩ : BufTy).Contents (Elt F) → (⟨S50000, .f32⟩ : BufTy).Contents (Elt F)),
    unary main_v13 main_v14 (broadcastInDim S50000x1 ![0] bcast_S50000_S50000x1_0 : (⟨S50000, .f32⟩ : BufTy).Contents (Elt F) → (⟨S50000x1, .f32⟩ : BufTy).Contents (Elt F)),
    nullary main_cst_3 (constant S_ .f32 0x44800000#32),
    unary main_cst_3 main_v15 (broadcastInDim S50000x1 ![] bcast_S_S50000x1 : (⟨S_, .f32⟩ : BufTy).Contents (Elt F) → (⟨S50000x1, .f32⟩ : BufTy).Contents (Elt F)),
    binary main_v14 main_v15 main_v16 (Host.divf : (⟨S50000x1, .f32⟩ : BufTy).Contents (Elt F) → (⟨S50000x1, .f32⟩ : BufTy).Contents (Elt F) → (⟨S50000x1, .f32⟩ : BufTy).Contents (Elt F)),
    unary main_v9 main_v17 (broadcastInDim S50000x1024 ![0, 1] bcast_S50000x1_S50000x1024_0_1 : (⟨S50000x1, .f32⟩ : BufTy).Contents (Elt F) → (⟨S50000x1024, .f32⟩ : BufTy).Contents (Elt F)),
    binary main_v5 main_v17 main_v18 (subf : (⟨S50000x1024, .f32⟩ : BufTy).Contents (Elt F) → (⟨S50000x1024, .f32⟩ : BufTy).Contents (Elt F) → (⟨S50000x1024, .f32⟩ : BufTy).Contents (Elt F)),
    nullary main_cst_4 (constant S_ .f32 0x3727C5AC#32),
    unary main_cst_4 main_v19 (broadcastInDim S50000x1 ![] bcast_S_S50000x1 : (⟨S_, .f32⟩ : BufTy).Contents (Elt F) → (⟨S50000x1, .f32⟩ : BufTy).Contents (Elt F)),
    binary main_v16 main_v19 main_v20 (addf : (⟨S50000x1, .f32⟩ : BufTy).Contents (Elt F) → (⟨S50000x1, .f32⟩ : BufTy).Contents (Elt F) → (⟨S50000x1, .f32⟩ : BufTy).Contents (Elt F)),
    unary main_v20 main_v21 (Host.rsqrt : (⟨S50000x1, .f32⟩ : BufTy).Contents (Elt F) → (⟨S50000x1, .f32⟩ : BufTy).Contents (Elt F)),
    unary main_v21 main_v22 (broadcastInDim S50000x1024 ![0, 1] bcast_S50000x1_S50000x1024_0_1 : (⟨S50000x1, .f32⟩ : BufTy).Contents (Elt F) → (⟨S50000x1024, .f32⟩ : BufTy).Contents (Elt F)),
    binary main_v18 main_v22 main_v23 (mulf : (⟨S50000x1024, .f32⟩ : BufTy).Contents (Elt F) → (⟨S50000x1024, .f32⟩ : BufTy).Contents (Elt F) → (⟨S50000x1024, .f32⟩ : BufTy).Contents (Elt F)),
    unary main_arg3 main_v24 (broadcastInDim S1x1024 ![1] bcast_S1024_S1x1024_1 : (⟨S1024, .f32⟩ : BufTy).Contents (Elt F) → (⟨S1x1024, .f32⟩ : BufTy).Contents (Elt F)),
    unary main_v24 main_v25 (broadcastInDim S50000x1024 ![0, 1] bcast_S1x1024_S50000x1024_0_1 : (⟨S1x1024, .f32⟩ : BufTy).Contents (Elt F) → (⟨S50000x1024, .f32⟩ : BufTy).Contents (Elt F)),
    binary main_v23 main_v25 main_v26 (mulf : (⟨S50000x1024, .f32⟩ : BufTy).Contents (Elt F) → (⟨S50000x1024, .f32⟩ : BufTy).Contents (Elt F) → (⟨S50000x1024, .f32⟩ : BufTy).Contents (Elt F)),
    unary main_arg4 main_v27 (broadcastInDim S1x1024 ![1] bcast_S1024_S1x1024_1 : (⟨S1024, .f32⟩ : BufTy).Contents (Elt F) → (⟨S1x1024, .f32⟩ : BufTy).Contents (Elt F)),
    unary main_v27 main_v28 (broadcastInDim S50000x1024 ![0, 1] bcast_S1x1024_S50000x1024_0_1 : (⟨S1x1024, .f32⟩ : BufTy).Contents (Elt F) → (⟨S50000x1024, .f32⟩ : BufTy).Contents (Elt F)),
    binary main_v26 main_v28 main_v29 (addf : (⟨S50000x1024, .f32⟩ : BufTy).Contents (Elt F) → (⟨S50000x1024, .f32⟩ : BufTy).Contents (Elt F) → (⟨S50000x1024, .f32⟩ : BufTy).Contents (Elt F)),
    binary main_v29 main_arg5 main_v30 ((fun l r => Host.dotGeneral dot_S50000x1024_S1024x512_S50000x512_1_0_0_1_n_n none l r) : (⟨S50000x1024, .f32⟩ : BufTy).Contents (Elt F) → (⟨S1024x512, .f32⟩ : BufTy).Contents (Elt F) → (⟨S50000x512, .f32⟩ : BufTy).Contents (Elt F)),
    unary main_arg6 main_v31 (broadcastInDim S1x512 ![1] bcast_S512_S1x512_1 : (⟨S512, .f32⟩ : BufTy).Contents (Elt F) → (⟨S1x512, .f32⟩ : BufTy).Contents (Elt F)),
    unary main_v31 main_v32 (broadcastInDim S50000x512 ![0, 1] bcast_S1x512_S50000x512_0_1 : (⟨S1x512, .f32⟩ : BufTy).Contents (Elt F) → (⟨S50000x512, .f32⟩ : BufTy).Contents (Elt F)),
    binary main_v30 main_v32 main_v33 (addf : (⟨S50000x512, .f32⟩ : BufTy).Contents (Elt F) → (⟨S50000x512, .f32⟩ : BufTy).Contents (Elt F) → (⟨S50000x512, .f32⟩ : BufTy).Contents (Elt F)),
    TRef.nullary main_call0.cst (constant S_ .f32 0x00000000#32),
    TRef.unary main_call0.cst main_call0.v0 (broadcastInDim S50000x512 ![] bcast_S_S50000x512),
    TRef.binary (.of main_v33 : TRef sig ⟨S50000x512, .f32⟩) main_call0.v0 main_call0.v1 (cmpf .ogt),
    TRef.nullary main_call0.cst_0 (constant S_ .f32 0x00000000#32),
    TRef.unary main_call0.cst_0 main_call0.v2 (broadcastInDim S50000x512 ![] bcast_S_S50000x512),
    TRef.binary (.of main_v33 : TRef sig ⟨S50000x512, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S50000x512 ![] bcast_S_S50000x512),
    TRef.ternary main_call0.v3 main_call0.call0.v1 (.of main_v33 : TRef sig ⟨S50000x512, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S50000x512 ![] bcast_S_S50000x512),
    TRef.binary main_call0.v6 main_call0.v5 main_call0.v7 mulf,
    TRef.ternary main_call0.v1 (.of main_v33 : TRef sig ⟨S50000x512, .f32⟩) main_call0.v7 main_call0.call1.v0 select,
    binary main_v34 main_arg7 main_v35 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    unary main_arg8 main_v36 (broadcastInDim S1x128 ![1] bcast_S128_S1x128_1 : (⟨S128, .f32⟩ : BufTy).Contents (Elt F) → (⟨S1x128, .f32⟩ : BufTy).Contents (Elt F)),
    unary main_v36 main_v37 (broadcastInDim S50000x128 ![0, 1] bcast_S1x128_S50000x128_0_1 : (⟨S1x128, .f32⟩ : BufTy).Contents (Elt F) → (⟨S50000x128, .f32⟩ : BufTy).Contents (Elt F)),
    binary main_v35 main_v37 main_v38 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v38 : TRef sig ⟨S50000x128, .f32⟩) main_call1.v0 main_call1.v1 (cmpf .ogt),
    TRef.nullary main_call1.cst_0 (constant S_ .f32 0x00000000#32),
    TRef.unary main_call1.cst_0 main_call1.v2 (broadcastInDim S50000x128 ![] bcast_S_S50000x128),
    TRef.binary (.of main_v38 : TRef sig ⟨S50000x128, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S50000x128 ![] bcast_S_S50000x128),
    TRef.ternary main_call1.v3 main_call1.call0.v1 (.of main_v38 : TRef sig ⟨S50000x128, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S50000x128 ![] bcast_S_S50000x128),
    TRef.binary main_call1.v6 main_call1.v5 main_call1.v7 mulf,
    TRef.ternary main_call1.v1 (.of main_v38 : TRef sig ⟨S50000x128, .f32⟩) main_call1.v7 main_call1.call1.v0 select,
    binary main_v39 main_arg9 main_v40 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg10 main_v41 (broadcastInDim S1x64 ![1] bcast_S64_S1x64_1 : (⟨S64, .f32⟩ : BufTy).Contents (Elt F) → (⟨S1x64, .f32⟩ : BufTy).Contents (Elt F)),
    unary main_v41 main_v42 (broadcastInDim S50000x64 ![0, 1] bcast_S1x64_S50000x64_0_1 : (⟨S1x64, .f32⟩ : BufTy).Contents (Elt F) → (⟨S50000x64, .f32⟩ : BufTy).Contents (Elt F)),
    binary main_v40 main_v42 main_v43 (addf : (⟨S50000x64, .f32⟩ : BufTy).Contents (Elt F) → (⟨S50000x64, .f32⟩ : BufTy).Contents (Elt F) → (⟨S50000x64, .f32⟩ : BufTy).Contents (Elt F)),
    TRef.nullary main_call2.cst (constant S_ .f32 0x00000000#32),
    TRef.unary main_call2.cst main_call2.v0 (broadcastInDim S50000x64 ![] bcast_S_S50000x64),
    TRef.binary (.of main_v43 : TRef sig ⟨S50000x64, .f32⟩) main_call2.v0 main_call2.v1 (cmpf .ogt),
    TRef.nullary main_call2.cst_0 (constant S_ .f32 0x00000000#32),
    TRef.unary main_call2.cst_0 main_call2.v2 (broadcastInDim S50000x64 ![] bcast_S_S50000x64),
    TRef.binary (.of main_v43 : TRef sig ⟨S50000x64, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S50000x64 ![] bcast_S_S50000x64),
    TRef.ternary main_call2.v3 main_call2.call0.v1 (.of main_v43 : TRef sig ⟨S50000x64, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S50000x64 ![] bcast_S_S50000x64),
    TRef.binary main_call2.v6 main_call2.v5 main_call2.v7 mulf,
    TRef.ternary main_call2.v1 (.of main_v43 : TRef sig ⟨S50000x64, .f32⟩) main_call2.v7 main_call2.call1.v0 select ]

theorem ops_pre_sub : (ops_pre : List (HloOp τ sig (Elt F))).Forall fun op => op.bufs ⊆ tcRefs τ sig :=
  ⟨unary_bufs_sub .., reshape_bufs_sub .., unary_bufs_sub .., reshape_bufs_sub .., reshape_bufs_sub .., nullary_bufs_sub ..,
    binary_bufs_sub .., nullary_bufs_sub .., binary_bufs_sub .., unary_bufs_sub .., nullary_bufs_sub .., unary_bufs_sub ..,
    binary_bufs_sub .., unary_bufs_sub .., binary_bufs_sub .., binary_bufs_sub .., nullary_bufs_sub .., binary_bufs_sub ..,
    unary_bufs_sub .., nullary_bufs_sub .., unary_bufs_sub .., binary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

theorem ops_pre_fresh : (ops_pre : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl⟩

/-- The buffers those operations write, in order. -/
abbrev ops_pre_W : List (Ref sig .tc) :=
  [main_v0, main_v1, main_v2, main_v3, main_v4, main_cst, main_v5, main_cst_0,
   main_v6, main_v7, main_cst_1, main_v8, main_v9, main_v10, main_v11, main_v12,
   main_cst_2, main_v13, main_v14, main_cst_3, main_v15, main_v16, main_v17, main_v18,
   main_cst_4, main_v19, main_v20, main_v21, main_v22, main_v23, main_v24, main_v25,
   main_v26, main_v27, main_v28, main_v29, main_v30, main_v31, main_v32, main_v33,
   main_call0.cst.ref, main_call0.v0.ref, main_call0.v1.ref, main_call0.cst_0.ref, main_call0.v2.ref, main_call0.v3.ref, main_call0.cst_1.ref, main_call0.call0.v0.ref,
   main_call0.call0.v1.ref, main_call0.call0.v2.ref, main_call0.v5.ref, main_call0.cst_2.ref, main_call0.v6.ref, main_call0.v7.ref, main_call0.call1.v0.ref, main_v35,
   main_v36, main_v37, main_v38, main_call1.cst.ref, main_call1.v0.ref, main_call1.v1.ref, main_call1.cst_0.ref, main_call1.v2.ref,
   main_call1.v3.ref, main_call1.cst_1.ref, main_call1.call0.v0.ref, main_call1.call0.v1.ref, main_call1.call0.v2.ref, main_call1.v5.ref, main_call1.cst_2.ref, main_call1.v6.ref,
   main_call1.v7.ref, main_call1.call1.v0.ref, main_v40, main_v41, main_v42, main_v43, main_call2.cst.ref, main_call2.v0.ref,
   main_call2.v1.ref, main_call2.cst_0.ref, main_call2.v2.ref, main_call2.v3.ref, main_call2.cst_1.ref, main_call2.call0.v0.ref, main_call2.call0.v1.ref, main_call2.call0.v2.ref,
   main_call2.v5.ref, main_call2.cst_2.ref, main_call2.v6.ref, main_call2.v7.ref, main_call2.call1.v0.ref]

theorem ops_pre_writes : (ops_pre : List (HloOp τ sig (Elt F))).Forall fun op =>
    op.writes ⊆ (ops_pre_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The rest of the first window: the product with the 64 × 32 weights, the self-loop indices, both edge lists extended by them, the constants of the degree count. -/
abbrev ops_p0b : List (HloOp τ sig (Elt F)) :=
  [ binary main_v44 main_arg11 main_v45 ((fun l r => Host.dotGeneral dot_S50000x64_S64x32_S50000x32_1_0_0_1_n_n none l r) : (⟨S50000x64, .f32⟩ : BufTy).Contents (Elt F) → (⟨S64x32, .f32⟩ : BufTy).Contents (Elt F) → (⟨S50000x32, .f32⟩ : BufTy).Contents (Elt F)),
    nullary main_v46 (iotaInDim S50000 32 0),
    binary main_v1 main_v46 main_v47 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    binary main_v3 main_v46 main_v48 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    nullary main_cst_5 (constant S_ .f32 0x3F800000#32),
    unary main_cst_5 main_v49 (broadcastInDim S1650000 ![] bcast_S_S1650000 : (⟨S_, .f32⟩ : BufTy).Contents (Elt F) → (⟨S1650000, .f32⟩ : BufTy).Contents (Elt F)),
    nullary main_cst_6 (constant S_ .f32 0x00000000#32),
    unary main_cst_6 main_v50 (broadcastInDim S50000 ![] bcast_S_S50000 : (⟨S_, .f32⟩ : BufTy).Contents (Elt F) → (⟨S50000, .f32⟩ : BufTy).Contents (Elt F)),
    unary main_v48 main_v51 (broadcastInDim S1650000x1 ![0] bcast_S1650000_S1650000x1_0 : (⟨S1650000, .i32⟩ : BufTy).Contents (Elt F) → (⟨S1650000x1, .i32⟩ : BufTy).Contents (Elt F)) ]

theorem ops_p0b_sub : (ops_p0b : List (HloOp τ sig (Elt F))).Forall fun op => op.bufs ⊆ tcRefs τ sig :=
  ⟨binary_bufs_sub .., nullary_bufs_sub .., binary_bufs_sub .., binary_bufs_sub .., nullary_bufs_sub .., unary_bufs_sub ..,
    nullary_bufs_sub .., unary_bufs_sub .., unary_bufs_sub ..⟩

theorem ops_p0b_fresh : (ops_p0b : List (HloOp τ sig (Elt F))).Forall fun op => op.fresh = ∅ :=
  ⟨rfl, rfl, rfl, rfl, rfl, rfl, rfl, rfl, rfl⟩

/-- The buffers those operations write, in order. -/
abbrev ops_p0b_W : List (Ref sig .tc) :=
  [main_v45, main_v46, main_v47, main_v48, main_cst_5, main_v49, main_cst_6, main_v50,
   main_v51]

theorem ops_p0b_writes : (ops_p0b : List (HloOp τ sig (Elt F))).Forall fun op =>
    op.writes ⊆ (ops_p0b_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 4096 in
/-- The window is that straight line: the functions unfolded at their calls and sequencing re-associated, both sides are one
    chain of single operations. -/
theorem main_part0_eq (c : Dev nD) : main_part0 (F := F) c = seq (ops_pre ++ ops_p0b) := by
  simp only [main_part0, fn_where.body, fn_where_0.body, fn_elu.body, fn_where_2.body, fn_where_3.body, fn_elu_1.body, fn_where_5.body, fn_where_6.body, fn_elu_4.body, ops_pre, ops_p0b, List.cons_append, List.nil_append, seq, bind_assoc, pure_bind] <;> rfl

end Cert.ReferenceIdeal.HandRun

end
-- ==== Proof.RefOps1.lean ====
/- The reference's statements 61 to 120 as single operations: the degree normalisation, the first graph convolution's gather, scaling and scatter, its bias and ELU, and the start of the second convolution. A call's operations stand where the call stood. -/
import proofs.«106491_j82652350644592_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Statements 61 to 120, the fourth ELU's operations in place of its call. -/
abbrev ops_p1 : List (HloOp τ sig (Elt F)) :=
  [ ternary main_v50 main_v51 main_v49 main_v52 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_7 (constant S_ .f32 0x2B8CBCCC#32),
    unary main_cst_7 main_v53 (broadcastInDim S50000 ![] bcast_S_S50000 : (⟨S_, .f32⟩ : BufTy).Contents (Elt F) → (⟨S50000, .f32⟩ : BufTy).Contents (Elt F)),
    binary main_v52 main_v53 main_v54 (maximumf : (⟨S50000, .f32⟩ : BufTy).Contents (Elt F) → (⟨S50000, .f32⟩ : BufTy).Contents (Elt F) → (⟨S50000, .f32⟩ : BufTy).Contents (Elt F)),
    unary main_v54 main_v55 (Host.rsqrt : (⟨S50000, .f32⟩ : BufTy).Contents (Elt F) → (⟨S50000, .f32⟩ : BufTy).Contents (Elt F)),
    nullary main_c (constantI S_ 32 0#32),
    unary main_c main_v56 (broadcastInDim S1650000 ![] bcast_S_S1650000 : (⟨S_, .i32⟩ : BufTy).Contents (Elt F) → (⟨S1650000, .i32⟩ : BufTy).Contents (Elt F)),
    binary main_v47 main_v56 main_v57 (cmpi .slt : (⟨S1650000, .i32⟩ : BufTy).Contents (Elt F) → (⟨S1650000, .i32⟩ : BufTy).Contents (Elt F) → (⟨S1650000, .i1⟩ : BufTy).Contents (Elt F)),
    nullary main_c_8 (constantI S_ 32 50000#32),
    unary main_c_8 main_v58 (broadcastInDim S1650000 ![] bcast_S_S1650000 : (⟨S_, .i32⟩ : BufTy).Contents (Elt F) → (⟨S1650000, .i32⟩ : BufTy).Contents (Elt F)),
    binary main_v47 main_v58 main_v59 (addi : (⟨S1650000, .i32⟩ : BufTy).Contents (Elt F) → (⟨S1650000, .i32⟩ : BufTy).Contents (Elt F) → (⟨S1650000, .i32⟩ : BufTy).Contents (Elt F)),
    ternary main_v57 main_v59 main_v47 main_v60 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v60 main_v61 (broadcastInDim S1650000x1 ![0] bcast_S1650000_S1650000x1_0 : (⟨S1650000, .i32⟩ : BufTy).Contents (Elt F) → (⟨S1650000x1, .i32⟩ : BufTy).Contents (Elt F)),
    binary main_v55 main_v61 main_v62 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_9 (constantI S_ 32 0#32),
    unary main_c_9 main_v63 (broadcastInDim S1650000 ![] bcast_S_S1650000 : (⟨S_, .i32⟩ : BufTy).Contents (Elt F) → (⟨S1650000, .i32⟩ : BufTy).Contents (Elt F)),
    binary main_v48 main_v63 main_v64 (cmpi .slt : (⟨S1650000, .i32⟩ : BufTy).Contents (Elt F) → (⟨S1650000, .i32⟩ : BufTy).Contents (Elt F) → (⟨S1650000, .i1⟩ : BufTy).Contents (Elt F)),
    nullary main_c_10 (constantI S_ 32 50000#32),
    unary main_c_10 main_v65 (broadcastInDim S1650000 ![] bcast_S_S1650000 : (⟨S_, .i32⟩ : BufTy).Contents (Elt F) → (⟨S1650000, .i32⟩ : BufTy).Contents (Elt F)),
    binary main_v48 main_v65 main_v66 (addi : (⟨S1650000, .i32⟩ : BufTy).Contents (Elt F) → (⟨S1650000, .i32⟩ : BufTy).Contents (Elt F) → (⟨S1650000, .i32⟩ : BufTy).Contents (Elt F)),
    ternary main_v64 main_v66 main_v48 main_v67 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v67 main_v68 (broadcastInDim S1650000x1 ![0] bcast_S1650000_S1650000x1_0 : (⟨S1650000, .i32⟩ : BufTy).Contents (Elt F) → (⟨S1650000x1, .i32⟩ : BufTy).Contents (Elt F)),
    binary main_v55 main_v68 main_v69 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v62 main_v69 main_v70 (mulf : (⟨S1650000, .f32⟩ : BufTy).Contents (Elt F) → (⟨S1650000, .f32⟩ : BufTy).Contents (Elt F) → (⟨S1650000, .f32⟩ : BufTy).Contents (Elt F)),
    nullary main_c_11 (constantI S_ 32 0#32),
    unary main_c_11 main_v71 (broadcastInDim S1650000 ![] bcast_S_S1650000 : (⟨S_, .i32⟩ : BufTy).Contents (Elt F) → (⟨S1650000, .i32⟩ : BufTy).Contents (Elt F)),
    binary main_v47 main_v71 main_v72 (cmpi .slt : (⟨S1650000, .i32⟩ : BufTy).Contents (Elt F) → (⟨S1650000, .i32⟩ : BufTy).Contents (Elt F) → (⟨S1650000, .i1⟩ : BufTy).Contents (Elt F)),
    nullary main_c_12 (constantI S_ 32 50000#32),
    unary main_c_12 main_v73 (broadcastInDim S1650000 ![] bcast_S_S1650000 : (⟨S_, .i32⟩ : BufTy).Contents (Elt F) → (⟨S1650000, .i32⟩ : BufTy).Contents (Elt F)),
    binary main_v47 main_v73 main_v74 (addi : (⟨S1650000, .i32⟩ : BufTy).Contents (Elt F) → (⟨S1650000, .i32⟩ : BufTy).Contents (Elt F) → (⟨S1650000, .i32⟩ : BufTy).Contents (Elt F)),
    ternary main_v72 main_v74 main_v47 main_v75 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v75 main_v76 (broadcastInDim S1650000x1 ![0] bcast_S1650000_S1650000x1_0 : (⟨S1650000, .i32⟩ : BufTy).Contents (Elt F) → (⟨S1650000x1, .i32⟩ : BufTy).Contents (Elt F)),
    binary main_v45 main_v76 main_v77 ((fun x i => Host.gather gather_S50000x32_S1650000x1_S1650000x32_1_0_n_n_0_1_132 x i) : (⟨S50000x32, .f32⟩ : BufTy).Contents (Elt F) → (⟨S1650000x1, .i32⟩ : BufTy).Contents (Elt F) → (⟨S1650000x32, .f32⟩ : BufTy).Contents (Elt F)),
    unary main_v70 main_v78 (broadcastInDim S1650000x1 ![0] bcast_S1650000_S1650000x1_0 : (⟨S1650000, .f32⟩ : BufTy).Contents (Elt F) → (⟨S1650000x1, .f32⟩ : BufTy).Contents (Elt F)),
    unary main_v78 main_v79 (broadcastInDim S1650000x32 ![0, 1] bcast_S1650000x1_S1650000x32_0_1 : (⟨S1650000x1, .f32⟩ : BufTy).Contents (Elt F) → (⟨S1650000x32, .f32⟩ : BufTy).Contents (Elt F)),
    binary main_v77 main_v79 main_v80 (mulf : (⟨S1650000x32, .f32⟩ : BufTy).Contents (Elt F) → (⟨S1650000x32, .f32⟩ : BufTy).Contents (Elt F) → (⟨S1650000x32, .f32⟩ : BufTy).Contents (Elt F)),
    nullary main_cst_13 (constant S_ .f32 0x00000000#32),
    unary main_cst_13 main_v81 (broadcastInDim S50000x32 ![] bcast_S_S50000x32 : (⟨S_, .f32⟩ : BufTy).Contents (Elt F) → (⟨S50000x32, .f32⟩ : BufTy).Contents (Elt F)),
    unary main_v48 main_v82 (broadcastInDim S1650000x1 ![0] bcast_S1650000_S1650000x1_0 : (⟨S1650000, .i32⟩ : BufTy).Contents (Elt F) → (⟨S1650000x1, .i32⟩ : BufTy).Contents (Elt F)),
    ternary main_v81 main_v82 main_v80 main_v83 ((fun x i u => Host.scatterAdd scatter_S50000x32_S1650000x1_S1650000x32_1_0_0_1 x i u) : (⟨S50000x32, .f32⟩ : BufTy).Contents (Elt F) → (⟨S1650000x1, .i32⟩ : BufTy).Contents (Elt F) → (⟨S1650000x32, .f32⟩ : BufTy).Contents (Elt F) → (⟨S50000x32, .f32⟩ : BufTy).Contents (Elt F)),
    unary main_arg12 main_v84 (broadcastInDim S1x32 ![1] bcast_S32_S1x32_1 : (⟨S32, .f32⟩ : BufTy).Contents (Elt F) → (⟨S1x32, .f32⟩ : BufTy).Contents (Elt F)),
    unary main_v84 main_v85 (broadcastInDim S50000x32 ![0, 1] bcast_S1x32_S50000x32_0_1 : (⟨S1x32, .f32⟩ : BufTy).Contents (Elt F) → (⟨S50000x32, .f32⟩ : BufTy).Contents (Elt F)),
    binary main_v83 main_v85 main_v86 (addf : (⟨S50000x32, .f32⟩ : BufTy).Contents (Elt F) → (⟨S50000x32, .f32⟩ : BufTy).Contents (Elt F) → (⟨S50000x32, .f32⟩ : BufTy).Contents (Elt F)),
    TRef.nullary main_call3.cst (constant S_ .f32 0x00000000#32),
    TRef.unary main_call3.cst main_call3.v0 (broadcastInDim S50000x32 ![] bcast_S_S50000x32),
    TRef.binary (.of main_v86 : TRef sig ⟨S50000x32, .f32⟩) main_call3.v0 main_call3.v1 (cmpf .ogt),
    TRef.nullary main_call3.cst_0 (constant S_ .f32 0x00000000#32),
    TRef.unary main_call3.cst_0 main_call3.v2 (broadcastInDim S50000x32 ![] bcast_S_S50000x32),
    TRef.binary (.of main_v86 : TRef sig ⟨S50000x32, .f32⟩) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S50000x32 ![] bcast_S_S50000x32),
    TRef.ternary main_call3.v3 main_call3.call0.v1 (.of main_v86 : TRef sig ⟨S50000x32, .f32⟩) main_call3.call0.v2 select,
    TRef.unary main_call3.call0.v2 main_call3.v5 Host.expm1,
    TRef.nullary main_call3.cst_2 (constant S_ .f32 0x3F800000#32),
    TRef.unary main_call3.cst_2 main_call3.v6 (broadcastInDim S50000x32 ![] bcast_S_S50000x32),
    TRef.binary main_call3.v6 main_call3.v5 main_call3.v7 mulf,
    TRef.ternary main_call3.v1 (.of main_v86 : TRef sig ⟨S50000x32, .f32⟩) main_call3.v7 main_call3.call1.v0 select,
    binary main_v87 main_arg13 main_v88 ((fun l r => Host.dotGeneral dot_S50000x32_S32x16_S50000x16_1_0_0_1_n_n none l r) : (⟨S50000x32, .f32⟩ : BufTy).Contents (Elt F) → (⟨S32x16, .f32⟩ : BufTy).Contents (Elt F) → (⟨S50000x16, .f32⟩ : BufTy).Contents (Elt F)),
    nullary main_v89 (iotaInDim S50000 32 0),
    binary main_v1 main_v89 main_v90 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    binary main_v3 main_v89 main_v91 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    nullary main_cst_14 (constant S_ .f32 0x3F800000#32),
    unary main_cst_14 main_v92 (broadcastInDim S1650000 ![] bcast_S_S1650000 : (⟨S_, .f32⟩ : BufTy).Contents (Elt F) → (⟨S1650000, .f32⟩ : BufTy).Contents (Elt F)),
    nullary main_cst_15 (constant S_ .f32 0x00000000#32),
    unary main_cst_15 main_v93 (broadcastInDim S50000 ![] bcast_S_S50000 : (⟨S_, .f32⟩ : BufTy).Contents (Elt F) → (⟨S50000, .f32⟩ : BufTy).Contents (Elt F)),
    unary main_v91 main_v94 (broadcastInDim S1650000x1 ![0] bcast_S1650000_S1650000x1_0 : (⟨S1650000, .i32⟩ : BufTy).Contents (Elt F) → (⟨S1650000x1, .i32⟩ : BufTy).Contents (Elt F)),
    ternary main_v93 main_v94 main_v92 main_v95 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_16 (constant S_ .f32 0x2B8CBCCC#32),
    unary main_cst_16 main_v96 (broadcastInDim S50000 ![] bcast_S_S50000 : (⟨S_, .f32⟩ : BufTy).Contents (Elt F) → (⟨S50000, .f32⟩ : BufTy).Contents (Elt F)),
    binary main_v95 main_v96 main_v97 (maximumf : (⟨S50000, .f32⟩ : BufTy).Contents (Elt F) → (⟨S50000, .f32⟩ : BufTy).Contents (Elt F) → (⟨S50000, .f32⟩ : BufTy).Contents (Elt F)),
    unary main_v97 main_v98 (Host.rsqrt : (⟨S50000, .f32⟩ : BufTy).Contents (Elt F) → (⟨S50000, .f32⟩ : BufTy).Contents (Elt F)),
    nullary main_c_17 (constantI S_ 32 0#32),
    unary main_c_17 main_v99 (broadcastInDim S1650000 ![] bcast_S_S1650000 : (⟨S_, .i32⟩ : BufTy).Contents (Elt F) → (⟨S1650000, .i32⟩ : BufTy).Contents (Elt F)) ]

theorem ops_p1_sub : (ops_p1 : List (HloOp τ sig (Elt F))).Forall fun op => op.bufs ⊆ tcRefs τ sig :=
  ⟨ternary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., binary_bufs_sub .., nullary_bufs_sub ..,
    binary_bufs_sub .., binary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    nullary_bufs_sub .., unary_bufs_sub ..⟩

theorem ops_p1_fresh : (ops_p1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl⟩

/-- The buffers those operations write, in order. -/
abbrev ops_p1_W : List (Ref sig .tc) :=
  [main_v52, main_cst_7, main_v53, main_v54, main_v55, main_c, main_v56, main_v57,
   main_c_8, main_v58, main_v59, main_v60, main_v61, main_v62, main_c_9, main_v63,
   main_v64, main_c_10, main_v65, main_v66, main_v67, main_v68, main_v69, main_v70,
   main_c_11, main_v71, main_v72, main_c_12, main_v73, main_v74, main_v75, main_v76,
   main_v77, main_v78, main_v79, main_v80, main_cst_13, main_v81, main_v82, main_v83,
   main_v84, main_v85, main_v86, main_call3.cst.ref, main_call3.v0.ref, main_call3.v1.ref, main_call3.cst_0.ref, main_call3.v2.ref,
   main_call3.v3.ref, main_call3.cst_1.ref, main_call3.call0.v0.ref, main_call3.call0.v1.ref, main_call3.call0.v2.ref, main_call3.v5.ref, main_call3.cst_2.ref, main_call3.v6.ref,
   main_call3.v7.ref, main_call3.call1.v0.ref, main_v88, main_v89, main_v90, main_v91, main_cst_14, main_v92,
   main_cst_15, main_v93, main_v94, main_v95, main_cst_16, main_v96, main_v97, main_v98,
   main_c_17, main_v99]

theorem ops_p1_writes : (ops_p1 : List (HloOp τ sig (Elt F))).Forall fun op =>
    op.writes ⊆ (ops_p1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 4096 in
/-- The window is that straight line: the functions unfolded at their calls and sequencing re-associated, both sides are one
    chain of single operations. -/
theorem main_part1_eq (c : Dev nD) : main_part1 (F := F) c = seq (ops_p1) := by
  simp only [main_part1, fn_where_8.body, fn_where_9.body, fn_elu_7.body, ops_p1, List.cons_append, List.nil_append, seq, bind_assoc, pure_bind] <;> rfl

end Cert.ReferenceIdeal.HandRun

end
-- ==== Proof.RefOps2.lean ====
/- The reference's statements 121 to 180 as single operations: the second graph convolution's gather, scaling, scatter and bias, and the gathers of both end points of the queried edges. -/
import proofs.«106491_j82652350644592_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Statements 121 to 180. -/
abbrev ops_p2 : List (HloOp τ sig (Elt F)) :=
  [ binary main_v90 main_v99 main_v100 (cmpi .slt : (⟨S1650000, .i32⟩ : BufTy).Contents (Elt F) → (⟨S1650000, .i32⟩ : BufTy).Contents (Elt F) → (⟨S1650000, .i1⟩ : BufTy).Contents (Elt F)),
    nullary main_c_18 (constantI S_ 32 50000#32),
    unary main_c_18 main_v101 (broadcastInDim S1650000 ![] bcast_S_S1650000 : (⟨S_, .i32⟩ : BufTy).Contents (Elt F) → (⟨S1650000, .i32⟩ : BufTy).Contents (Elt F)),
    binary main_v90 main_v101 main_v102 (addi : (⟨S1650000, .i32⟩ : BufTy).Contents (Elt F) → (⟨S1650000, .i32⟩ : BufTy).Contents (Elt F) → (⟨S1650000, .i32⟩ : BufTy).Contents (Elt F)),
    ternary main_v100 main_v102 main_v90 main_v103 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v103 main_v104 (broadcastInDim S1650000x1 ![0] bcast_S1650000_S1650000x1_0 : (⟨S1650000, .i32⟩ : BufTy).Contents (Elt F) → (⟨S1650000x1, .i32⟩ : BufTy).Contents (Elt F)),
    binary main_v98 main_v104 main_v105 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_19 (constantI S_ 32 0#32),
    unary main_c_19 main_v106 (broadcastInDim S1650000 ![] bcast_S_S1650000 : (⟨S_, .i32⟩ : BufTy).Contents (Elt F) → (⟨S1650000, .i32⟩ : BufTy).Contents (Elt F)),
    binary main_v91 main_v106 main_v107 (cmpi .slt : (⟨S1650000, .i32⟩ : BufTy).Contents (Elt F) → (⟨S1650000, .i32⟩ : BufTy).Contents (Elt F) → (⟨S1650000, .i1⟩ : BufTy).Contents (Elt F)),
    nullary main_c_20 (constantI S_ 32 50000#32),
    unary main_c_20 main_v108 (broadcastInDim S1650000 ![] bcast_S_S1650000 : (⟨S_, .i32⟩ : BufTy).Contents (Elt F) → (⟨S1650000, .i32⟩ : BufTy).Contents (Elt F)),
    binary main_v91 main_v108 main_v109 (addi : (⟨S1650000, .i32⟩ : BufTy).Contents (Elt F) → (⟨S1650000, .i32⟩ : BufTy).Contents (Elt F) → (⟨S1650000, .i32⟩ : BufTy).Contents (Elt F)),
    ternary main_v107 main_v109 main_v91 main_v110 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v110 main_v111 (broadcastInDim S1650000x1 ![0] bcast_S1650000_S1650000x1_0 : (⟨S1650000, .i32⟩ : BufTy).Contents (Elt F) → (⟨S1650000x1, .i32⟩ : BufTy).Contents (Elt F)),
    binary main_v98 main_v111 main_v112 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v105 main_v112 main_v113 (mulf : (⟨S1650000, .f32⟩ : BufTy).Contents (Elt F) → (⟨S1650000, .f32⟩ : BufTy).Contents (Elt F) → (⟨S1650000, .f32⟩ : BufTy).Contents (Elt F)),
    nullary main_c_21 (constantI S_ 32 0#32),
    unary main_c_21 main_v114 (broadcastInDim S1650000 ![] bcast_S_S1650000 : (⟨S_, .i32⟩ : BufTy).Contents (Elt F) → (⟨S1650000, .i32⟩ : BufTy).Contents (Elt F)),
    binary main_v90 main_v114 main_v115 (cmpi .slt : (⟨S1650000, .i32⟩ : BufTy).Contents (Elt F) → (⟨S1650000, .i32⟩ : BufTy).Contents (Elt F) → (⟨S1650000, .i1⟩ : BufTy).Contents (Elt F)),
    nullary main_c_22 (constantI S_ 32 50000#32),
    unary main_c_22 main_v116 (broadcastInDim S1650000 ![] bcast_S_S1650000 : (⟨S_, .i32⟩ : BufTy).Contents (Elt F) → (⟨S1650000, .i32⟩ : BufTy).Contents (Elt F)),
    binary main_v90 main_v116 main_v117 (addi : (⟨S1650000, .i32⟩ : BufTy).Contents (Elt F) → (⟨S1650000, .i32⟩ : BufTy).Contents (Elt F) → (⟨S1650000, .i32⟩ : BufTy).Contents (Elt F)),
    ternary main_v115 main_v117 main_v90 main_v118 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v118 main_v119 (broadcastInDim S1650000x1 ![0] bcast_S1650000_S1650000x1_0 : (⟨S1650000, .i32⟩ : BufTy).Contents (Elt F) → (⟨S1650000x1, .i32⟩ : BufTy).Contents (Elt F)),
    binary main_v88 main_v119 main_v120 ((fun x i => Host.gather gather_S50000x16_S1650000x1_S1650000x16_1_0_n_n_0_1_116 x i) : (⟨S50000x16, .f32⟩ : BufTy).Contents (Elt F) → (⟨S1650000x1, .i32⟩ : BufTy).Contents (Elt F) → (⟨S1650000x16, .f32⟩ : BufTy).Contents (Elt F)),
    unary main_v113 main_v121 (broadcastInDim S1650000x1 ![0] bcast_S1650000_S1650000x1_0 : (⟨S1650000, .f32⟩ : BufTy).Contents (Elt F) → (⟨S1650000x1, .f32⟩ : BufTy).Contents (Elt F)),
    unary main_v121 main_v122 (broadcastInDim S1650000x16 ![0, 1] bcast_S1650000x1_S1650000x16_0_1 : (⟨S1650000x1, .f32⟩ : BufTy).Contents (Elt F) → (⟨S1650000x16, .f32⟩ : BufTy).Contents (Elt F)),
    binary main_v120 main_v122 main_v123 (mulf : (⟨S1650000x16, .f32⟩ : BufTy).Contents (Elt F) → (⟨S1650000x16, .f32⟩ : BufTy).Contents (Elt F) → (⟨S1650000x16, .f32⟩ : BufTy).Contents (Elt F)),
    nullary main_cst_23 (constant S_ .f32 0x00000000#32),
    unary main_cst_23 main_v124 (broadcastInDim S50000x16 ![] bcast_S_S50000x16 : (⟨S_, .f32⟩ : BufTy).Contents (Elt F) → (⟨S50000x16, .f32⟩ : BufTy).Contents (Elt F)),
    unary main_v91 main_v125 (broadcastInDim S1650000x1 ![0] bcast_S1650000_S1650000x1_0 : (⟨S1650000, .i32⟩ : BufTy).Contents (Elt F) → (⟨S1650000x1, .i32⟩ : BufTy).Contents (Elt F)),
    ternary main_v124 main_v125 main_v123 main_v126 ((fun x i u => Host.scatterAdd scatter_S50000x16_S1650000x1_S1650000x16_1_0_0_1 x i u) : (⟨S50000x16, .f32⟩ : BufTy).Contents (Elt F) → (⟨S1650000x1, .i32⟩ : BufTy).Contents (Elt F) → (⟨S1650000x16, .f32⟩ : BufTy).Contents (Elt F) → (⟨S50000x16, .f32⟩ : BufTy).Contents (Elt F)),
    unary main_arg14 main_v127 (broadcastInDim S1x16 ![1] bcast_S16_S1x16_1 : (⟨S16, .f32⟩ : BufTy).Contents (Elt F) → (⟨S1x16, .f32⟩ : BufTy).Contents (Elt F)),
    unary main_v127 main_v128 (broadcastInDim S50000x16 ![0, 1] bcast_S1x16_S50000x16_0_1 : (⟨S1x16, .f32⟩ : BufTy).Contents (Elt F) → (⟨S50000x16, .f32⟩ : BufTy).Contents (Elt F)),
    binary main_v126 main_v128 main_v129 (addf : (⟨S50000x16, .f32⟩ : BufTy).Contents (Elt F) → (⟨S50000x16, .f32⟩ : BufTy).Contents (Elt F) → (⟨S50000x16, .f32⟩ : BufTy).Contents (Elt F)),
    nullary main_c_24 (constantI S_ 32 0#32),
    unary main_c_24 main_v130 (broadcastInDim S200000 ![] bcast_S_S200000 : (⟨S_, .i32⟩ : BufTy).Contents (Elt F) → (⟨S200000, .i32⟩ : BufTy).Contents (Elt F)),
    binary main_arg2 main_v130 main_v131 (cmpi .slt : (⟨S200000, .i32⟩ : BufTy).Contents (Elt F) → (⟨S200000, .i32⟩ : BufTy).Contents (Elt F) → (⟨S200000, .i1⟩ : BufTy).Contents (Elt F)),
    nullary main_c_25 (constantI S_ 32 1600000#32),
    unary main_c_25 main_v132 (broadcastInDim S200000 ![] bcast_S_S200000 : (⟨S_, .i32⟩ : BufTy).Contents (Elt F) → (⟨S200000, .i32⟩ : BufTy).Contents (Elt F)),
    binary main_arg2 main_v132 main_v133 (addi : (⟨S200000, .i32⟩ : BufTy).Contents (Elt F) → (⟨S200000, .i32⟩ : BufTy).Contents (Elt F) → (⟨S200000, .i32⟩ : BufTy).Contents (Elt F)),
    ternary main_v131 main_v133 main_arg2 main_v134 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v134 main_v135 (broadcastInDim S200000x1 ![0] bcast_S200000_S200000x1_0 : (⟨S200000, .i32⟩ : BufTy).Contents (Elt F) → (⟨S200000x1, .i32⟩ : BufTy).Contents (Elt F)),
    binary main_arg1 main_v135 main_v136 ((fun x i => Host.gather gather_S2x1600000_S200000x1_S2x200000_0_1_n_n_1_1_21 x i) : (⟨S2x1600000, .i32⟩ : BufTy).Contents (Elt F) → (⟨S200000x1, .i32⟩ : BufTy).Contents (Elt F) → (⟨S2x200000, .i32⟩ : BufTy).Contents (Elt F)),
    unary main_v136 main_v137 ((extractStridedSlice S1x200000 ![0, 0] · slices_S2x200000_S1x200000_0_0) : (⟨S2x200000, .i32⟩ : BufTy).Contents (Elt F) → (⟨S1x200000, .i32⟩ : BufTy).Contents (Elt F)),
    reshape main_v137 main_v138 rfl shapeCasts_S1x200000_S200000,
    nullary main_c_26 (constantI S_ 32 0#32),
    unary main_c_26 main_v139 (broadcastInDim S200000 ![] bcast_S_S200000 : (⟨S_, .i32⟩ : BufTy).Contents (Elt F) → (⟨S200000, .i32⟩ : BufTy).Contents (Elt F)),
    binary main_v138 main_v139 main_v140 (cmpi .slt : (⟨S200000, .i32⟩ : BufTy).Contents (Elt F) → (⟨S200000, .i32⟩ : BufTy).Contents (Elt F) → (⟨S200000, .i1⟩ : BufTy).Contents (Elt F)),
    nullary main_c_27 (constantI S_ 32 50000#32),
    unary main_c_27 main_v141 (broadcastInDim S200000 ![] bcast_S_S200000 : (⟨S_, .i32⟩ : BufTy).Contents (Elt F) → (⟨S200000, .i32⟩ : BufTy).Contents (Elt F)),
    binary main_v138 main_v141 main_v142 (addi : (⟨S200000, .i32⟩ : BufTy).Contents (Elt F) → (⟨S200000, .i32⟩ : BufTy).Contents (Elt F) → (⟨S200000, .i32⟩ : BufTy).Contents (Elt F)),
    ternary main_v140 main_v142 main_v138 main_v143 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v143 main_v144 (broadcastInDim S200000x1 ![0] bcast_S200000_S200000x1_0 : (⟨S200000, .i32⟩ : BufTy).Contents (Elt F) → (⟨S200000x1, .i32⟩ : BufTy).Contents (Elt F)),
    binary main_v129 main_v144 main_v145 ((fun x i => Host.gather gather_S50000x16_S200000x1_S200000x16_1_0_n_n_0_1_116 x i) : (⟨S50000x16, .f32⟩ : BufTy).Contents (Elt F) → (⟨S200000x1, .i32⟩ : BufTy).Contents (Elt F) → (⟨S200000x16, .f32⟩ : BufTy).Contents (Elt F)),
    unary main_v136 main_v146 ((extractStridedSlice S1x200000 ![1, 0] · slices_S2x200000_S1x200000_1_0) : (⟨S2x200000, .i32⟩ : BufTy).Contents (Elt F) → (⟨S1x200000, .i32⟩ : BufTy).Contents (Elt F)),
    reshape main_v146 main_v147 rfl shapeCasts_S1x200000_S200000,
    nullary main_c_28 (constantI S_ 32 0#32),
    unary main_c_28 main_v148 (broadcastInDim S200000 ![] bcast_S_S200000 : (⟨S_, .i32⟩ : BufTy).Contents (Elt F) → (⟨S200000, .i32⟩ : BufTy).Contents (Elt F)) ]

theorem ops_p2_sub : (ops_p2 : List (HloOp τ sig (Elt F))).Forall fun op => op.bufs ⊆ tcRefs τ sig :=
  ⟨binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., reshape_bufs_sub .., nullary_bufs_sub .., unary_bufs_sub ..⟩

theorem ops_p2_fresh : (ops_p2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl⟩

/-- The buffers those operations write, in order. -/
abbrev ops_p2_W : List (Ref sig .tc) :=
  [main_v100, main_c_18, main_v101, main_v102, main_v103, main_v104, main_v105, main_c_19,
   main_v106, main_v107, main_c_20, main_v108, main_v109, main_v110, main_v111, main_v112,
   main_v113, main_c_21, main_v114, main_v115, main_c_22, main_v116, main_v117, main_v118,
   main_v119, main_v120, main_v121, main_v122, main_v123, main_cst_23, main_v124, main_v125,
   main_v126, main_v127, main_v128, main_v129, main_c_24, main_v130, main_v131, main_c_25,
   main_v132, main_v133, main_v134, main_v135, main_v136, main_v137, main_v138, main_c_26,
   main_v139, main_v140, main_c_27, main_v141, main_v142, main_v143, main_v144, main_v145,
   main_v146, main_v147, main_c_28, main_v148]

theorem ops_p2_writes : (ops_p2 : List (HloOp τ sig (Elt F))).Forall fun op =>
    op.writes ⊆ (ops_p2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 4096 in
/-- The window is that straight line: the functions unfolded at their calls and sequencing re-associated, both sides are one
    chain of single operations. -/
theorem main_part2_eq (c : Dev nD) : main_part2 (F := F) c = seq (ops_p2) := by
  simp only [main_part2, ops_p2, List.cons_append, List.nil_append, seq, bind_assoc, pure_bind] <;> rfl

end Cert.ReferenceIdeal.HandRun

end
-- ==== Proof.RefOps3.lean ====
/- The reference's last eighteen statements as single operations: the second end point's gather, the concatenation, and the two-layer perceptron with its ELU. A call's operations stand where the call stood. -/
import proofs.«106491_j82652350644592_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Statements 181 to 198, the last ELU's operations in place of its call. -/
abbrev ops_p3 : List (HloOp τ sig (Elt F)) :=
  [ binary main_v147 main_v148 main_v149 (cmpi .slt : (⟨S200000, .i32⟩ : BufTy).Contents (Elt F) → (⟨S200000, .i32⟩ : BufTy).Contents (Elt F) → (⟨S200000, .i1⟩ : BufTy).Contents (Elt F)),
    nullary main_c_29 (constantI S_ 32 50000#32),
    unary main_c_29 main_v150 (broadcastInDim S200000 ![] bcast_S_S200000 : (⟨S_, .i32⟩ : BufTy).Contents (Elt F) → (⟨S200000, .i32⟩ : BufTy).Contents (Elt F)),
    binary main_v147 main_v150 main_v151 (addi : (⟨S200000, .i32⟩ : BufTy).Contents (Elt F) → (⟨S200000, .i32⟩ : BufTy).Contents (Elt F) → (⟨S200000, .i32⟩ : BufTy).Contents (Elt F)),
    ternary main_v149 main_v151 main_v147 main_v152 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v152 main_v153 (broadcastInDim S200000x1 ![0] bcast_S200000_S200000x1_0 : (⟨S200000, .i32⟩ : BufTy).Contents (Elt F) → (⟨S200000x1, .i32⟩ : BufTy).Contents (Elt F)),
    binary main_v129 main_v153 main_v154 ((fun x i => Host.gather gather_S50000x16_S200000x1_S200000x16_1_0_n_n_0_1_116 x i) : (⟨S50000x16, .f32⟩ : BufTy).Contents (Elt F) → (⟨S200000x1, .i32⟩ : BufTy).Contents (Elt F) → (⟨S200000x16, .f32⟩ : BufTy).Contents (Elt F)),
    binary main_v145 main_v154 main_v155 ((fun a b => concatenate S200000x32 1 [⟨S200000x16, a⟩, ⟨S200000x16, b⟩] concatenates_S200000x16_S200000x16_S200000x32_d1) : (⟨S200000x16, .f32⟩ : BufTy).Contents (Elt F) → (⟨S200000x16, .f32⟩ : BufTy).Contents (Elt F) → (⟨S200000x32, .f32⟩ : BufTy).Contents (Elt F)),
    binary main_v155 main_arg15 main_v156 ((fun l r => Host.dotGeneral dot_S200000x32_S32x16_S200000x16_1_0_0_1_n_n none l r) : (⟨S200000x32, .f32⟩ : BufTy).Contents (Elt F) → (⟨S32x16, .f32⟩ : BufTy).Contents (Elt F) → (⟨S200000x16, .f32⟩ : BufTy).Contents (Elt F)),
    unary main_arg16 main_v157 (broadcastInDim S1x16 ![1] bcast_S16_S1x16_1 : (⟨S16, .f32⟩ : BufTy).Contents (Elt F) → (⟨S1x16, .f32⟩ : BufTy).Contents (Elt F)),
    unary main_v157 main_v158 (broadcastInDim S200000x16 ![0, 1] bcast_S1x16_S200000x16_0_1 : (⟨S1x16, .f32⟩ : BufTy).Contents (Elt F) → (⟨S200000x16, .f32⟩ : BufTy).Contents (Elt F)),
    binary main_v156 main_v158 main_v159 (addf : (⟨S200000x16, .f32⟩ : BufTy).Contents (Elt F) → (⟨S200000x16, .f32⟩ : BufTy).Contents (Elt F) → (⟨S200000x16, .f32⟩ : BufTy).Contents (Elt F)),
    TRef.nullary main_call4.cst (constant S_ .f32 0x00000000#32),
    TRef.unary main_call4.cst main_call4.v0 (broadcastInDim S200000x16 ![] bcast_S_S200000x16),
    TRef.binary (.of main_v159 : TRef sig ⟨S200000x16, .f32⟩) main_call4.v0 main_call4.v1 (cmpf .ogt),
    TRef.nullary main_call4.cst_0 (constant S_ .f32 0x00000000#32),
    TRef.unary main_call4.cst_0 main_call4.v2 (broadcastInDim S200000x16 ![] bcast_S_S200000x16),
    TRef.binary (.of main_v159 : TRef sig ⟨S200000x16, .f32⟩) main_call4.v2 main_call4.v3 (cmpf .ogt),
    TRef.nullary main_call4.cst_1 (constant S_ .f32 0x00000000#32),
    TRef.unary main_call4.cst_1 main_call4.call0.v0 id,
    TRef.unary main_call4.call0.v0 main_call4.call0.v1 (broadcastInDim S200000x16 ![] bcast_S_S200000x16),
    TRef.ternary main_call4.v3 main_call4.call0.v1 (.of main_v159 : TRef sig ⟨S200000x16, .f32⟩) main_call4.call0.v2 select,
    TRef.unary main_call4.call0.v2 main_call4.v5 Host.expm1,
    TRef.nullary main_call4.cst_2 (constant S_ .f32 0x3F800000#32),
    TRef.unary main_call4.cst_2 main_call4.v6 (broadcastInDim S200000x16 ![] bcast_S_S200000x16),
    TRef.binary main_call4.v6 main_call4.v5 main_call4.v7 mulf,
    TRef.ternary main_call4.v1 (.of main_v159 : TRef sig ⟨S200000x16, .f32⟩) main_call4.v7 main_call4.call1.v0 select,
    binary main_v160 main_arg17 main_v161 ((fun l r => Host.dotGeneral dot_S200000x16_S16x2_S200000x2_1_0_0_1_n_n none l r) : (⟨S200000x16, .f32⟩ : BufTy).Contents (Elt F) → (⟨S16x2, .f32⟩ : BufTy).Contents (Elt F) → (⟨S200000x2, .f32⟩ : BufTy).Contents (Elt F)),
    unary main_arg18 main_v162 (broadcastInDim S1x2 ![1] bcast_S2_S1x2_1 : (⟨S2, .f32⟩ : BufTy).Contents (Elt F) → (⟨S1x2, .f32⟩ : BufTy).Contents (Elt F)),
    unary main_v162 main_v163 (broadcastInDim S200000x2 ![0, 1] bcast_S1x2_S200000x2_0_1 : (⟨S1x2, .f32⟩ : BufTy).Contents (Elt F) → (⟨S200000x2, .f32⟩ : BufTy).Contents (Elt F)),
    binary main_v161 main_v163 main_v164 (addf : (⟨S200000x2, .f32⟩ : BufTy).Contents (Elt F) → (⟨S200000x2, .f32⟩ : BufTy).Contents (Elt F) → (⟨S200000x2, .f32⟩ : BufTy).Contents (Elt F)) ]

theorem ops_p3_sub : (ops_p3 : List (HloOp τ sig (Elt F))).Forall fun op => op.bufs ⊆ tcRefs τ sig :=
  ⟨binary_bufs_sub .., nullary_bufs_sub .., unary_bufs_sub .., binary_bufs_sub .., ternary_bufs_sub .., unary_bufs_sub ..,
    binary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., binary_bufs_sub .., unary_bufs_sub .., unary_bufs_sub ..,
    binary_bufs_sub ..⟩

theorem ops_p3_fresh : (ops_p3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl⟩

/-- The buffers those operations write, in order. -/
abbrev ops_p3_W : List (Ref sig .tc) :=
  [main_v149, main_c_29, main_v150, main_v151, main_v152, main_v153, main_v154, main_v155,
   main_v156, main_v157, main_v158, main_v159, main_call4.cst.ref, main_call4.v0.ref, main_call4.v1.ref, main_call4.cst_0.ref,
   main_call4.v2.ref, main_call4.v3.ref, main_call4.cst_1.ref, main_call4.call0.v0.ref, main_call4.call0.v1.ref, main_call4.call0.v2.ref, main_call4.v5.ref, main_call4.cst_2.ref,
   main_call4.v6.ref, main_call4.v7.ref, main_call4.call1.v0.ref, main_v161, main_v162, main_v163, main_v164]

theorem ops_p3_writes : (ops_p3 : List (HloOp τ sig (Elt F))).Forall fun op =>
    op.writes ⊆ (ops_p3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 4096 in
/-- The window is that straight line: the functions unfolded at their calls and sequencing re-associated, both sides are one
    chain of single operations. -/
theorem main_part3_eq (c : Dev nD) : main_part3 (F := F) c = seq (ops_p3) := by
  simp only [main_part3, fn_where_11.body, fn_where_12.body, fn_elu_10.body, ops_p3, List.cons_append, List.nil_append, seq, bind_assoc, pure_bind] <;> rfl

end Cert.ReferenceIdeal.HandRun

end
-- ==== Proof.RefOps.lean ====
/- The reference's operations after the third ELU, as one list: the four windows' lists joined in order. Everything before
   them is `ops_pre`; the whole program is `ops_pre ++ ops_tail`. -/
import proofs.«106491_j82652350644592_2_alg».proof.Proof.RefOps0
import proofs.«106491_j82652350644592_2_alg».proof.Proof.RefOps1
import proofs.«106491_j82652350644592_2_alg».proof.Proof.RefOps2
import proofs.«106491_j82652350644592_2_alg».proof.Proof.RefOps3

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Everything from the product with the 64 × 32 weights to the result: the two graph convolutions (degree normalisation,
    gather, scale, scatter-add, bias, ELU), the gathers at the queried edges' end points, and the two-layer perceptron. -/
abbrev ops_tail : List (HloOp τ sig (Elt F)) := ops_p0b ++ (ops_p1 ++ (ops_p2 ++ ops_p3))

end Cert.ReferenceIdeal.HandRun

end
-- ==== Proof.RefRun.lean ====
/- The reference's run: the program is the straight line `ops_pre ++ ops_tail` of single operations, so every weakly fair
   execution ends with each buffer at the fold of the operations' results over the launch contents; no operation writes an
   argument's buffer, so the arguments end as they started. -/
import proofs.«106491_j82652350644592_2_alg».proof.Proof.RefOps
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main is its four windows in order, each window its list run as a line, and lines run one after the other are their
    concatenation run as one. -/
theorem main_eq (c : Dev nD) : main (F := F) c = seq (ops_pre ++ ops_tail) := by
  rw [show ops_pre (F := F) ++ ops_tail = (ops_pre ++ ops_p0b) ++ (ops_p1 ++ (ops_p2 ++ ops_p3)) from
        (List.append_assoc _ _ _).symm,
    seq_append (ops_pre ++ ops_p0b), seq_append ops_p1, seq_append ops_p2,
    ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- A property of every operation of each of the five lists holds of every operation of the whole line. -/
theorem forall_ops {P : HloOp τ sig (Elt F) → Prop} (h0 : (ops_pre (F := F)).Forall P) (h1 : (ops_p0b (F := F)).Forall P)
    (h2 : (ops_p1 (F := F)).Forall P) (h3 : (ops_p2 (F := F)).Forall P) (h4 : (ops_p3 (F := F)).Forall P) :
    ∀ op ∈ (ops_pre ++ ops_tail : List (HloOp τ sig (Elt F))), P op := by
  intro op h
  simp only [ops_tail, List.mem_append] at h
  rcases h with h | h | h | h | h
  exacts [List.forall_iff_forall_mem.mp h0 op h, List.forall_iff_forall_mem.mp h1 op h, List.forall_iff_forall_mem.mp h2 op h,
    List.forall_iff_forall_mem.mp h3 op h, List.forall_iff_forall_mem.mp h4 op h]

theorem ops_sub : (ops_pre ++ ops_tail : List (HloOp τ sig (Elt F))).Forall fun op => op.bufs ⊆ tcRefs τ sig :=
  List.forall_iff_forall_mem.mpr (forall_ops ops_pre_sub ops_p0b_sub ops_p1_sub ops_p2_sub ops_p3_sub)

theorem ops_fresh : ∀ op ∈ (ops_pre ++ ops_tail : List (HloOp τ sig (Elt F))), op.fresh = ∅ :=
  forall_ops ops_pre_fresh ops_p0b_fresh ops_p1_fresh ops_p2_fresh ops_p3_fresh

/-- A buffer none of the five lists writes holds after the whole line what it held before it. -/
theorem after_keep (V : Valuation τ sig (Elt F)) (r : Ref sig .tc)
    (h : r ∉ ops_pre_W ++ (ops_p0b_W ++ (ops_p1_W ++ (ops_p2_W ++ ops_p3_W)))) :
    after (ops_pre ++ ops_tail) V (Proc.devRef .tc r) = V (Proc.devRef .tc r) := by
  simp only [List.mem_append, not_or] at h
  obtain ⟨h0, h1, h2, h3, h4⟩ := h
  simp only [ops_tail, after_append]
  rw [after_of_writes_sub ops_p3 _ ops_p3_writes h4, after_of_writes_sub ops_p2 _ ops_p2_writes h3,
    after_of_writes_sub ops_p1 _ ops_p1_writes h2, after_of_writes_sub ops_p0b _ ops_p0b_writes h1,
    after_of_writes_sub ops_pre _ ops_pre_writes h0]

/-- On every device, for any float values, from any memory with zero counters: every weakly fair execution of @main
    terminates, the result buffer at the fold of the operations over the launch contents and the nineteen arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v164)
        = after (ops_pre ++ ops_tail) (fun b => m (c, b)) (Proc.devRef .tc main_v164)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨h c main_v164,
      (h c main_arg0).trans (after_keep _ main_arg0 (by decide)),
      (h c main_arg1).trans (after_keep _ main_arg1 (by decide)),
      (h c main_arg2).trans (after_keep _ main_arg2 (by decide)),
      (h c main_arg3).trans (after_keep _ main_arg3 (by decide)),
      (h c main_arg4).trans (after_keep _ main_arg4 (by decide)),
      (h c main_arg5).trans (after_keep _ main_arg5 (by decide)),
      (h c main_arg6).trans (after_keep _ main_arg6 (by decide)),
      (h c main_arg7).trans (after_keep _ main_arg7 (by decide)),
      (h c main_arg8).trans (after_keep _ main_arg8 (by decide)),
      (h c main_arg9).trans (after_keep _ main_arg9 (by decide)),
      (h c main_arg10).trans (after_keep _ main_arg10 (by decide)),
      (h c main_arg11).trans (after_keep _ main_arg11 (by decide)),
      (h c main_arg12).trans (after_keep _ main_arg12 (by decide)),
      (h c main_arg13).trans (after_keep _ main_arg13 (by decide)),
      (h c main_arg14).trans (after_keep _ main_arg14 (by decide)),
      (h c main_arg15).trans (after_keep _ main_arg15 (by decide)),
      (h c main_arg16).trans (after_keep _ main_arg16 (by decide)),
      (h c main_arg17).trans (after_keep _ main_arg17 (by decide)),
      (h c main_arg18).trans (after_keep _ main_arg18 (by decide))⟩)
    (run_seq scopedRefs_eq scopedSems_eq defs main (fun _ => ops_pre ++ ops_tail) main_eq (fun _ => ops_sub) m ρ
      (fun _ => ops_fresh))

end Cert.ReferenceIdeal.HandRun

end
-- ==== Proof.RefFrame.lean ====
/- The reference's frame: its run with the result's value dropped — every weakly fair execution terminates, nothing
   faults, and the nineteen argument arrays end unchanged. The run never opens the precondition. -/
import proofs.«106491_j82652350644592_2_alg».proof.Defs
import proofs.«106491_j82652350644592_2_alg».proof.Proof.Gen.Pre_finite_inputs
import proofs.«106491_j82652350644592_2_alg».proof.Proof.RefRun

noncomputable section

namespace Cert.ReferenceIdeal.HandRun

open Idealize.ShloMosaic Idealize.ShloMosaic.TcCoe Idealize.SL.Sem

theorem frame_ri : Cert.frame_ReferenceIdeal := fun m ρ _ =>
  (θ_run Cert.ReferenceIdeal.defs _ _).mono (fun _ h c => (h c).2) (run (F := Ideal) m ρ)

end Cert.ReferenceIdeal.HandRun

end
-- ==== Proof.KIBodyValue.lean ====
import proofs.«106491_j82652350644592_2_alg».proof.Proof.KIBody
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## The output block as a function of the input blocks

The body's loop writes, at trip `k`, one `200 × 64` slab at rows `200 k … 200 k + 199` of the output block: the
three-layer network applied to the normalised, pooled rows `200 k … 200 k + 199` of the input block. So entry
`(200 k + r, q)` of the output block is entry `(r, q)` of that slab. -/

/-- Rows `200 k … 200 k + 199` of the input block. -/
def slab0 (x0 : Vec F S1000x2048 .f32) (k : Fin k0_t1_loop.trips) : Vec F S200x2048 .f32 :=
  View.ld x0 (Rect.unit (s := S1000x2048) (k0_off1 k) S200x2048.size (k0_off1_inb k))

/-- What trip `k` stores: the network applied to slab `k` of the input block. -/
def slabOut (x0 : Vec F S1000x2048 .f32) (x1 x2 : Vec F S1x1024 .f32) (x3 : Vec F S1024x512 .bf16) (x4 : Vec F S1x512 .f32) (x5 : Vec F S512x128 .bf16) (x6 : Vec F S1x128 .f32) (x7 : Vec F S128x64 .bf16) (x8 : Vec F S1x64 .f32) (k : Fin k0_t1_loop.trips) : FVec F S200x64 .f32 :=
  k0_pay1 (k0_pay2 (slab0 x0 k) x1 x2 x3 x4) (k0_pay3 (F := F)) x5 x6 x7 x8

theorem hz : (![0, 0] : Fin 2 → ℕ) = fun _ => 0 := funext fun a => by fin_cases a <;> rfl

set_option maxHeartbeats 400000 in
/-- One trip's pieces, on whole memrefs holding `x0 … x8`: the one slab, at row offset `200 k`. -/
theorem tripL_eq (𝒱 : Variants) (c : Dev nD) (bd : Option 𝒱.V) (i : grid0.Coords) (arg1 : Memref sig .tc .vmem S1000x2048 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1x512 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S128x64 .bf16) (harg8 : arg8.IsWhole) (arg9 : Memref sig .tc .vmem S1x64 .f32) (harg9 : arg9.IsWhole) (arg10 : Memref sig .tc .vmem S1000x64 .f32) (harg10 : arg10.IsWhole)
    (x0 : Vec F S1000x2048 .f32) (x1 x2 : Vec F S1x1024 .f32) (x3 : Vec F S1024x512 .bf16) (x4 : Vec F S1x512 .f32) (x5 : Vec F S512x128 .bf16) (x6 : Vec F S1x128 .f32) (x7 : Vec F S128x64 .bf16) (x8 : Vec F S1x64 .f32) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 (harg1.unread x0) (harg2.unread x1) (harg3.unread x2) (harg4.unread x3) (harg5.unread x4) (harg6.unread x5) (harg7.unread x6) (harg8.unread x7) (harg9.unread x8) k
      = [⟨Rect.unit (s := S1000x64) (k0_off2 k) S200x64.size (k0_off2_inb k), slabOut x0 x1 x2 x3 x4 x5 x6 x7 x8 k⟩] := by
  unfold tripL_k0_t1 trip_k0_t1
  dsimp only
  sl_unfold_run_names
  simp only [View.readAt_eq_ld, Memref.IsWhole.read_unread, View.ld_unit_zero (S := S1x1024) hz, View.ld_unit_zero (S := S1024x512) hz, View.ld_unit_zero (S := S1x512) hz, View.ld_unit_zero (S := S512x128) hz, View.ld_unit_zero (S := S1x128) hz, View.ld_unit_zero (S := S128x64) hz, View.ld_unit_zero (S := S1x64) hz]
  rfl

/-- The loop makes five trips. -/
theorem trips_eq : k0_t1_loop.trips = 5 := by decide

theorem slabIx_lt (y : S1000x64.Idx) : (y 0).val / 200 < k0_t1_loop.trips := by
  have h := idx2_lt0 (n0 := 1000) (n1 := 64) y
  rw [trips_eq]; omega

/-- The whole output block: entry `(a, q)` is entry `(a % 200, q)` of slab `a / 200`. -/
def blockOut (x0 : Vec F S1000x2048 .f32) (x1 x2 : Vec F S1x1024 .f32) (x3 : Vec F S1024x512 .bf16) (x4 : Vec F S1x512 .f32) (x5 : Vec F S512x128 .bf16) (x6 : Vec F S1x128 .f32) (x7 : Vec F S128x64 .bf16) (x8 : Vec F S1x64 .f32) : Vec F S1000x64 .f32 := fun y =>
  slabOut x0 x1 x2 x3 x4 x5 x6 x7 x8 ⟨(y 0).val / 200, slabIx_lt y⟩
    (ix2 (n0 := 200) (n1 := 64) ⟨(y 0).val % 200, Nat.mod_lt _ (by decide)⟩ ⟨(y 1).val, idx2_lt1 (n0 := 1000) (n1 := 64) y⟩)

/-- `blockOut` at an index whose row is `200 k + r`. -/
theorem blockOut_at (x0 : Vec F S1000x2048 .f32) (x1 x2 : Vec F S1x1024 .f32) (x3 : Vec F S1024x512 .bf16) (x4 : Vec F S1x512 .f32) (x5 : Vec F S512x128 .bf16) (x6 : Vec F S1x128 .f32) (x7 : Vec F S128x64 .bf16) (x8 : Vec F S1x64 .f32) (y : S1000x64.Idx) (k : Fin k0_t1_loop.trips) (x : S200x64.Idx)
    (h0 : (y 0).val = 200 * k.val + (x 0).val) (h1 : (y 1).val = (x 1).val) :
    blockOut x0 x1 x2 x3 x4 x5 x6 x7 x8 y = slabOut x0 x1 x2 x3 x4 x5 x6 x7 x8 k x := by
  have hx0 : (x 0).val < 200 := idx2_lt0 (n0 := 200) (n1 := 64) x
  have e1 : (⟨(y 0).val / 200, slabIx_lt y⟩ : Fin k0_t1_loop.trips) = k := Fin.ext (by show (y 0).val / 200 = k.val; omega)
  have e2 : ix2 (n0 := 200) (n1 := 64) ⟨(y 0).val % 200, Nat.mod_lt _ (by decide)⟩ ⟨(y 1).val, idx2_lt1 (n0 := 1000) (n1 := 64) y⟩ = x := by
    funext a
    match a with
    | ⟨0, _⟩ => exact Fin.ext (by show (y 0).val % 200 = (x 0).val; omega)
    | ⟨1, _⟩ => exact Fin.ext h1
  unfold blockOut
  rw [e1, e2]

/-- Every piece of the trips before `n` is a block of `blockOut`. -/
theorem pieces_pb (𝒱 : Variants) (c : Dev nD) (bd : Option 𝒱.V) (i : grid0.Coords) (arg1 : Memref sig .tc .vmem S1000x2048 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1x512 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S128x64 .bf16) (harg8 : arg8.IsWhole) (arg9 : Memref sig .tc .vmem S1x64 .f32) (harg9 : arg9.IsWhole) (arg10 : Memref sig .tc .vmem S1000x64 .f32) (harg10 : arg10.IsWhole)
    (x0 : Vec F S1000x2048 .f32) (x1 x2 : Vec F S1x1024 .f32) (x3 : Vec F S1024x512 .bf16) (x4 : Vec F S1x512 .f32) (x5 : Vec F S512x128 .bf16) (x6 : Vec F S1x128 .f32) (x7 : Vec F S128x64 .bf16) (x8 : Vec F S1x64 .f32) : ∀ n, n ≤ k0_t1_loop.trips →
    ∀ p ∈ pb_k0_t1 (F := F) 𝒱 c bd i arg1 harg1 arg2 harg2 arg3 harg3 arg4 harg4 arg5 harg5 arg6 harg6 arg7 harg7 arg8 harg8 arg9 harg9 arg10 harg10 (harg1.unread x0) (harg2.unread x1) (harg3.unread x2) (harg4.unread x3) (harg5.unread x4) (harg6.unread x5) (harg7.unread x6) (harg8.unread x7) (harg9.unread x8) n,
      ∀ x : p.1.shape.Idx, p.2 x = blockOut x0 x1 x2 x3 x4 x5 x6 x7 x8 (p.1.emb x)
  | 0, _ => by
    intro p hp
    rw [pb_k0_t1.eq_1] at hp
    exact absurd hp (List.not_mem_nil)
  | n + 1, hn => by
    intro p hp x
    have hs := pb_k0_t1_succ (F := F) 𝒱 c bd i arg1 harg1 arg2 harg2 arg3 harg3 arg4 harg4 arg5 harg5 arg6 harg6 arg7 harg7 arg8 harg8 arg9 harg9 arg10 harg10 (harg1.unread x0) (harg2.unread x1) (harg3.unread x2) (harg4.unread x3) (harg5.unread x4) (harg6.unread x5) (harg7.unread x6) (harg8.unread x7) (harg9.unread x8) ⟨n, hn⟩
    rw [show (⟨n, hn⟩ : Fin k0_t1_loop.trips).val = n from rfl] at hs
    rw [hs, tripL_eq] at hp
    have e0 : (k0_off2 ⟨n, hn⟩) 0 = 200 * n := by rw [k0_off2_eq]; rfl
    have e1 : (k0_off2 ⟨n, hn⟩) 1 = 0 := by rw [k0_off2_eq]; rfl
    rcases List.mem_append.mp hp with h | h
    · rw [List.mem_singleton] at h
      subst h
      refine (blockOut_at x0 x1 x2 x3 x4 x5 x6 x7 x8 _ ⟨n, hn⟩ x ?_ ?_).symm
      · show (k0_off2 ⟨n, hn⟩) 0 + 1 * (x 0).val = 200 * n + (x 0).val
        omega
      · show (k0_off2 ⟨n, hn⟩) 1 + 1 * (x 1).val = (x 1).val
        omega
    · exact pieces_pb 𝒱 c bd i arg1 harg1 arg2 harg2 arg3 harg3 arg4 harg4 arg5 harg5 arg6 harg6 arg7 harg7 arg8 harg8 arg9 harg9 arg10 harg10 x0 x1 x2 x3 x4 x5 x6 x7 x8 n (Nat.le_of_succ_le hn) p h x

/-- THE BODY'S VALUE: what the run leaves in the output's buffer is `blockOut` of the input contents. -/
theorem out0_9_eq (c : Dev nD) (i : grid0.Coords) (arg1 : Memref sig .tc .vmem S1000x2048 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1x512 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S128x64 .bf16) (harg8 : arg8.IsWhole) (arg9 : Memref sig .tc .vmem S1x64 .f32) (harg9 : arg9.IsWhole) (arg10 : Memref sig .tc .vmem S1000x64 .f32) (harg10 : arg10.IsWhole)
    (x0 : Vec F S1000x2048 .f32) (x1 x2 : Vec F S1x1024 .f32) (x3 : Vec F S1024x512 .bf16) (x4 : Vec F S1x512 .f32) (x5 : Vec F S512x128 .bf16) (x6 : Vec F S1x128 .f32) (x7 : Vec F S128x64 .bf16) (x8 : Vec F S1x64 .f32) :
    out0_9 c i arg1 harg1 arg2 harg2 arg3 harg3 arg4 harg4 arg5 harg5 arg6 harg6 arg7 harg7 arg8 harg8 arg9 harg9 arg10 harg10 x0 x1 x2 x3 x4 x5 x6 x7 x8 = blockOut x0 x1 x2 x3 x4 x5 x6 x7 x8 := by
  unfold out0_9
  rw [View.read_writes_junk_eq_canon]
  funext y
  refine View.canon_apply_of_pieces (blockOut x0 x1 x2 x3 x4 x5 x6 x7 x8) _ ?_ y (cover0_9 c i arg1 harg1 arg2 harg2 arg3 harg3 arg4 harg4 arg5 harg5 arg6 harg6 arg7 harg7 arg8 harg8 arg9 harg9 arg10 harg10 x0 x1 x2 x3 x4 x5 x6 x7 x8 y)
  have hL : (kernelRun0 c i arg1 harg1 arg2 harg2 arg3 harg3 arg4 harg4 arg5 harg5 arg6 harg6 arg7 harg7 arg8 harg8 arg9 harg9 arg10 harg10 x0 x1 x2 x3 x4 x5 x6 x7 x8).1
      = pb_k0_t1 (F := F) Variants.none c none i arg1 harg1 arg2 harg2 arg3 harg3 arg4 harg4 arg5 harg5 arg6 harg6 arg7 harg7 arg8 harg8 arg9 harg9 arg10 harg10 (harg1.unread x0) (harg2.unread x1) (harg3.unread x2) (harg4.unread x3) (harg5.unread x4) (harg6.unread x5) (harg7.unread x6) (harg8.unread x7) (harg9.unread x8) k0_t1_loop.trips := by
    unfold kernelRun0; rfl
  rw [hL]
  exact pieces_pb Variants.none c none i arg1 harg1 arg2 harg2 arg3 harg3 arg4 harg4 arg5 harg5 arg6 harg6 arg7 harg7 arg8 harg8 arg9 harg9 arg10 harg10 x0 x1 x2 x3 x4 x5 x6 x7 x8 _ (Nat.le_refl _)

/-- The same at an index: entry `(200 k + r, q)` of the output block is entry `(r, q)` of the network applied to
    rows `200 k … 200 k + 199` of the input block. -/
theorem out0_9_apply (c : Dev nD) (i : grid0.Coords) (arg1 : Memref sig .tc .vmem S1000x2048 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1x512 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S128x64 .bf16) (harg8 : arg8.IsWhole) (arg9 : Memref sig .tc .vmem S1x64 .f32) (harg9 : arg9.IsWhole) (arg10 : Memref sig .tc .vmem S1000x64 .f32) (harg10 : arg10.IsWhole)
    (x0 : Vec F S1000x2048 .f32) (x1 x2 : Vec F S1x1024 .f32) (x3 : Vec F S1024x512 .bf16) (x4 : Vec F S1x512 .f32) (x5 : Vec F S512x128 .bf16) (x6 : Vec F S1x128 .f32) (x7 : Vec F S128x64 .bf16) (x8 : Vec F S1x64 .f32) (k : Fin k0_t1_loop.trips) (r : Fin 200) (q : Fin 64) (hr : 200 * k.val + r.val < 1000) :
    out0_9 c i arg1 harg1 arg2 harg2 arg3 harg3 arg4 harg4 arg5 harg5 arg6 harg6 arg7 harg7 arg8 harg8 arg9 harg9 arg10 harg10 x0 x1 x2 x3 x4 x5 x6 x7 x8 (ix2 (n0 := 1000) (n1 := 64) ⟨200 * k.val + r.val, hr⟩ q)
      = k0_pay1 (k0_pay2 (slab0 x0 k) x1 x2 x3 x4) (k0_pay3 (F := F)) x5 x6 x7 x8 (ix2 (n0 := 200) (n1 := 64) r q) := by
  rw [out0_9_eq]
  exact blockOut_at x0 x1 x2 x3 x4 x5 x6 x7 x8 _ k (ix2 (n0 := 200) (n1 := 64) r q) rfl rfl

/-- Slab `k` of the input block at an index: row `200 k + r` of the block. -/
theorem slab0_apply (x0 : Vec F S1000x2048 .f32) (k : Fin k0_t1_loop.trips) (r : Fin 200) (q : Fin 2048) (hr : 200 * k.val + r.val < 1000) :
    slab0 x0 k (ix2 (n0 := 200) (n1 := 2048) r q) = x0 (ix2 (n0 := 1000) (n1 := 2048) ⟨200 * k.val + r.val, hr⟩ q) := by
  unfold slab0
  show x0 ((Rect.unit (s := S1000x2048) (k0_off1 k) S200x2048.size (k0_off1_inb k)).emb (ix2 (n0 := 200) (n1 := 2048) r q)) = _
  congr 1
  funext a
  match a with
  | ⟨0, _⟩ => exact Fin.ext (by show (k0_off1 k) 0 + 1 * r.val = 200 * k.val + r.val; rw [k0_off1_eq]; show 200 * k.val + 1 * r.val = _; omega)
  | ⟨1, _⟩ => exact Fin.ext (by show (k0_off1 k) 1 + 1 * q.val = q.val; rw [k0_off1_eq]; show 0 + 1 * q.val = _; omega)

end Cert.KernelIdeal.Hand

end
-- ==== Proof.ValCover.lean ====
/-
  Where the output's blocks sit in the [50000, 64] array of pooled, normalised and projected rows: grid point `t`
  writes back the 1000 rows `1000·t … 1000·t + 999`, all 64 columns, and the fifty points between them reach
  every row: row `n` belongs to point `n / 1000`. The input `x` moves with it (block row `t` of [50000, 2048]);
  the LayerNorm parameters, the three weight matrices and the three biases are staged whole at every point.
-/
import proofs.«106491_j82652350644592_2_alg».proof.Proof.Gen.KernelIdeal.Points
import proofs.«106491_j82652350644592_2_alg».proof.Proof.Gen.KernelIdeal.Launch
import Idealize.ShloMosaic.Lib.Pipeline.Value

noncomputable section

namespace Cert.KernelIdeal.Blocks

open Idealize.ShloMosaic Idealize.ShloMosaic.TcCoe Idealize.SL.Sem Cert.KernelIdeal Cert.KernelIdeal.Gen

/-- The printed index maps over the grid: the output block and the block of `x` are block row `t`, column block 0;
    every other window is its whole array. -/
theorem index_facts : ∀ t : Fin cfg0.N,
    win0_9.index t (0 : Fin 2) = t.val ∧ win0_9.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- An index of the output array is in point `t`'s block iff each coordinate is in the block's range on its axis. -/
theorem mem_out_block (t : Fin cfg0.N) (i : S50000x64.Idx) :
    i ∈ ((cfg0.win 9).blk t).view.set ↔ ∀ a : Fin 2, win0_9.index t a * S1000x64.size a ≤ (i a).val ∧ (i a).val < win0_9.index t a * S1000x64.size a + S1000x64.size a := by
  show i ∈ ((View.whole main_v12).slice (win0_9.rect t)).set ↔ _
  rw [View.set_slice_whole, Rect.mem_set_unit]
  exact Iff.rfl

/-- Every row of the output array is written back by some point: row `n` by point `n / 1000`. -/
theorem out_covered (i : S50000x64.Idx) :
    ∃ t : Fin cfg0.N, (cfg0.win 9).flush t = true ∧ i ∈ ((cfg0.win 9).blk t).view.set := by
  have hi0 : (i 0).val < 50000 := (i 0).isLt
  have hi1 : (i 1).val < 64 := (i 1).isLt
  have hN : cfg0.N = 50 := N_0
  refine ⟨⟨(i 0).val / 1000, by rw [hN]; omega⟩, flush0_9 _, ?_⟩
  rw [mem_out_block]
  obtain ⟨e0, e1, -⟩ := index_facts ⟨(i 0).val / 1000, by rw [hN]; omega⟩
  intro a
  match a with
  | ⟨0, _⟩ =>
    show win0_9.index _ (0 : Fin 2) * 1000 ≤ (i 0).val ∧ (i 0).val < win0_9.index _ (0 : Fin 2) * 1000 + 1000
    rw [e0]; dsimp only; omega
  | ⟨1, _⟩ =>
    show win0_9.index _ (1 : Fin 2) * 64 ≤ (i 1).val ∧ (i 1).val < win0_9.index _ (1 : Fin 2) * 64 + 64
    rw [e1]; omega

end Cert.KernelIdeal.Blocks

end
-- ==== Proof.ValBlocks.lean ====
/-
  What the region finds in the arrays it stages, and each window's block as entries of its array. The host lines
  before the region only re-lay the arguments: the three weight matrices change format (the identity on the
  extended reals), the LayerNorm scale and shift and the three biases gain a leading unit axis, `x` is staged as
  it is. The block of `x` at grid point `t` is rows `1000·t … 1000·t + 999`; every other window is its whole array.
-/
import proofs.«106491_j82652350644592_2_alg».proof.Proof.KIHostDefs
import proofs.«106491_j82652350644592_2_alg».proof.Proof.ValCover
import Idealize.ShloMosaic.Lib.Pipeline.Value
import Idealize.ShloMosaic.Lib.StableHlo.Run

noncomputable section

namespace Cert.KernelIdeal.Blocks

open Idealize.ShloMosaic Idealize.ShloMosaic.TcCoe Idealize.SL.Sem
open Cert.KernelIdeal Cert.KernelIdeal.Gen Cert.KernelIdeal.Hand
open Idealize.ShloMosaic.StableHlo

variable {F : FTy → Type} [FloatOps F]
variable (m : (ℓ : Loc nD τ sig) → Buf (Elt F) ℓ)

/-! ## The staged arrays as the region finds them -/

theorem V_arg0 (c : Dev nD) : V m c main_arg0 = m ((c : Thread nD τ).loc main_arg0) := by
  show StableHlo.after hostOps0 (fun b => m (c, b)) (Proc.devRef .tc main_arg0) = _
  after_results
  try rfl

theorem V_scale (c : Dev nD) : (V m c main_v7 : S1x1024.Idx → Elt F .f32)
    = shapeCast S1x1024 (m ((c : Thread nD τ).loc main_arg3) : S1024.Idx → Elt F .f32) shapeCasts_S1024_S1x1024 := by
  show StableHlo.after hostOps0 (fun b => m (c, b)) (Proc.devRef .tc main_v7) = _
  after_results
  try rfl

theorem V_shift (c : Dev nD) : (V m c main_v8 : S1x1024.Idx → Elt F .f32)
    = shapeCast S1x1024 (m ((c : Thread nD τ).loc main_arg4) : S1024.Idx → Elt F .f32) shapeCasts_S1024_S1x1024 := by
  show StableHlo.after hostOps0 (fun b => m (c, b)) (Proc.devRef .tc main_v8) = _
  after_results
  try rfl

theorem V_w0 (c : Dev nD) : (V m c main_v4 : S1024x512.Idx → Elt F .bf16)
    = truncf .bf16 (m ((c : Thread nD τ).loc main_arg5) : S1024x512.Idx → Elt F .f32) bitsLt_bf16_f32 := by
  show StableHlo.after hostOps0 (fun b => m (c, b)) (Proc.devRef .tc main_v4) = _
  after_results
  try rfl

theorem V_b0 (c : Dev nD) : (V m c main_v9 : S1x512.Idx → Elt F .f32)
    = shapeCast S1x512 (m ((c : Thread nD τ).loc main_arg6) : S512.Idx → Elt F .f32) shapeCasts_S512_S1x512 := by
  show StableHlo.after hostOps0 (fun b => m (c, b)) (Proc.devRef .tc main_v9) = _
  after_results
  try rfl

theorem V_w1 (c : Dev nD) : (V m c main_v5 : S512x128.Idx → Elt F .bf16)
    = truncf .bf16 (m ((c : Thread nD τ).loc main_arg7) : S512x128.Idx → Elt F .f32) bitsLt_bf16_f32 := by
  show StableHlo.after hostOps0 (fun b => m (c, b)) (Proc.devRef .tc main_v5) = _
  after_results
  try rfl

theorem V_b1 (c : Dev nD) : (V m c main_v10 : S1x128.Idx → Elt F .f32)
    = shapeCast S1x128 (m ((c : Thread nD τ).loc main_arg8) : S128.Idx → Elt F .f32) shapeCasts_S128_S1x128 := by
  show StableHlo.after hostOps0 (fun b => m (c, b)) (Proc.devRef .tc main_v10) = _
  after_results
  try rfl

theorem V_w2 (c : Dev nD) : (V m c main_v6 : S128x64.Idx → Elt F .bf16)
    = truncf .bf16 (m ((c : Thread nD τ).loc main_arg9) : S128x64.Idx → Elt F .f32) bitsLt_bf16_f32 := by
  show StableHlo.after hostOps0 (fun b => m (c, b)) (Proc.devRef .tc main_v6) = _
  after_results
  try rfl

theorem V_b2 (c : Dev nD) : (V m c main_v11 : S1x64.Idx → Elt F .f32)
    = shapeCast S1x64 (m ((c : Thread nD τ).loc main_arg10) : S64.Idx → Elt F .f32) shapeCasts_S64_S1x64 := by
  show StableHlo.after hostOps0 (fun b => m (c, b)) (Proc.devRef .tc main_v11) = _
  after_results
  try rfl

/-! ## The windows' blocks -/

/-- The block of `x` at point `t` is rows `1000·t … 1000·t + 999` of the array. -/
theorem iblk0_apply (c : Dev nD) (t : Fin cfg0.N) (y : S1000x2048.Idx) (k : S50000x2048.Idx)
    (hk0 : (k 0).val = 1000 * t.val + (y 0).val) (hk1 : (k 1).val = (y 1).val) :
    (iblk m c 0 t : Vec F S1000x2048 .f32) y = (V m c main_arg0 : S50000x2048.Idx → Elt F .f32) k := by
  obtain ⟨-, -, e0, e1, -⟩ := index_facts t
  unfold iblk
  rw [View.read_apply]
  show V m c main_arg0 _ = V m c main_arg0 _
  congr 1
  funext a
  apply Fin.ext
  match a with
  | ⟨0, _⟩ => show win0_0.index t 0 * 1000 + 1 * (y 0).val = (k 0).val; rw [e0, hk0]; omega
  | ⟨1, _⟩ => show win0_0.index t 1 * 2048 + 1 * (y 1).val = (k 1).val; rw [e1, hk1]; omega

/-- Window 1 is staged whole at every point: its block is the array. -/
theorem iblk1_apply (c : Dev nD) (t : Fin cfg0.N) (y : S1x1024.Idx) (k : S1x1024.Idx)
    (hk0 : (k 0).val = (y 0).val) (hk1 : (k 1).val = (y 1).val) :
    (iblk m c 1 t : Vec F S1x1024 .f32) y = (V m c main_v7 : S1x1024.Idx → Elt F .f32) k := by
  obtain ⟨-, -, -, -, e0, e1, -, -, -, -, -, -, -, -, -, -, -, -, -, -⟩ := index_facts t
  unfold iblk
  rw [View.read_apply]
  show V m c main_v7 _ = V m c main_v7 _
  congr 1
  funext a
  apply Fin.ext
  match a with
  | ⟨0, _⟩ => show win0_1.index t 0 * 1 + 1 * (y 0).val = (k 0).val; rw [e0, hk0]; omega
  | ⟨1, _⟩ => show win0_1.index t 1 * 1024 + 1 * (y 1).val = (k 1).val; rw [e1, hk1]; omega

/-- Window 2 is staged whole at every point: its block is the array. -/
theorem iblk2_apply (c : Dev nD) (t : Fin cfg0.N) (y : S1x1024.Idx) (k : S1x1024.Idx)
    (hk0 : (k 0).val = (y 0).val) (hk1 : (k 1).val = (y 1).val) :
    (iblk m c 2 t : Vec F S1x1024 .f32) y = (V m c main_v8 : S1x1024.Idx → Elt F .f32) k := by
  obtain ⟨-, -, -, -, -, -, e0, e1, -, -, -, -, -, -, -, -, -, -, -, -⟩ := index_facts t
  unfold iblk
  rw [View.read_apply]
  show V m c main_v8 _ = V m c main_v8 _
  congr 1
  funext a
  apply Fin.ext
  match a with
  | ⟨0, _⟩ => show win0_2.index t 0 * 1 + 1 * (y 0).val = (k 0).val; rw [e0, hk0]; omega
  | ⟨1, _⟩ => show win0_2.index t 1 * 1024 + 1 * (y 1).val = (k 1).val; rw [e1, hk1]; omega

/-- Window 3 is staged whole at every point: its block is the array. -/
theorem iblk3_apply (c : Dev nD) (t : Fin cfg0.N) (y : S1024x512.Idx) (k : S1024x512.Idx)
    (hk0 : (k 0).val = (y 0).val) (hk1 : (k 1).val = (y 1).val) :
    (iblk m c 3 t : Vec F S1024x512 .bf16) y = (V m c main_v4 : S1024x512.Idx → Elt F .bf16) k := by
  obtain ⟨-, -, -, -, -, -, -, -, e0, e1, -, -, -, -, -, -, -, -, -, -⟩ := index_facts t
  unfold iblk
  rw [View.read_apply]
  show V m c main_v4 _ = V m c main_v4 _
  congr 1
  funext a
  apply Fin.ext
  match a with
  | ⟨0, _⟩ => show win0_3.index t 0 * 1024 + 1 * (y 0).val = (k 0).val; rw [e0, hk0]; omega
  | ⟨1, _⟩ => show win0_3.index t 1 * 512 + 1 * (y 1).val = (k 1).val; rw [e1, hk1]; omega

/-- Window 4 is staged whole at every point: its block is the array. -/
theorem iblk4_apply (c : Dev nD) (t : Fin cfg0.N) (y : S1x512.Idx) (k : S1x512.Idx)
    (hk0 : (k 0).val = (y 0).val) (hk1 : (k 1).val = (y 1).val) :
    (iblk m c 4 t : Vec F S1x512 .f32) y = (V m c main_v9 : S1x512.Idx → Elt F .f32) k := by
  obtain ⟨-, -, -, -, -, -, -, -, -, -, e0, e1, -, -, -, -, -, -, -, -⟩ := index_facts t
  unfold iblk
  rw [View.read_apply]
  show V m c main_v9 _ = V m c main_v9 _
  congr 1
  funext a
  apply Fin.ext
  match a with
  | ⟨0, _⟩ => show win0_4.index t 0 * 1 + 1 * (y 0).val = (k 0).val; rw [e0, hk0]; omega
  | ⟨1, _⟩ => show win0_4.index t 1 * 512 + 1 * (y 1).val = (k 1).val; rw [e1, hk1]; omega

/-- Window 5 is staged whole at every point: its block is the array. -/
theorem iblk5_apply (c : Dev nD) (t : Fin cfg0.N) (y : S512x128.Idx) (k : S512x128.Idx)
    (hk0 : (k 0).val = (y 0).val) (hk1 : (k 1).val = (y 1).val) :
    (iblk m c 5 t : Vec F S512x128 .bf16) y = (V m c main_v5 : S512x128.Idx → Elt F .bf16) k := by
  obtain ⟨-, -, -, -, -, -, -, -, -, -, -, -, e0, e1, -, -, -, -, -, -⟩ := index_facts t
  unfold iblk
  rw [View.read_apply]
  show V m c main_v5 _ = V m c main_v5 _
  congr 1
  funext a
  apply Fin.ext
  match a with
  | ⟨0, _⟩ => show win0_5.index t 0 * 512 + 1 * (y 0).val = (k 0).val; rw [e0, hk0]; omega
  | ⟨1, _⟩ => show win0_5.index t 1 * 128 + 1 * (y 1).val = (k 1).val; rw [e1, hk1]; omega

/-- Window 6 is staged whole at every point: its block is the array. -/
theorem iblk6_apply (c : Dev nD) (t : Fin cfg0.N) (y : S1x128.Idx) (k : S1x128.Idx)
    (hk0 : (k 0).val = (y 0).val) (hk1 : (k 1).val = (y 1).val) :
    (iblk m c 6 t : Vec F S1x128 .f32) y = (V m c main_v10 : S1x128.Idx → Elt F .f32) k := by
  obtain ⟨-, -, -, -, -, -, -, -, -, -, -, -, -, -, e0, e1, -, -, -, -⟩ := index_facts t
  unfold iblk
  rw [View.read_apply]
  show V m c main_v10 _ = V m c main_v10 _
  congr 1
  funext a
  apply Fin.ext
  match a with
  | ⟨0, _⟩ => show win0_6.index t 0 * 1 + 1 * (y 0).val = (k 0).val; rw [e0, hk0]; omega
  | ⟨1, _⟩ => show win0_6.index t 1 * 128 + 1 * (y 1).val = (k 1).val; rw [e1, hk1]; omega

/-- Window 7 is staged whole at every point: its block is the array. -/
theorem iblk7_apply (c : Dev nD) (t : Fin cfg0.N) (y : S128x64.Idx) (k : S128x64.Idx)
    (hk0 : (k 0).val = (y 0).val) (hk1 : (k 1).val = (y 1).val) :
    (iblk m c 7 t : Vec F S128x64 .bf16) y = (V m c main_v6 : S128x64.Idx → Elt F .bf16) k := by
  obtain ⟨-, -, -, -, -, -, -, -, -, -, -, -, -, -, -, -, e0, e1, -, -⟩ := index_facts t
  unfold iblk
  rw [View.read_apply]
  show V m c main_v6 _ = V m c main_v6 _
  congr 1
  funext a
  apply Fin.ext
  match a with
  | ⟨0, _⟩ => show win0_7.index t 0 * 128 + 1 * (y 0).val = (k 0).val; rw [e0, hk0]; omega
  | ⟨1, _⟩ => show win0_7.index t 1 * 64 + 1 * (y 1).val = (k 1).val; rw [e1, hk1]; omega

/-- Window 8 is staged whole at every point: its block is the array. -/
theorem iblk8_apply (c : Dev nD) (t : Fin cfg0.N) (y : S1x64.Idx) (k : S1x64.Idx)
    (hk0 : (k 0).val = (y 0).val) (hk1 : (k 1).val = (y 1).val) :
    (iblk m c 8 t : Vec F S1x64 .f32) y = (V m c main_v11 : S1x64.Idx → Elt F .f32) k := by
  obtain ⟨-, -, -, -, -, -, -, -, -, -, -, -, -, -, -, -, -, -, e0, e1⟩ := index_facts t
  unfold iblk
  rw [View.read_apply]
  show V m c main_v11 _ = V m c main_v11 _
  congr 1
  funext a
  apply Fin.ext
  match a with
  | ⟨0, _⟩ => show win0_8.index t 0 * 1 + 1 * (y 0).val = (k 0).val; rw [e0, hk0]; omega
  | ⟨1, _⟩ => show win0_8.index t 1 * 64 + 1 * (y 1).val = (k 1).val; rw [e1, hk1]; omega

end Cert.KernelIdeal.Blocks

end
-- ==== Proof.SpecRow.lean ====
/-
  The fused prefix of the network, for ONE row of the input, as a function on the extended reals.

  A row of 2048 entries is pooled by pairs (entry j of the pooled row is the larger of entries 2j and 2j+1, the
  maximum taken from the bottom element, so that it is the plain maximum of the two), normalized over its 1024 pooled
  entries (subtract the mean, multiply by the reciprocal square root of the variance plus a small constant, scale
  and shift entrywise), and sent through three dense layers 1024 → 512 → 128 → 64, each a matrix product plus a bias
  followed by the exponential linear unit z ↦ z for z > 0 and exp z − 1 otherwise.

  The float constants stay the words the programs print (−∞, 1024, the small constant, 0 and 1); no law used here
  needs their values, except that the words of 0 and 1 denote 0 and 1.
-/
import Idealize.ShloMosaic.PureOps.Ideal
import Idealize.ShloMosaic.PureOps.Ideal.Laws

noncomputable section

open scoped BigOperators

namespace Cert.Spec

open Idealize.ShloMosaic

/-- The pooled row: entry j is the maximum, from the bottom element, of entries 2j and 2j+1. -/
def pool (xr : Fin 2048 → EReal) : Fin 1024 → EReal := fun j =>
  (Finset.univ : Finset (Fin 2)).fold max (Ideal.ofBits .f32 0xFF800000#32)
    (fun c : Fin 2 => xr ⟨2 * j.val + c.val, by have := j.isLt; have := c.isLt; omega⟩)

/-- The mean of a row of 1024 entries. -/
def mean (h : Fin 1024 → EReal) : EReal := Ideal.div (∑ j, h j) (Ideal.ofBits .f32 0x44800000#32)

/-- The variance of a row of 1024 entries: the mean of the squared deviations. -/
def var (h : Fin 1024 → EReal) : EReal :=
  Ideal.div (∑ j, (h j - mean h) * (h j - mean h)) (Ideal.ofBits .f32 0x44800000#32)

/-- The normalized row, scaled by g and shifted by b entrywise. -/
def norm (h g b : Fin 1024 → EReal) : Fin 1024 → EReal := fun j =>
  (h j - mean h) * Ideal.rsqrt (var h + Ideal.ofBits .f32 0x3727C5AC#32) * g j + b j

/-- A dense layer: the row times the weight matrix, plus the bias. -/
def dense {K N : ℕ} (y : Fin K → EReal) (W : Fin K → Fin N → EReal) (B : Fin N → EReal) : Fin N → EReal := fun n =>
  (∑ k, y k * W k n) + B n

/-- The exponential linear unit: z above zero, exp z − 1 otherwise. -/
def elu (z : EReal) : EReal :=
  Scalar.select (Ideal.cmp .ogt z (Ideal.ofBits .f32 0x00000000#32)) z (Ideal.exp z - Ideal.ofBits .f32 0x3F800000#32)

/-- A dense layer followed by the unit. -/
def layer {K N : ℕ} (y : Fin K → EReal) (W : Fin K → Fin N → EReal) (B : Fin N → EReal) : Fin N → EReal := fun n =>
  elu (dense y W B n)

/-- The whole prefix on one row. -/
def rowFn (xr : Fin 2048 → EReal) (g b : Fin 1024 → EReal) (w0 : Fin 1024 → Fin 512 → EReal) (b0 : Fin 512 → EReal)
    (w1 : Fin 512 → Fin 128 → EReal) (b1 : Fin 128 → EReal) (w2 : Fin 128 → Fin 64 → EReal) (b2 : Fin 64 → EReal) :
    Fin 64 → EReal :=
  layer (layer (layer (norm (pool xr) g b) w0 b0) w1 b1) w2 b2

/-- The word of 1.0 denotes 1. -/
theorem ofBits_one : Ideal.ofBits .f32 0x3F800000#32 = 1 := by
  simp [Ideal.ofBits, Ideal.ieee, -EReal.coe_mul]; norm_num

/-- The unit as jax spells it: the argument where it is above zero, and otherwise one times (exp − 1) of the argument
    with the positive ones replaced by zero. Where the argument is above zero both forms return it; elsewhere the
    inner replacement returns the argument itself and the factor one drops. -/
theorem elu_jax (z : EReal) :
    Scalar.select (Ideal.cmp .ogt z (Ideal.ofBits .f32 0x00000000#32)) z
        (Ideal.ofBits .f32 0x3F800000#32 *
          (Ideal.exp (Scalar.select (Ideal.cmp .ogt z (Ideal.ofBits .f32 0x00000000#32)) (Ideal.ofBits .f32 0x00000000#32) z) - 1))
      = elu z := by
  unfold elu Scalar.select
  by_cases hc : Ideal.cmp .ogt z (Ideal.ofBits .f32 0x00000000#32) = 1
  · rw [if_pos hc, if_pos hc]
  · rw [if_neg hc, if_neg hc, if_neg hc, ofBits_one, one_mul]

end Cert.Spec

end
-- ==== Proof.SpecOps.lean ====
/-
  The operations of the pooling and the row statistics read at one entry, at the ideal values, with the indices written
  by their coordinates and the row count left generic:
  a matrix with 2048 columns viewed as 1024 pairs; the maximum over the pair (the kernel's lane reduction and the
  host's reduce) as the fold of max over the two positions from the initial value; the sum along a row (the kernel's
  lane reduction and the host's reduce) as the sum over the row's coordinates, the host's with its initial value in
  front.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.SpecOps

open Idealize.ShloMosaic Idealize.ShloMosaic.ValueIdx

/-- A matrix with 2048 columns viewed as 1024 pairs: position c of pair j of row r is column 2j + c. -/
theorem pairs_apply {α : Type} {R : ℕ} (x : (⟨2, ![R, 2048]⟩ : Shape).Idx → α)
    (h : (⟨2, ![R, 2048]⟩ : Shape).ShapeCasts ⟨3, ![R, 1024, 2]⟩) (r : Fin R) (j : Fin 1024) (c : Fin 2)
    (hc : 2 * j.val + c.val < 2048) :
    shapeCast ⟨3, ![R, 1024, 2]⟩ x h (ix3 r j c) = x (ix2 r ⟨2 * j.val + c.val, hc⟩) :=
  shapeCast_apply x h _ _ (by
    rw [Shape.rowMajor_val_two, Shape.rowMajor_val_three]
    show r.val * 2048 + (2 * j.val + c.val) = (r.val * 1024 + j.val) * 2 + c.val
    omega)

/-- Putting a coordinate back on the last of three axes. -/
theorem lift_last3 {R K C : ℕ} (h : (⟨3, ![R, K, C]⟩ : Shape).Reduces [2] ⟨2, ![R, K]⟩) (r : Fin R) (j : Fin K) (c : Fin C) :
    h.lift (ix2 r j) c = ix3 r j c := by
  funext a; apply Fin.ext
  match a with
  | ⟨0, _⟩ => rfl
  | ⟨1, _⟩ => rfl
  | ⟨2, _⟩ => rfl

/-- Putting a coordinate back on the last of two axes. -/
theorem lift_last2 {R K : ℕ} (h : (⟨2, ![R, K]⟩ : Shape).Reduces [1] ⟨1, ![R]⟩) (r : Fin R) (k : Fin K) :
    h.lift (ix1 r) k = ix2 r k := by
  funext a; apply Fin.ext
  match a with
  | ⟨0, _⟩ => rfl
  | ⟨1, _⟩ => rfl

/-- The kernel's maximum over the last axis, read at (r, j): the fold of max over the positions from the initial word. -/
theorem laneMax_apply {R K C : ℕ} (src : FVec Ideal ⟨3, ![R, K, C]⟩ .f32) (acc : BitVec 32)
    (h : (⟨3, ![R, K, C]⟩ : Shape).Reduces [2] ⟨2, ![R, K]⟩)
    (hφ : FKind.Formats .f32) (hacc : acc = FKind.maximumf.neutral .f32 hφ) (r : Fin R) (j : Fin K) :
    multiReduction .maximumf [2] ⟨2, ![R, K]⟩ src acc h hφ hacc (ix2 r j)
      = (Finset.univ : Finset (Fin C)).fold max (Ideal.ofBits .f32 acc) (fun c => src (ix3 r j c)) := by
  refine (Ideal.multiReduction_maximumf_single src acc h hφ hacc (ix2 r j)).trans ?_
  exact congrArg (fun f => (Finset.univ : Finset (Fin C)).fold max (Ideal.ofBits .f32 acc) f)
    (funext fun c => congrArg src (lift_last3 h r j c))

/-- The kernel's sum over the last of two axes, read at r: the sum over the row. -/
theorem laneSum_apply {R K : ℕ} (src : FVec Ideal ⟨2, ![R, K]⟩ .f32) (acc : BitVec 32)
    (h : (⟨2, ![R, K]⟩ : Shape).Reduces [1] ⟨1, ![R]⟩)
    (hφ : FKind.Formats .f32) (hacc : acc = FKind.add.neutral .f32 hφ) (r : Fin R) :
    multiReduction .add [1] ⟨1, ![R]⟩ src acc h hφ hacc (ix1 r) = ∑ k : Fin K, src (ix2 r k) :=
  (Ideal.multiReduction_add_single src acc h hφ hacc (ix1 r)).trans
    (Finset.sum_congr rfl fun k _ => congrArg src (lift_last2 h r k))

/-- The host's maximum over the last axis, read at (r, j): the same fold, from the initial value's one element. -/
theorem hostMax_apply {R K C : ℕ} (x : FVec Ideal ⟨3, ![R, K, C]⟩ .f32) (init : (⟨0, ![]⟩ : Shape).Idx → Ideal .f32)
    (h' : (⟨3, ![R, K, C]⟩ : Shape).ReducesTo [2] ⟨2, ![R, K]⟩) (hu : 0 < (⟨0, ![]⟩ : Shape).numel) (r : Fin R) (j : Fin K) :
    Host.reduce (FloatOps.maximumf (F := Ideal) (φ := .f32)) x init h' hu (ix2 r j)
      = (Finset.univ : Finset (Fin C)).fold max (init ix0) (fun c => x (ix3 r j c)) := by
  have h : (⟨3, ![R, K, C]⟩ : Shape).Reduces [2] ⟨2, ![R, K]⟩ := by
    obtain ⟨e, f⟩ := h'; exact ⟨e, Nat.succ_pos _, f⟩
  refine (Host.reduce_eq_fold_single (FloatOps.maximumf (F := Ideal) (φ := .f32)) x init h' h hu (ix2 r j)).trans ?_
  rw [eq_ix0 (Shape.Idx.first hu)]
  exact congrArg (fun f => (Finset.univ : Finset (Fin C)).fold max (init ix0) f)
    (funext fun c => congrArg x (lift_last3 h r j c))

/-- The host's sum over the last of two axes, read at r: the initial value's one element plus the sum over the row. -/
theorem hostSum_apply {R K : ℕ} (x : FVec Ideal ⟨2, ![R, K]⟩ .f32) (init : (⟨0, ![]⟩ : Shape).Idx → Ideal .f32)
    (h' : (⟨2, ![R, K]⟩ : Shape).ReducesTo [1] ⟨1, ![R]⟩) (hu : 0 < (⟨0, ![]⟩ : Shape).numel) (r : Fin R) :
    Host.reduceAdd x init h' hu (ix1 r) = init ix0 + ∑ k : Fin K, x (ix2 r k) := by
  have h : (⟨2, ![R, K]⟩ : Shape).Reduces [1] ⟨1, ![R]⟩ := by
    obtain ⟨e, f⟩ := h'; exact ⟨e, Nat.succ_pos _, f⟩
  refine (Ideal.hostReduceAdd_single h' h x (init (Shape.Idx.first hu)) (ix1 r)).trans ?_
  rw [eq_ix0 (Shape.Idx.first hu)]
  exact congrArg (init ix0 + ·) (Finset.sum_congr rfl fun k _ => congrArg x (lift_last2 h r k))

end Cert.SpecOps

end
-- ==== Proof.LibDense.lean ====
/-
  The operations of a dense layer read at one entry, at the ideal values, each stated at an index written by its
  coordinates and generic in the extents:
  a plain matrix product (the kernel's product into the zero splat, whatever the operands' storage formats, and the
  host's dot product) as the sum over the contracted coordinate; a block of rows sliced out of a matrix; two or
  three matrices joined side by side along the columns; a vector laid out as a one-row matrix and that row repeated
  down the rows; a scalar repeated over a whole array; and a finite sum over `Fin r` cut into consecutive blocks.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx

/-! ## Plain matrix products -/

section Products
variable {m k n : ℕ} (w : DotDims.WF ⟨2, ![m, k]⟩ ⟨2, ![k, n]⟩ ⟨2, ![m, n]⟩ [1] [0] [0] [1] [] [])

/-- The left operand's index of a plain product at output entry (a, b) and contracted coordinate c is (a, c). -/
theorem plain_lhsIdx (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's index of a plain product at output entry (a, b) and contracted coordinate c is (c, b). -/
theorem plain_rhsIdx (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- A product of an m×k by a k×n matrix accumulated into the zero splat, whatever formats the operands are stored
    in, read at entry (a, b): the sum over the contracted coordinate. -/
theorem matmul_plain_apply {φ₁ φ₂ : FTy} (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

/-- The host's dot product of an m×k by a k×n matrix read at entry (a, b): the same sum. -/
theorem hostDot_plain_apply {φ₁ φ₂ : FTy} (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) none A B (ix2 a b)
      = ∑ c : Fin k, A (ix2 a c) * B (ix2 c b) := by
  show FloatOps.dotGeneral _ none .single A B (ix2 a b) = _
  rw [Ideal.dotGeneral_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

end Products

/-! ## Layout -/

section Layout
variable {α : Type}

/-- Rows o … o + c - 1 of an a×b matrix, read at (i, j): the matrix at (o + i, j). -/
theorem sliceRows_apply {a b c : ℕ} (o : ℕ) (x : (⟨2, ![a, b]⟩ : Shape).Idx → α)
    (h : (⟨2, ![a, b]⟩ : Shape).Slices ![o, 0] ⟨2, ![c, b]⟩) (i : Fin c) (j : Fin b) (ho : o + i.val < a) :
    extractStridedSlice ⟨2, ![c, b]⟩ ![o, 0] x h (ix2 i j) = x (ix2 ⟨o + i.val, ho⟩ j) :=
  extractStridedSlice_apply _ x h _ _ fun ax => match ax with
    | ⟨0, _⟩ => rfl
    | ⟨1, _⟩ => (Nat.zero_add _).symm

/-- Two matrices side by side: a column of the first. -/
theorem concatCols2_left {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin p) (hc : c.val < r) :
    concatenate ⟨2, ![n, r]⟩ 1 [⟨⟨2, ![n, p]⟩, x₁⟩, ⟨⟨2, ![n, q]⟩, x₂⟩] h (ix2 e ⟨c.val, hc⟩) = x₁ (ix2 e c) :=
  concatenate_pair_apply_left 1 x₁ x₂ h _ rfl _ fun b => match b with
    | ⟨0, _⟩ => rfl
    | ⟨1, _⟩ => rfl

/-- Two matrices side by side: a column of the second sits p columns to the right. -/
theorem concatCols2_right {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin q) (hc : p + c.val < r) :
    concatenate ⟨2, ![n, r]⟩ 1 [⟨⟨2, ![n, p]⟩, x₁⟩, ⟨⟨2, ![n, q]⟩, x₂⟩] h (ix2 e ⟨p + c.val, hc⟩) = x₂ (ix2 e c) :=
  concatenate_pair_apply_right 1 x₁ x₂ h _ rfl rfl _
    (fun b hb => match b with
      | ⟨0, _⟩ => rfl
      | ⟨1, _⟩ => absurd rfl hb)
    (Nat.add_comm _ _)

/-- A vector laid out as a one-row matrix. -/
theorem bcastRow_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) :=
  broadcastInDim_apply _ h v _ _ fun ax => match ax with
    | ⟨0, _⟩ => by
      show j.val = if b = 1 then 0 else j.val
      split
      · have := j.isLt; omega
      · rfl

/-- A one-row matrix repeated down the rows. -/
theorem bcastRows_apply {a b : ℕ} (v : (⟨2, ![1, b]⟩ : Shape).Idx → α)
    (h : (⟨2, ![1, b]⟩ : Shape).BroadcastsInDim ⟨2, ![a, b]⟩ ![0, 1]) (p : Fin a) (j : Fin b) :
    broadcastInDim ⟨2, ![a, b]⟩ ![0, 1] h v (ix2 p j) = v (ix2 (0 : Fin 1) j) :=
  broadcastInDim_apply _ h v _ _ fun ax => match ax with
    | ⟨0, _⟩ => rfl
    | ⟨1, _⟩ => by
      show j.val = if b = 1 then 0 else j.val
      split
      · have := j.isLt; omega
      · rfl

/-- A scalar repeated over a whole array. -/
theorem bcastScalar_apply {s : Shape} (v : (⟨0, ![]⟩ : Shape).Idx → α)
    (h : (⟨0, ![]⟩ : Shape).BroadcastsInDim s ![]) (i : s.Idx) :
    broadcastInDim s ![] h v i = v ix0 :=
  broadcastInDim_apply _ h v i ix0 fun ax => ax.elim0

end Layout

/-! ## A finite sum cut into consecutive blocks -/

section Sums
variable {M : Type} [AddCommMonoid M]

/-- A sum over r = p + q indices is the sum over the first p plus the sum over the last q. -/
theorem sum_split2 {p q r : ℕ} (hr : p + q = r) (f : Fin r → M) :
    ∑ c : Fin r, f c
      = ∑ c : Fin p, f ⟨c.val, by have := c.isLt; omega⟩ + ∑ c : Fin q, f ⟨p + c.val, by have := c.isLt; omega⟩ := by
  subst hr
  rw [Fin.sum_univ_add]
  rfl

/-- A sum over r = p + q + s indices in three consecutive blocks. -/
theorem sum_split3 {p q s r : ℕ} (hr : p + q + s = r) (f : Fin r → M) :
    ∑ c : Fin r, f c
      = (∑ c : Fin p, f ⟨c.val, by have := c.isLt; omega⟩ + ∑ c : Fin q, f ⟨p + c.val, by have := c.isLt; omega⟩)
        + ∑ c : Fin s, f ⟨p + q + c.val, by have := c.isLt; omega⟩ := by
  subst hr
  rw [Fin.sum_univ_add, Fin.sum_univ_add]
  rfl

end Sums

end Cert.Dense

end
-- ==== Proof.LibColumns.lean ====
/-
  One-column and one-row arrays read at an entry.  A vector of length n viewed as an n×1 column — by a shape cast
  or by a broadcast along a new last axis — reads its entry r at (r, 0), so the two views are one array; viewed
  as a 1×n row by a broadcast along a new first axis it reads its entry q at (0, q).  A column spread over k
  columns reads the column's entry r at every (r, q); a row spread over n rows reads the row's entry q at every
  (r, q).
-/
import Idealize.ShloMosaic.Lib.ValueIdx
import Idealize.ShloMosaic.Lib.ValueLayout
import Idealize.ShloMosaic.Lib.Pipeline.Value

noncomputable section

namespace Cert.Columns

open Idealize.ShloMosaic Idealize.ShloMosaic.ValueIdx

variable {α : Type}

/-- A vector cast to a column reads entry r at (r, 0). -/
theorem shapeCast_col_apply {n : ℕ} (v : (⟨1, ![n]⟩ : Shape).Idx → α) (h : (⟨1, ![n]⟩ : Shape).ShapeCasts ⟨2, ![n, 1]⟩)
    (r : Fin n) (u : Fin 1) : shapeCast ⟨2, ![n, 1]⟩ v h (ix2 r u) = v (ix1 r) :=
  shapeCast_apply v h _ _ (by
    have hu : u.val = 0 := by omega
    rw [Shape.rowMajor_val_two, Shape.rowMajor_val_one]
    show r.val = r.val * 1 + u.val
    omega)

/-- A vector broadcast to a column (its axis the column's first) reads entry r at (r, 0). -/
theorem bcast_col_apply {n : ℕ} (v : (⟨1, ![n]⟩ : Shape).Idx → α)
    (h : (⟨1, ![n]⟩ : Shape).BroadcastsInDim ⟨2, ![n, 1]⟩ (![0] : Fin 1 → Fin 2)) (r : Fin n) (u : Fin 1) :
    broadcastInDim ⟨2, ![n, 1]⟩ (![0] : Fin 1 → Fin 2) h v (ix2 r u) = v (ix1 r) := by
  refine broadcastInDim_apply (![0] : Fin 1 → Fin 2) h v (ix2 r u) (ix1 r) fun a => ?_
  match a with
  | ⟨0, _⟩ =>
    show r.val = if n = 1 then 0 else r.val
    split
    · have := r.isLt; omega
    · rfl

/-- The two column views of a vector are one array. -/
theorem shapeCast_col_eq_bcast {n : ℕ} (v : (⟨1, ![n]⟩ : Shape).Idx → α) (h : (⟨1, ![n]⟩ : Shape).ShapeCasts ⟨2, ![n, 1]⟩)
    (h' : (⟨1, ![n]⟩ : Shape).BroadcastsInDim ⟨2, ![n, 1]⟩ (![0] : Fin 1 → Fin 2)) :
    shapeCast ⟨2, ![n, 1]⟩ v h = broadcastInDim ⟨2, ![n, 1]⟩ (![0] : Fin 1 → Fin 2) h' v := by
  funext j
  obtain ⟨r, u, rfl⟩ : ∃ (r : Fin n) (u : Fin 1), j = ix2 r u := ⟨j 0, j 1, eq_ix2 j⟩
  rw [shapeCast_col_apply, bcast_col_apply]

/-- A vector broadcast to a row (its axis the row's second) reads entry q at (0, q). -/
theorem bcast_row_apply {n : ℕ} (v : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ (![1] : Fin 1 → Fin 2) h v (ix2 u q) = v (ix1 q) := by
  refine broadcastInDim_apply (![1] : Fin 1 → Fin 2) h v (ix2 u q) (ix1 q) fun a => ?_
  match a with
  | ⟨0, _⟩ =>
    show q.val = if n = 1 then 0 else q.val
    split
    · have := q.isLt; omega
    · rfl

/-- A column spread over k columns reads the column's entry r at (r, q). -/
theorem spread_col_apply {n k : ℕ} (v : (⟨2, ![n, 1]⟩ : Shape).Idx → α)
    (h : (⟨2, ![n, 1]⟩ : Shape).BroadcastsInDim ⟨2, ![n, k]⟩ (![0, 1] : Fin 2 → Fin 2)) (r : Fin n) (q : Fin k) :
    broadcastInDim ⟨2, ![n, k]⟩ (![0, 1] : Fin 2 → Fin 2) h v (ix2 r q) = v (ix2 r (0 : Fin 1)) := by
  refine broadcastInDim_apply (![0, 1] : Fin 2 → Fin 2) h v (ix2 r q) (ix2 r (0 : Fin 1)) fun a => ?_
  match a with
  | ⟨0, _⟩ =>
    show r.val = if n = 1 then 0 else r.val
    split
    · have := r.isLt; omega
    · rfl
  | ⟨1, _⟩ => rfl

/-- A row spread over n rows reads the row's entry q at (r, q). -/
theorem spread_row_apply {n k : ℕ} (v : (⟨2, ![1, k]⟩ : Shape).Idx → α)
    (h : (⟨2, ![1, k]⟩ : Shape).BroadcastsInDim ⟨2, ![n, k]⟩ (![0, 1] : Fin 2 → Fin 2)) (r : Fin n) (q : Fin k) :
    broadcastInDim ⟨2, ![n, k]⟩ (![0, 1] : Fin 2 → Fin 2) h v (ix2 r q) = v (ix2 (0 : Fin 1) q) := by
  refine broadcastInDim_apply (![0, 1] : Fin 2 → Fin 2) h v (ix2 r q) (ix2 (0 : Fin 1) q) fun a => ?_
  match a with
  | ⟨0, _⟩ => rfl
  | ⟨1, _⟩ =>
    show q.val = if k = 1 then 0 else q.val
    split
    · have := q.isLt; omega
    · rfl

end Cert.Columns

end
-- ==== Proof.LibFactorSum.lean ====
/-
  Three general facts for kernels that scale rows by a per-row factor.

  On the extended reals a factor distributes over a finite sum as soon as it is a non-negative real: scaling by such
  a factor fixes the two infinities (or sends everything to zero), so it commutes with addition, the convention
  ⊤ + ⊥ = ⊥ included; no summand has to be finite.  The factor max(d, 1) ^ (-1/2) (a degree norm clamped at one) is
  such a factor whatever the extended real d is: for real d it is a positive real power, and for d = ⊤ it is 0.
  Last, a one-column array spread over b columns reads the column's entry p at every (p, c).
-/
import Idealize.ShloMosaic.PureOps.Ideal
import Idealize.ShloMosaic.Lib.ValueIdx
import Idealize.ShloMosaic.Lib.Pipeline.Value

noncomputable section

namespace Cert.FactorSum

open Idealize.ShloMosaic Idealize.ShloMosaic.ValueIdx

/-- A non-negative real factor distributes over a finite sum of extended reals. -/
theorem sum_mul_of_nonneg_real {ι : Type} (S : Finset ι) (f : ι → EReal) {d : EReal} (h0 : 0 ≤ d) (ht : d ≠ ⊤) :
    (∑ c ∈ S, f c) * d = ∑ c ∈ S, f c * d := by
  classical
  induction S using Finset.induction_on with
  | empty => simp
  | insert a S ha ih =>
    rw [Finset.sum_insert ha, Finset.sum_insert ha, ← ih, mul_comm, mul_comm (f a), mul_comm (∑ c ∈ S, f c)]
    exact EReal.left_distrib_of_nonneg_of_ne_top h0 ht _ _

/-- The f32 word of 1.0 denotes 1. -/
theorem ofBits_one : Ideal.ofBits .f32 0x3F800000#32 = 1 := by
  simp [Ideal.ofBits, Ideal.ieee, -EReal.coe_mul]; norm_num

/-- The f32 word of -0.5 denotes the real -1/2. -/
theorem ofBits_neg_half : Ideal.ofBits .f32 0xBF000000#32 = ((-(1 / 2) : ℝ) : EReal) := by
  simp [Ideal.ofBits, Ideal.ieee, -EReal.coe_mul]; norm_num

/-- max(d, 1) ^ (-1/2) is a non-negative real, whatever the extended real d. -/
theorem pow_max_one_neg_half (d : EReal) :
    0 ≤ Ideal.pow (max d (Ideal.ofBits .f32 0x3F800000#32)) (Ideal.ofBits .f32 0xBF000000#32)
      ∧ Ideal.pow (max d (Ideal.ofBits .f32 0x3F800000#32)) (Ideal.ofBits .f32 0xBF000000#32) ≠ ⊤ := by
  rw [ofBits_one, ofBits_neg_half]
  have h1 : (1 : EReal) ≤ max d 1 := le_max_right _ _
  induction h : max d 1 using EReal.rec with
  | bot => rw [h] at h1; exact absurd (le_bot_iff.mp h1) (by decide)
  | top =>
    have hneg : ¬ (0 : EReal) < ((-(1 / 2) : ℝ) : EReal) := by
      rw [not_lt]; exact_mod_cast (by norm_num : (-(1 / 2) : ℝ) ≤ 0)
    have hne : ((-(1 / 2) : ℝ) : EReal) ≠ 0 := by
      intro e; have : (-(1 / 2) : ℝ) = 0 := by exact_mod_cast e
      norm_num at this
    rw [Ideal.pow_top, if_neg hneg, if_neg hne]
    exact ⟨le_refl _, EReal.zero_ne_top⟩
  | coe x =>
    rw [h] at h1
    have hx : (1 : ℝ) ≤ x := by exact_mod_cast h1
    rw [Ideal.pow_coe_coe]
    refine ⟨?_, EReal.coe_ne_top _⟩
    have : (0 : ℝ) ≤ Real.rpow x (-(1 / 2)) := Real.rpow_nonneg (by linarith) _
    exact_mod_cast this

/-- A one-column array spread over b columns reads the column's entry p at every (p, c). -/
theorem spreadCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.FactorSum

end
-- ==== Proof.SpecKernel.lean ====
/-
  The kernel's stored block, read at one entry, is the row function of the block's row.

  The block's arithmetic is cut into the stages of the mathematics: the pooling of pairs of columns, the row
  statistics (sum along a row, mean, deviations, variance), the normalization, and three times a dense layer followed
  by the exponential linear unit.  Each stage is written once with the operations the kernel applies and read at an
  entry; the printed arithmetic is the composition of the stages by unfolding, and the entry of the composition is
  the row function by reading the stages from the outside in.
-/
import proofs.«106491_j82652350644592_2_alg».proof.Proof.Gen.KernelIdeal.Skeleton
import proofs.«106491_j82652350644592_2_alg».proof.Proof.SpecRow
import proofs.«106491_j82652350644592_2_alg».proof.Proof.SpecOps
import proofs.«106491_j82652350644592_2_alg».proof.Proof.LibDense
import proofs.«106491_j82652350644592_2_alg».proof.Proof.LibColumns
import proofs.«106491_j82652350644592_2_alg».proof.Proof.LibFactorSum

noncomputable section

open scoped BigOperators

namespace Cert.SpecK

open Idealize.ShloMosaic Idealize.ShloMosaic.ValueIdx Cert.KernelIdeal

/-! ## Pooling -/

/-- The pooled block: the columns viewed as pairs, the maximum over each pair. -/
def poolK (v4 : FVec Ideal S200x2048 .f32) : FVec Ideal S200x1024 .f32 :=
  multiReduction .maximumf [2] S200x1024 (shapeCast S200x1024x2 v4 Gen.shapeCasts_S200x2048_S200x1024x2) 0xFF800000#32
    Gen.reduces_S200x1024x2_S200x1024 (.inl rfl) rfl

theorem poolK_apply (v4 : FVec Ideal S200x2048 .f32) (r : Fin 200) (j : Fin 1024) :
    poolK v4 (ix2 r j) = Spec.pool (fun j => v4 (ix2 r j)) j :=
  (SpecOps.laneMax_apply _ _ _ _ _ r j).trans
    (congrArg (fun f => (Finset.univ : Finset (Fin 2)).fold max (Ideal.ofBits .f32 0xFF800000#32) f)
      (funext fun c => SpecOps.pairs_apply v4 _ r j c _))

/-! ## Row statistics -/

/-- The sums along the rows, as a column. -/
def sumRowK (x : FVec Ideal S200x1024 .f32) : FVec Ideal S200x1 .f32 :=
  shapeCast S200x1 (multiReduction .add [1] S200 x 0x00000000#32 Gen.reduces_S200x1024_S200 (.inl rfl) rfl)
    Gen.shapeCasts_S200_S200x1

theorem sumRowK_apply (x : FVec Ideal S200x1024 .f32) (r : Fin 200) (u : Fin 1) :
    sumRowK x (ix2 r u) = ∑ k : Fin 1024, x (ix2 r k) :=
  (Cert.Columns.shapeCast_col_apply _ _ r u).trans (SpecOps.laneSum_apply x _ _ _ _ r)

/-- The row sums divided by the row length. -/
def meanK (x : FVec Ideal S200x1024 .f32) : FVec Ideal S200x1 .f32 :=
  divf (sumRowK x) (broadcast S200x1 (Scalar.ofBits .f32 0x44800000#32))

theorem meanK_apply (x : FVec Ideal S200x1024 .f32) (r : Fin 200) (u : Fin 1) :
    meanK x (ix2 r u) = Spec.mean (fun j => x (ix2 r j)) := by
  unfold meanK Spec.mean
  rw [divf_apply, sumRowK_apply]
  rfl

/-- The deviations from the row means. -/
def centK (x : FVec Ideal S200x1024 .f32) : FVec Ideal S200x1024 .f32 :=
  subf x (broadcastTo S200x1024 (meanK x) Gen.broadcasts_S200x1_S200x1024)

theorem centK_apply (x : FVec Ideal S200x1024 .f32) (r : Fin 200) (j : Fin 1024) :
    centK x (ix2 r j) = x (ix2 r j) - Spec.mean (fun j => x (ix2 r j)) := by
  unfold centK
  rw [subf_apply, Cert.FactorSum.spreadCol_apply, meanK_apply]

/-- The row variances: the means of the squared deviations. -/
def varK (x : FVec Ideal S200x1024 .f32) : FVec Ideal S200x1 .f32 :=
  divf (sumRowK (mulf (centK x) (centK x))) (broadcast S200x1 (Scalar.ofBits .f32 0x44800000#32))

theorem varK_apply (x : FVec Ideal S200x1024 .f32) (r : Fin 200) (u : Fin 1) :
    varK x (ix2 r u) = Spec.var (fun j => x (ix2 r j)) := by
  unfold varK Spec.var
  rw [divf_apply, sumRowK_apply]
  simp only [mulf_apply, centK_apply]
  rfl

/-- The normalized block, scaled and shifted by the two one-row arrays. -/
def normK (x : FVec Ideal S200x1024 .f32) (v25 v29 : FVec Ideal S1x1024 .f32) : FVec Ideal S200x1024 .f32 :=
  addf
    (mulf
      (mulf (centK x)
        (broadcastTo S200x1024 (rsqrt (addf (varK x) (broadcast S200x1 (Scalar.ofBits .f32 0x3727C5AC#32))))
          Gen.broadcasts_S200x1_S200x1024))
      (broadcastTo S200x1024 (shapeCast S1x1024 v25 Gen.shapeCasts_S1x1024_S1x1024) Gen.broadcasts_S1x1024_S200x1024))
    (broadcastTo S200x1024 (shapeCast S1x1024 v29 Gen.shapeCasts_S1x1024_S1x1024) Gen.broadcasts_S1x1024_S200x1024)

theorem normK_apply (x : FVec Ideal S200x1024 .f32) (v25 v29 : FVec Ideal S1x1024 .f32) (r : Fin 200) (j : Fin 1024) :
    normK x v25 v29 (ix2 r j)
      = Spec.norm (fun j => x (ix2 r j)) (fun j => v25 (ix2 0 j)) (fun j => v29 (ix2 0 j)) j := by
  unfold normK Spec.norm
  rw [addf_apply, mulf_apply, mulf_apply, centK_apply, Cert.FactorSum.spreadCol_apply, broadcastTo_1b_ab_apply,
    broadcastTo_1b_ab_apply, shapeCast_self, shapeCast_self]
  rw [show rsqrt (addf (varK x) (broadcast S200x1 (Scalar.ofBits .f32 0x3727C5AC#32))) (ix2 r (0 : Fin 1))
      = Ideal.rsqrt (varK x (ix2 r (0 : Fin 1)) + Ideal.ofBits .f32 0x3727C5AC#32) from rfl, varK_apply]

/-! ## A dense layer and the unit -/

/-- A dense layer as the kernel computes it: the product into the zero splat of the row block, narrowed to the
    weights' storage format, with the weights, plus the bias row repeated down the rows. -/
def denseK {R K N : ℕ} (w : DotDims.WF ⟨2, ![R, K]⟩ ⟨2, ![K, N]⟩ ⟨2, ![R, N]⟩ [1] [0] [0] [1] [] [])
    (hb : FTy.bits .bf16 < FTy.bits .f32)
    (hW : (⟨2, ![K, N]⟩ : Shape).ShapeCasts ⟨2, ![K, N]⟩) (hB : (⟨2, ![1, N]⟩ : Shape).ShapeCasts ⟨2, ![1, N]⟩)
    (hbr : (⟨2, ![1, N]⟩ : Shape).Broadcasts ⟨2, ![R, N]⟩)
    (y : FVec Ideal ⟨2, ![R, K]⟩ .f32) (W : FVec Ideal ⟨2, ![K, N]⟩ .bf16) (B : FVec Ideal ⟨2, ![1, N]⟩ .f32) :
    FVec Ideal ⟨2, ![R, N]⟩ .f32 :=
  addf
    (matmul (⟨[1], [0], [0], [1], [], [], w⟩ : DotDims ⟨2, ![R, K]⟩ ⟨2, ![K, N]⟩ ⟨2, ![R, N]⟩) none (truncf .bf16 y hb)
      (shapeCast ⟨2, ![K, N]⟩ W hW) (constant ⟨2, ![R, N]⟩ .f32 0x00000000#32))
    (broadcastTo ⟨2, ![R, N]⟩ (shapeCast ⟨2, ![1, N]⟩ B hB) hbr)

theorem denseK_apply {R K N : ℕ} (w : DotDims.WF ⟨2, ![R, K]⟩ ⟨2, ![K, N]⟩ ⟨2, ![R, N]⟩ [1] [0] [0] [1] [] [])
    (hb : FTy.bits .bf16 < FTy.bits .f32)
    (hW : (⟨2, ![K, N]⟩ : Shape).ShapeCasts ⟨2, ![K, N]⟩) (hB : (⟨2, ![1, N]⟩ : Shape).ShapeCasts ⟨2, ![1, N]⟩)
    (hbr : (⟨2, ![1, N]⟩ : Shape).Broadcasts ⟨2, ![R, N]⟩)
    (y : FVec Ideal ⟨2, ![R, K]⟩ .f32) (W : FVec Ideal ⟨2, ![K, N]⟩ .bf16) (B : FVec Ideal ⟨2, ![1, N]⟩ .f32)
    (r : Fin R) (n : Fin N) :
    denseK w hb hW hB hbr y W B (ix2 r n)
      = Spec.dense (fun k => y (ix2 r k)) (fun k n => W (ix2 k n)) (fun n => B (ix2 0 n)) n := by
  unfold denseK Spec.dense
  rw [addf_apply, Cert.Dense.matmul_plain_apply, shapeCast_self, shapeCast_self, broadcastTo_1b_ab_apply]
  rfl

/-- The unit as the kernel computes it, against an array of zeros. -/
def eluK {s : Shape} (z zero : FVec Ideal s .f32) : FVec Ideal s .f32 :=
  select (cmpf .ogt z zero) z (subf (exp z) (broadcast s (Scalar.ofBits .f32 0x3F800000#32)))

theorem eluK_apply {s : Shape} (z zero : FVec Ideal s .f32) (i : s.Idx)
    (hz : zero i = Ideal.ofBits .f32 0x00000000#32) : eluK z zero i = Spec.elu (z i) := by
  unfold eluK Spec.elu
  rw [select_apply, cmpf_apply, hz]
  rfl

/-- A layer read at an entry, from the row of its input. -/
theorem layerK_row {R K N : ℕ} (w : DotDims.WF ⟨2, ![R, K]⟩ ⟨2, ![K, N]⟩ ⟨2, ![R, N]⟩ [1] [0] [0] [1] [] [])
    (hb : FTy.bits .bf16 < FTy.bits .f32)
    (hW : (⟨2, ![K, N]⟩ : Shape).ShapeCasts ⟨2, ![K, N]⟩) (hB : (⟨2, ![1, N]⟩ : Shape).ShapeCasts ⟨2, ![1, N]⟩)
    (hbr : (⟨2, ![1, N]⟩ : Shape).Broadcasts ⟨2, ![R, N]⟩)
    (y : FVec Ideal ⟨2, ![R, K]⟩ .f32) (W : FVec Ideal ⟨2, ![K, N]⟩ .bf16) (B : FVec Ideal ⟨2, ![1, N]⟩ .f32)
    (zero : FVec Ideal ⟨2, ![R, N]⟩ .f32) (hz : ∀ i, zero i = Ideal.ofBits .f32 0x00000000#32)
    (r : Fin R) (n : Fin N) (yr : Fin K → EReal) (hy : ∀ k, y (ix2 r k) = yr k) :
    eluK (denseK w hb hW hB hbr y W B) zero (ix2 r n)
      = Spec.layer yr (fun k n => W (ix2 k n)) (fun n => B (ix2 0 n)) n := by
  obtain rfl : yr = fun k => y (ix2 r k) := funext fun k => (hy k).symm
  rw [eluK_apply _ _ _ (hz _), denseK_apply]
  rfl

/-! ## The printed arithmetic is the composition of the stages -/

/-- The first layer's sum, before the unit. -/
theorem pay2_eq (v4 : FVec Ideal S200x2048 .f32) (v25 v29 : FVec Ideal S1x1024 .f32) (v34 : FVec Ideal S1024x512 .bf16)
    (v37 : FVec Ideal S1x512 .f32) :
    Gen.k0_pay2 (F := Ideal) v4 v25 v29 v34 v37
      = denseK Gen.dot_S200x1024_S1024x512_S200x512_1_0_0_1_n_n_wf Gen.bitsLt_bf16_f32 Gen.shapeCasts_S1024x512_S1024x512
          Gen.shapeCasts_S1x512_S1x512 Gen.broadcasts_S1x512_S200x512 (normK (poolK v4) v25 v29) v34 v37 := rfl

/-- The rest: the first unit and the two further layers. -/
theorem pay1_eq (v40 v41 : FVec Ideal S200x512 .f32) (v48 : FVec Ideal S512x128 .bf16) (v51 : FVec Ideal S1x128 .f32)
    (v62 : FVec Ideal S128x64 .bf16) (v65 : FVec Ideal S1x64 .f32) :
    Gen.k0_pay1 (F := Ideal) v40 v41 v48 v51 v62 v65
      = eluK
          (denseK Gen.dot_S200x128_S128x64_S200x64_1_0_0_1_n_n_wf Gen.bitsLt_bf16_f32 Gen.shapeCasts_S128x64_S128x64
            Gen.shapeCasts_S1x64_S1x64 Gen.broadcasts_S1x64_S200x64
            (eluK
              (denseK Gen.dot_S200x512_S512x128_S200x128_1_0_0_1_n_n_wf Gen.bitsLt_bf16_f32
                Gen.shapeCasts_S512x128_S512x128 Gen.shapeCasts_S1x128_S1x128 Gen.broadcasts_S1x128_S200x128
                (eluK v40 v41) v48 v51)
              (broadcast S200x128 (Scalar.ofBits .f32 0x00000000#32)))
            v62 v65)
          (broadcast S200x64 (Scalar.ofBits .f32 0x00000000#32)) := rfl

/-! ## The stored block at an entry -/

/-- Entry (r, q) of the block one loop trip stores is the row function of row r of the loaded rows, with the
    scale, the shift and the biases read off their one-row arrays. -/
theorem kernel_payload_apply (v4 : FVec Ideal S200x2048 .f32) (v25 v29 : FVec Ideal S1x1024 .f32)
    (v34 : FVec Ideal S1024x512 .bf16) (v37 : FVec Ideal S1x512 .f32) (v48 : FVec Ideal S512x128 .bf16)
    (v51 : FVec Ideal S1x128 .f32) (v62 : FVec Ideal S128x64 .bf16) (v65 : FVec Ideal S1x64 .f32)
    (r : Fin 200) (q : Fin 64) :
    Gen.k0_pay1 (F := Ideal) (Gen.k0_pay2 v4 v25 v29 v34 v37) Gen.k0_pay3 v48 v51 v62 v65 (ix2 r q)
      = Spec.rowFn (fun j => v4 (ix2 r j)) (fun j => v25 (ix2 0 j)) (fun j => v29 (ix2 0 j))
          (fun k n => v34 (ix2 k n)) (fun n => v37 (ix2 0 n)) (fun k n => v48 (ix2 k n)) (fun n => v51 (ix2 0 n))
          (fun k n => v62 (ix2 k n)) (fun n => v65 (ix2 0 n)) q := by
  rw [pay1_eq, pay2_eq]
  unfold Spec.rowFn
  exact layerK_row _ _ _ _ _ _ _ _ _ (fun _ => rfl) r q _ fun k =>
    layerK_row _ _ _ _ _ _ _ _ _ (fun _ => rfl) r k _ fun k =>
      layerK_row _ _ _ _ _ _ _ _ _ (fun _ => rfl) r k _ fun k =>
        (normK_apply _ _ _ r k).trans
          (congrArg (fun h => Spec.norm h (fun j => v25 (ix2 0 j)) (fun j => v29 (ix2 0 j)) k)
            (funext fun j => poolK_apply v4 r j))

end Cert.SpecK

end
-- ==== Proof.SpecRef.lean ====
/-
  The reference's fused prefix — from the reshape of the input into pairs to the third exponential linear unit — as one
  pure term over the operations the reference applies, in its order, and that term read at one entry: the row function
  of the entry's row.

  As on the kernel's side the term is cut into the stages of the mathematics (pooling, row statistics, normalization,
  dense layer, unit), each written once with the host's operations and read at an entry; the flat term is the
  composition of the stages by unfolding.  The host's sums start from the word of zero, which denotes zero; its unit
  is jax's spelling, which the row function's unit equals on every extended real.
-/
import proofs.«106491_j82652350644592_2_alg».proof.Proof.Gen.ReferenceIdeal
import proofs.«106491_j82652350644592_2_alg».proof.Proof.SpecRow
import proofs.«106491_j82652350644592_2_alg».proof.Proof.SpecOps
import proofs.«106491_j82652350644592_2_alg».proof.Proof.LibDense
import proofs.«106491_j82652350644592_2_alg».proof.Proof.LibColumns

noncomputable section

open scoped BigOperators

namespace Cert.SpecR

open Idealize.ShloMosaic Idealize.ShloMosaic.ValueIdx Cert.ReferenceIdeal

/-! ## The operations in the reference's order -/

/-- The reference's values from the reshape of the input (its line 4) to the third unit's result (its line 44), each
    bound to the operation that computes it from the earlier ones; the three calls of the unit, and the two selections
    each of them calls, are written out in place. -/
def refPrefix (x : FVec Ideal S50000x2048 .f32) (ln_g ln_b : FVec Ideal S1024 .f32) (w0 : FVec Ideal S1024x512 .f32)
    (b0 : FVec Ideal S512 .f32) (w1 : FVec Ideal S512x128 .f32) (b1 : FVec Ideal S128 .f32)
    (w2 : FVec Ideal S128x64 .f32) (b2 : FVec Ideal S64 .f32) : FVec Ideal S50000x64 .f32 :=
  have v4 : FVec Ideal S50000x1024x2 .f32 := shapeCast S50000x1024x2 x Gen.shapeCasts_S50000x2048_S50000x1024x2
  have cst : FVec Ideal S_ .f32 := constant (F := Ideal) S_ .f32 0xFF800000#32
  have v5 : FVec Ideal S50000x1024 .f32 :=
    Host.reduce (FloatOps.maximumf (F := Ideal) (φ := .f32)) v4 cst Gen.reducesTo_S50000x1024x2_S50000x1024_d2 Gen.h_S_
  have cst_0 : FVec Ideal S_ .f32 := constant (F := Ideal) S_ .f32 0x00000000#32
  have v6 : FVec Ideal S50000 .f32 := Host.reduceAdd (F := Ideal) v5 cst_0 Gen.reducesTo_S50000x1024_S50000_d1 Gen.h_S_
  have v7 : FVec Ideal S50000x1 .f32 := broadcastInDim S50000x1 ![0] Gen.bcast_S50000_S50000x1_0 v6
  have cst_1 : FVec Ideal S_ .f32 := constant (F := Ideal) S_ .f32 0x44800000#32
  have v8 : FVec Ideal S50000x1 .f32 := broadcastInDim S50000x1 ![] Gen.bcast_S_S50000x1 cst_1
  have v9 : FVec Ideal S50000x1 .f32 := Host.divf (F := Ideal) v7 v8
  have v10 : FVec Ideal S50000x1024 .f32 := broadcastInDim S50000x1024 ![0, 1] Gen.bcast_S50000x1_S50000x1024_0_1 v9
  have v11 : FVec Ideal S50000x1024 .f32 := subf v5 v10
  have v12 : FVec Ideal S50000x1024 .f32 := mulf v11 v11
  have cst_2 : FVec Ideal S_ .f32 := constant (F := Ideal) S_ .f32 0x00000000#32
  have v13 : FVec Ideal S50000 .f32 := Host.reduceAdd (F := Ideal) v12 cst_2 Gen.reducesTo_S50000x1024_S50000_d1 Gen.h_S_
  have v14 : FVec Ideal S50000x1 .f32 := broadcastInDim S50000x1 ![0] Gen.bcast_S50000_S50000x1_0 v13
  have cst_3 : FVec Ideal S_ .f32 := constant (F := Ideal) S_ .f32 0x44800000#32
  have v15 : FVec Ideal S50000x1 .f32 := broadcastInDim S50000x1 ![] Gen.bcast_S_S50000x1 cst_3
  have v16 : FVec Ideal S50000x1 .f32 := Host.divf (F := Ideal) v14 v15
  have v17 : FVec Ideal S50000x1024 .f32 := broadcastInDim S50000x1024 ![0, 1] Gen.bcast_S50000x1_S50000x1024_0_1 v9
  have v18 : FVec Ideal S50000x1024 .f32 := subf v5 v17
  have cst_4 : FVec Ideal S_ .f32 := constant (F := Ideal) S_ .f32 0x3727C5AC#32
  have v19 : FVec Ideal S50000x1 .f32 := broadcastInDim S50000x1 ![] Gen.bcast_S_S50000x1 cst_4
  have v20 : FVec Ideal S50000x1 .f32 := addf v16 v19
  have v21 : FVec Ideal S50000x1 .f32 := Host.rsqrt (F := Ideal) v20
  have v22 : FVec Ideal S50000x1024 .f32 := broadcastInDim S50000x1024 ![0, 1] Gen.bcast_S50000x1_S50000x1024_0_1 v21
  have v23 : FVec Ideal S50000x1024 .f32 := mulf v18 v22
  have v24 : FVec Ideal S1x1024 .f32 := broadcastInDim S1x1024 ![1] Gen.bcast_S1024_S1x1024_1 ln_g
  have v25 : FVec Ideal S50000x1024 .f32 := broadcastInDim S50000x1024 ![0, 1] Gen.bcast_S1x1024_S50000x1024_0_1 v24
  have v26 : FVec Ideal S50000x1024 .f32 := mulf v23 v25
  have v27 : FVec Ideal S1x1024 .f32 := broadcastInDim S1x1024 ![1] Gen.bcast_S1024_S1x1024_1 ln_b
  have v28 : FVec Ideal S50000x1024 .f32 := broadcastInDim S50000x1024 ![0, 1] Gen.bcast_S1x1024_S50000x1024_0_1 v27
  have v29 : FVec Ideal S50000x1024 .f32 := addf v26 v28
  have v30 : FVec Ideal S50000x512 .f32 :=
    Host.dotGeneral (F := Ideal) dot_S50000x1024_S1024x512_S50000x512_1_0_0_1_n_n none v29 w0
  have v31 : FVec Ideal S1x512 .f32 := broadcastInDim S1x512 ![1] Gen.bcast_S512_S1x512_1 b0
  have v32 : FVec Ideal S50000x512 .f32 := broadcastInDim S50000x512 ![0, 1] Gen.bcast_S1x512_S50000x512_0_1 v31
  have v33 : FVec Ideal S50000x512 .f32 := addf v30 v32
  -- the unit on the first layer's sums
  have c0_cst : FVec Ideal S_ .f32 := constant (F := Ideal) S_ .f32 0x00000000#32
  have c0_v0 : FVec Ideal S50000x512 .f32 := broadcastInDim S50000x512 ![] Gen.bcast_S_S50000x512 c0_cst
  have c0_v1 : IVec S50000x512 1 := cmpf .ogt v33 c0_v0
  have c0_cst_0 : FVec Ideal S_ .f32 := constant (F := Ideal) S_ .f32 0x00000000#32
  have c0_v2 : FVec Ideal S50000x512 .f32 := broadcastInDim S50000x512 ![] Gen.bcast_S_S50000x512 c0_cst_0
  have c0_v3 : IVec S50000x512 1 := cmpf .ogt v33 c0_v2
  have c0_cst_1 : FVec Ideal S_ .f32 := constant (F := Ideal) S_ .f32 0x00000000#32
  have c0_w0 : FVec Ideal S_ .f32 := id c0_cst_1
  have c0_w1 : FVec Ideal S50000x512 .f32 := broadcastInDim S50000x512 ![] Gen.bcast_S_S50000x512 c0_w0
  have c0_v4 : FVec Ideal S50000x512 .f32 := select c0_v3 c0_w1 v33
  have c0_v5 : FVec Ideal S50000x512 .f32 := Host.expm1 (F := Ideal) c0_v4
  have c0_cst_2 : FVec Ideal S_ .f32 := constant (F := Ideal) S_ .f32 0x3F800000#32
  have c0_v6 : FVec Ideal S50000x512 .f32 := broadcastInDim S50000x512 ![] Gen.bcast_S_S50000x512 c0_cst_2
  have c0_v7 : FVec Ideal S50000x512 .f32 := mulf c0_v6 c0_v5
  have v34 : FVec Ideal S50000x512 .f32 := select c0_v1 v33 c0_v7
  have v35 : FVec Ideal S50000x128 .f32 :=
    Host.dotGeneral (F := Ideal) dot_S50000x512_S512x128_S50000x128_1_0_0_1_n_n none v34 w1
  have v36 : FVec Ideal S1x128 .f32 := broadcastInDim S1x128 ![1] Gen.bcast_S128_S1x128_1 b1
  have v37 : FVec Ideal S50000x128 .f32 := broadcastInDim S50000x128 ![0, 1] Gen.bcast_S1x128_S50000x128_0_1 v36
  have v38 : FVec Ideal S50000x128 .f32 := addf v35 v37
  -- the unit on the second layer's sums
  have c1_cst : FVec Ideal S_ .f32 := constant (F := Ideal) S_ .f32 0x00000000#32
  have c1_v0 : FVec Ideal S50000x128 .f32 := broadcastInDim S50000x128 ![] Gen.bcast_S_S50000x128 c1_cst
  have c1_v1 : IVec S50000x128 1 := cmpf .ogt v38 c1_v0
  have c1_cst_0 : FVec Ideal S_ .f32 := constant (F := Ideal) S_ .f32 0x00000000#32
  have c1_v2 : FVec Ideal S50000x128 .f32 := broadcastInDim S50000x128 ![] Gen.bcast_S_S50000x128 c1_cst_0
  have c1_v3 : IVec S50000x128 1 := cmpf .ogt v38 c1_v2
  have c1_cst_1 : FVec Ideal S_ .f32 := constant (F := Ideal) S_ .f32 0x00000000#32
  have c1_w0 : FVec Ideal S_ .f32 := id c1_cst_1
  have c1_w1 : FVec Ideal S50000x128 .f32 := broadcastInDim S50000x128 ![] Gen.bcast_S_S50000x128 c1_w0
  have c1_v4 : FVec Ideal S50000x128 .f32 := select c1_v3 c1_w1 v38
  have c1_v5 : FVec Ideal S50000x128 .f32 := Host.expm1 (F := Ideal) c1_v4
  have c1_cst_2 : FVec Ideal S_ .f32 := constant (F := Ideal) S_ .f32 0x3F800000#32
  have c1_v6 : FVec Ideal S50000x128 .f32 := broadcastInDim S50000x128 ![] Gen.bcast_S_S50000x128 c1_cst_2
  have c1_v7 : FVec Ideal S50000x128 .f32 := mulf c1_v6 c1_v5
  have v39 : FVec Ideal S50000x128 .f32 := select c1_v1 v38 c1_v7
  have v40 : FVec Ideal S50000x64 .f32 :=
    Host.dotGeneral (F := Ideal) dot_S50000x128_S128x64_S50000x64_1_0_0_1_n_n none v39 w2
  have v41 : FVec Ideal S1x64 .f32 := broadcastInDim S1x64 ![1] Gen.bcast_S64_S1x64_1 b2
  have v42 : FVec Ideal S50000x64 .f32 := broadcastInDim S50000x64 ![0, 1] Gen.bcast_S1x64_S50000x64_0_1 v41
  have v43 : FVec Ideal S50000x64 .f32 := addf v40 v42
  -- the unit on the third layer's sums
  have c2_cst : FVec Ideal S_ .f32 := constant (F := Ideal) S_ .f32 0x00000000#32
  have c2_v0 : FVec Ideal S50000x64 .f32 := broadcastInDim S50000x64 ![] Gen.bcast_S_S50000x64 c2_cst
  have c2_v1 : IVec S50000x64 1 := cmpf .ogt v43 c2_v0
  have c2_cst_0 : FVec Ideal S_ .f32 := constant (F := Ideal) S_ .f32 0x00000000#32
  have c2_v2 : FVec Ideal S50000x64 .f32 := broadcastInDim S50000x64 ![] Gen.bcast_S_S50000x64 c2_cst_0
  have c2_v3 : IVec S50000x64 1 := cmpf .ogt v43 c2_v2
  have c2_cst_1 : FVec Ideal S_ .f32 := constant (F := Ideal) S_ .f32 0x00000000#32
  have c2_w0 : FVec Ideal S_ .f32 := id c2_cst_1
  have c2_w1 : FVec Ideal S50000x64 .f32 := broadcastInDim S50000x64 ![] Gen.bcast_S_S50000x64 c2_w0
  have c2_v4 : FVec Ideal S50000x64 .f32 := select c2_v3 c2_w1 v43
  have c2_v5 : FVec Ideal S50000x64 .f32 := Host.expm1 (F := Ideal) c2_v4
  have c2_cst_2 : FVec Ideal S_ .f32 := constant (F := Ideal) S_ .f32 0x3F800000#32
  have c2_v6 : FVec Ideal S50000x64 .f32 := broadcastInDim S50000x64 ![] Gen.bcast_S_S50000x64 c2_cst_2
  have c2_v7 : FVec Ideal S50000x64 .f32 := mulf c2_v6 c2_v5
  have v44 : FVec Ideal S50000x64 .f32 := select c2_v1 v43 c2_v7
  v44

/-! ## Pooling -/

/-- The pooled array: the columns viewed as pairs, the maximum over each pair from the bottom element. -/
def poolR (x : FVec Ideal S50000x2048 .f32) : FVec Ideal S50000x1024 .f32 :=
  Host.reduce (FloatOps.maximumf (F := Ideal) (φ := .f32))
    (shapeCast S50000x1024x2 x Gen.shapeCasts_S50000x2048_S50000x1024x2) (constant (F := Ideal) S_ .f32 0xFF800000#32)
    Gen.reducesTo_S50000x1024x2_S50000x1024_d2 Gen.h_S_

theorem poolR_apply (x : FVec Ideal S50000x2048 .f32) (r : Fin 50000) (j : Fin 1024) :
    poolR x (ix2 r j) = Spec.pool (fun j => x (ix2 r j)) j :=
  (SpecOps.hostMax_apply _ _ _ _ r j).trans
    (congrArg (fun f => (Finset.univ : Finset (Fin 2)).fold max (Ideal.ofBits .f32 0xFF800000#32) f)
      (funext fun c => SpecOps.pairs_apply x _ r j c _))

/-! ## Row statistics -/

/-- The sums along the rows, from the word of zero, as a column. -/
def sumRowR (y : FVec Ideal S50000x1024 .f32) : FVec Ideal S50000x1 .f32 :=
  broadcastInDim S50000x1 ![0] Gen.bcast_S50000_S50000x1_0
    (Host.reduceAdd (F := Ideal) y (constant (F := Ideal) S_ .f32 0x00000000#32) Gen.reducesTo_S50000x1024_S50000_d1 Gen.h_S_)

theorem sumRowR_apply (y : FVec Ideal S50000x1024 .f32) (r : Fin 50000) (u : Fin 1) :
    sumRowR y (ix2 r u) = ∑ k : Fin 1024, y (ix2 r k) := by
  refine (Cert.Columns.bcast_col_apply _ _ r u).trans ?_
  refine (SpecOps.hostSum_apply y _ _ _ r).trans ?_
  show Ideal.ofBits .f32 0x00000000#32 + _ = _
  rw [Ideal.ofBits_zero_f32, zero_add]

/-- The row sums divided by the row length. -/
def meanR (y : FVec Ideal S50000x1024 .f32) : FVec Ideal S50000x1 .f32 :=
  Host.divf (F := Ideal) (sumRowR y)
    (broadcastInDim S50000x1 ![] Gen.bcast_S_S50000x1 (constant (F := Ideal) S_ .f32 0x44800000#32))

theorem meanR_apply (y : FVec Ideal S50000x1024 .f32) (r : Fin 50000) (u : Fin 1) :
    meanR y (ix2 r u) = Spec.mean (fun j => y (ix2 r j)) := by
  unfold meanR Spec.mean
  show Ideal.div (sumRowR y (ix2 r u)) _ = _
  rw [sumRowR_apply]
  rfl

/-- The deviations from the row means. -/
def centR (y : FVec Ideal S50000x1024 .f32) : FVec Ideal S50000x1024 .f32 :=
  subf y (broadcastInDim S50000x1024 ![0, 1] Gen.bcast_S50000x1_S50000x1024_0_1 (meanR y))

theorem centR_apply (y : FVec Ideal S50000x1024 .f32) (r : Fin 50000) (j : Fin 1024) :
    centR y (ix2 r j) = y (ix2 r j) - Spec.mean (fun j => y (ix2 r j)) := by
  unfold centR
  rw [subf_apply, Cert.Columns.spread_col_apply, meanR_apply]

/-- The row variances. -/
def varR (y : FVec Ideal S50000x1024 .f32) : FVec Ideal S50000x1 .f32 :=
  Host.divf (F := Ideal) (sumRowR (mulf (centR y) (centR y)))
    (broadcastInDim S50000x1 ![] Gen.bcast_S_S50000x1 (constant (F := Ideal) S_ .f32 0x44800000#32))

theorem varR_apply (y : FVec Ideal S50000x1024 .f32) (r : Fin 50000) (u : Fin 1) :
    varR y (ix2 r u) = Spec.var (fun j => y (ix2 r j)) := by
  unfold varR Spec.var
  show Ideal.div (sumRowR (mulf (centR y) (centR y)) (ix2 r u)) _ = _
  rw [sumRowR_apply]
  simp only [mulf_apply, centR_apply]
  rfl

/-- The normalized array, scaled and shifted by the two vectors laid out as rows. -/
def normR (y : FVec Ideal S50000x1024 .f32) (g b : FVec Ideal S1024 .f32) : FVec Ideal S50000x1024 .f32 :=
  addf
    (mulf
      (mulf (centR y)
        (broadcastInDim S50000x1024 ![0, 1] Gen.bcast_S50000x1_S50000x1024_0_1
          (Host.rsqrt (F := Ideal)
            (addf (varR y)
              (broadcastInDim S50000x1 ![] Gen.bcast_S_S50000x1 (constant (F := Ideal) S_ .f32 0x3727C5AC#32))))))
      (broadcastInDim S50000x1024 ![0, 1] Gen.bcast_S1x1024_S50000x1024_0_1
        (broadcastInDim S1x1024 ![1] Gen.bcast_S1024_S1x1024_1 g)))
    (broadcastInDim S50000x1024 ![0, 1] Gen.bcast_S1x1024_S50000x1024_0_1
      (broadcastInDim S1x1024 ![1] Gen.bcast_S1024_S1x1024_1 b))

theorem normR_apply (y : FVec Ideal S50000x1024 .f32) (g b : FVec Ideal S1024 .f32) (r : Fin 50000) (j : Fin 1024) :
    normR y g b (ix2 r j) = Spec.norm (fun j => y (ix2 r j)) (fun j => g (ix1 j)) (fun j => b (ix1 j)) j := by
  unfold normR Spec.norm
  rw [addf_apply, mulf_apply, mulf_apply, centR_apply, Cert.Columns.spread_col_apply, Cert.Columns.spread_row_apply,
    Cert.Columns.spread_row_apply, Cert.Columns.bcast_row_apply, Cert.Columns.bcast_row_apply]
  rw [show Host.rsqrt (F := Ideal)
        (addf (varR y) (broadcastInDim S50000x1 ![] Gen.bcast_S_S50000x1 (constant (F := Ideal) S_ .f32 0x3727C5AC#32)))
        (ix2 r (0 : Fin 1))
      = Ideal.rsqrt (varR y (ix2 r (0 : Fin 1)) + Ideal.ofBits .f32 0x3727C5AC#32) from rfl, varR_apply]

/-! ## A dense layer and the unit -/

/-- A dense layer as the reference computes it: the host's product with the weights plus the bias laid out as a row
    and repeated down the rows. -/
def denseR {R K N : ℕ} (w : DotDims.WF ⟨2, ![R, K]⟩ ⟨2, ![K, N]⟩ ⟨2, ![R, N]⟩ [1] [0] [0] [1] [] [])
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (y : FVec Ideal ⟨2, ![R, K]⟩ .f32) (W : FVec Ideal ⟨2, ![K, N]⟩ .f32) (B : FVec Ideal ⟨1, ![N]⟩ .f32) :
    FVec Ideal ⟨2, ![R, N]⟩ .f32 :=
  addf
    (Host.dotGeneral (F := Ideal) (⟨[1], [0], [0], [1], [], [], w⟩ : DotDims ⟨2, ![R, K]⟩ ⟨2, ![K, N]⟩ ⟨2, ![R, N]⟩) none y W)
    (broadcastInDim ⟨2, ![R, N]⟩ (![0, 1] : Fin 2 → Fin 2) h2 (broadcastInDim ⟨2, ![1, N]⟩ (![1] : Fin 1 → Fin 2) h1 B))

theorem denseR_apply {R K N : ℕ} (w : DotDims.WF ⟨2, ![R, K]⟩ ⟨2, ![K, N]⟩ ⟨2, ![R, N]⟩ [1] [0] [0] [1] [] [])
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (y : FVec Ideal ⟨2, ![R, K]⟩ .f32) (W : FVec Ideal ⟨2, ![K, N]⟩ .f32) (B : FVec Ideal ⟨1, ![N]⟩ .f32)
    (r : Fin R) (n : Fin N) :
    denseR w h1 h2 y W B (ix2 r n)
      = Spec.dense (fun k => y (ix2 r k)) (fun k n => W (ix2 k n)) (fun n => B (ix1 n)) n := by
  unfold denseR Spec.dense
  rw [addf_apply, Cert.Dense.hostDot_plain_apply, Cert.Columns.spread_row_apply, Cert.Columns.bcast_row_apply]

/-- The unit as jax spells it on the host: where the argument is above zero the argument, elsewhere one times
    (exp − 1) of the argument with its positive entries replaced by zero. -/
def eluR {s : Shape} (hb : (⟨0, ![]⟩ : Shape).BroadcastsInDim s (![] : Fin 0 → Fin s.rank)) (z : FVec Ideal s .f32) :
    FVec Ideal s .f32 :=
  select (cmpf .ogt z (broadcastInDim s ![] hb (constant (F := Ideal) S_ .f32 0x00000000#32))) z
    (mulf (broadcastInDim s ![] hb (constant (F := Ideal) S_ .f32 0x3F800000#32))
      (Host.expm1 (F := Ideal)
        (select (cmpf .ogt z (broadcastInDim s ![] hb (constant (F := Ideal) S_ .f32 0x00000000#32)))
          (broadcastInDim s ![] hb (id (constant (F := Ideal) S_ .f32 0x00000000#32))) z)))

theorem eluR_apply {s : Shape} (hb : (⟨0, ![]⟩ : Shape).BroadcastsInDim s (![] : Fin 0 → Fin s.rank))
    (z : FVec Ideal s .f32) (i : s.Idx) : eluR hb z i = Spec.elu (z i) :=
  Spec.elu_jax (z i)

/-- A layer read at an entry, from the row of its input. -/
theorem layerR_row {R K N : ℕ} (w : DotDims.WF ⟨2, ![R, K]⟩ ⟨2, ![K, N]⟩ ⟨2, ![R, N]⟩ [1] [0] [0] [1] [] [])
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (hb : (⟨0, ![]⟩ : Shape).BroadcastsInDim ⟨2, ![R, N]⟩ (![] : Fin 0 → Fin 2))
    (y : FVec Ideal ⟨2, ![R, K]⟩ .f32) (W : FVec Ideal ⟨2, ![K, N]⟩ .f32) (B : FVec Ideal ⟨1, ![N]⟩ .f32)
    (r : Fin R) (n : Fin N) (yr : Fin K → EReal) (hy : ∀ k, y (ix2 r k) = yr k) :
    eluR hb (denseR w h1 h2 y W B) (ix2 r n) = Spec.layer yr (fun k n => W (ix2 k n)) (fun n => B (ix1 n)) n := by
  obtain rfl : yr = fun k => y (ix2 r k) := funext fun k => (hy k).symm
  rw [eluR_apply, denseR_apply]
  rfl

/-! ## The flat term is the composition of the stages -/

theorem refPrefix_eq (x : FVec Ideal S50000x2048 .f32) (ln_g ln_b : FVec Ideal S1024 .f32) (w0 : FVec Ideal S1024x512 .f32)
    (b0 : FVec Ideal S512 .f32) (w1 : FVec Ideal S512x128 .f32) (b1 : FVec Ideal S128 .f32)
    (w2 : FVec Ideal S128x64 .f32) (b2 : FVec Ideal S64 .f32) :
    refPrefix x ln_g ln_b w0 b0 w1 b1 w2 b2
      = eluR Gen.bcast_S_S50000x64
          (denseR Gen.dot_S50000x128_S128x64_S50000x64_1_0_0_1_n_n_wf Gen.bcast_S64_S1x64_1 Gen.bcast_S1x64_S50000x64_0_1
            (eluR Gen.bcast_S_S50000x128
              (denseR Gen.dot_S50000x512_S512x128_S50000x128_1_0_0_1_n_n_wf Gen.bcast_S128_S1x128_1
                Gen.bcast_S1x128_S50000x128_0_1
                (eluR Gen.bcast_S_S50000x512
                  (denseR Gen.dot_S50000x1024_S1024x512_S50000x512_1_0_0_1_n_n_wf Gen.bcast_S512_S1x512_1
                    Gen.bcast_S1x512_S50000x512_0_1 (normR (poolR x) ln_g ln_b) w0 b0))
                w1 b1))
            w2 b2) := rfl

/-! ## The reference's prefix at an entry -/

/-- Entry (n, q) of the third unit's result is the row function of row n of the input. -/
theorem refPrefix_apply (x : FVec Ideal S50000x2048 .f32) (ln_g ln_b : FVec Ideal S1024 .f32)
    (w0 : FVec Ideal S1024x512 .f32) (b0 : FVec Ideal S512 .f32) (w1 : FVec Ideal S512x128 .f32)
    (b1 : FVec Ideal S128 .f32) (w2 : FVec Ideal S128x64 .f32) (b2 : FVec Ideal S64 .f32)
    (n : Fin 50000) (q : Fin 64) :
    refPrefix x ln_g ln_b w0 b0 w1 b1 w2 b2 (ix2 n q)
      = Spec.rowFn (fun j => x (ix2 n j)) (fun j => ln_g (ix1 j)) (fun j => ln_b (ix1 j))
          (fun k m => w0 (ix2 k m)) (fun m => b0 (ix1 m)) (fun k m => w1 (ix2 k m)) (fun m => b1 (ix1 m))
          (fun k m => w2 (ix2 k m)) (fun m => b2 (ix1 m)) q := by
  rw [refPrefix_eq]
  unfold Spec.rowFn
  exact layerR_row _ _ _ _ _ _ _ n q _ fun k =>
    layerR_row _ _ _ _ _ _ _ n k _ fun k =>
      layerR_row _ _ _ _ _ _ _ n k _ fun k =>
        (normR_apply _ _ _ n k).trans
          (congrArg (fun h => Spec.norm h (fun j => ln_g (ix1 j)) (fun j => ln_b (ix1 j)) k)
            (funext fun j => poolR_apply x n j))

end Cert.SpecR

end
-- ==== Proof.ValFinal.lean ====
/-
  The [50000, 64] activations the region writes, as one function of the arguments. Grid point `t` writes back rows
  `1000·t … 1000·t + 999` in five slabs of 200 rows; a slab's row `r`, column `q` is the row function — pairwise
  maxima, normalisation over the 1024 maxima with the scale and shift, three dense layers each followed by ELU — of
  row `1000·t + 200·k + r` of `x` and the parameters. Row by row this is the reference's prefix of the same
  arguments, so the array after the run is that prefix.
-/
import proofs.«106491_j82652350644592_2_alg».proof.Proof.KIBodyValue
import proofs.«106491_j82652350644592_2_alg».proof.Proof.ValBlocks
import proofs.«106491_j82652350644592_2_alg».proof.Proof.SpecKernel
import proofs.«106491_j82652350644592_2_alg».proof.Proof.SpecRef
import Idealize.ShloMosaic.Lib.Pipeline.Value
import Idealize.ShloMosaic.Lib.ValueIdx

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.KernelIdeal.Blocks

variable (m : (ℓ : Loc nD τ sig) → Buf (Elt Ideal) ℓ)

/-- The activations: the reference's prefix of the arguments (the array `x`, the LayerNorm scale and shift, the three
    weight matrices and biases) as the launch memory holds them. -/
def acts (c : Dev nD) : S50000x64.Idx → EReal :=
  Cert.SpecR.refPrefix (m ((c : Thread nD τ).loc main_arg0)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-- A row vector [n] re-laid as [1, n] reads, at (0, j), the vector at j. -/
theorem row_of_vec {n : Nat} (v : (⟨1, ![n]⟩ : Shape).Idx → EReal) (h : (⟨1, ![n]⟩ : Shape).ShapeCasts ⟨2, ![1, n]⟩) (j : Fin n) :
    shapeCast (⟨2, ![1, n]⟩ : Shape) v h (ix2 (n0 := 1) (n1 := n) 0 j) = v (ix1 j) := by
  refine shapeCast_apply v h _ _ ?_
  rw [Shape.rowMajor_val_one, Shape.rowMajor_val_two]
  show (j : Nat) = 0 * n + (j : Nat)
  omega

/-! ## The staged parameters, as the arguments -/

/-- The LayerNorm scale the body reads is the argument vector. -/
theorem scale_at (c : Dev nD) (t : Fin cfg0.N) (j : Fin 1024) :
    (iblk m c 1 t : Vec Ideal S1x1024 .f32) (ix2 (n0 := 1) (n1 := 1024) 0 j) = ((m ((c : Thread nD τ).loc main_arg3)) : S1024.Idx → EReal) (ix1 j) := by
  refine (iblk1_apply m c t _ (ix2 (n0 := 1) (n1 := 1024) 0 j) rfl rfl).trans ?_
  rw [V_scale]
  exact row_of_vec _ _ j

/-- The LayerNorm shift the body reads is the argument vector. -/
theorem shift_at (c : Dev nD) (t : Fin cfg0.N) (j : Fin 1024) :
    (iblk m c 2 t : Vec Ideal S1x1024 .f32) (ix2 (n0 := 1) (n1 := 1024) 0 j) = ((m ((c : Thread nD τ).loc main_arg4)) : S1024.Idx → EReal) (ix1 j) := by
  refine (iblk2_apply m c t _ (ix2 (n0 := 1) (n1 := 1024) 0 j) rfl rfl).trans ?_
  rw [V_shift]
  exact row_of_vec _ _ j

/-- The first layer's weights: the argument matrix (a change of format is the identity on the extended reals). -/
theorem w0_at (c : Dev nD) (t : Fin cfg0.N) (k : Fin 1024) (n : Fin 512) :
    (iblk m c 3 t : Vec Ideal S1024x512 .bf16) (ix2 (n0 := 1024) (n1 := 512) k n) = ((m ((c : Thread nD τ).loc main_arg5)) : S1024x512.Idx → EReal) (ix2 (n0 := 1024) (n1 := 512) k n) := by
  refine (iblk3_apply m c t _ (ix2 (n0 := 1024) (n1 := 512) k n) rfl rfl).trans ?_
  rw [V_w0]
  rfl

/-- The first layer's bias is the argument vector. -/
theorem b0_at (c : Dev nD) (t : Fin cfg0.N) (j : Fin 512) :
    (iblk m c 4 t : Vec Ideal S1x512 .f32) (ix2 (n0 := 1) (n1 := 512) 0 j) = ((m ((c : Thread nD τ).loc main_arg6)) : S512.Idx → EReal) (ix1 j) := by
  refine (iblk4_apply m c t _ (ix2 (n0 := 1) (n1 := 512) 0 j) rfl rfl).trans ?_
  rw [V_b0]
  exact row_of_vec _ _ j

/-- The second layer's weights: the argument matrix. -/
theorem w1_at (c : Dev nD) (t : Fin cfg0.N) (k : Fin 512) (n : Fin 128) :
    (iblk m c 5 t : Vec Ideal S512x128 .bf16) (ix2 (n0 := 512) (n1 := 128) k n) = ((m ((c : Thread nD τ).loc main_arg7)) : S512x128.Idx → EReal) (ix2 (n0 := 512) (n1 := 128) k n) := by
  refine (iblk5_apply m c t _ (ix2 (n0 := 512) (n1 := 128) k n) rfl rfl).trans ?_
  rw [V_w1]
  rfl

/-- The second layer's bias is the argument vector. -/
theorem b1_at (c : Dev nD) (t : Fin cfg0.N) (j : Fin 128) :
    (iblk m c 6 t : Vec Ideal S1x128 .f32) (ix2 (n0 := 1) (n1 := 128) 0 j) = ((m ((c : Thread nD τ).loc main_arg8)) : S128.Idx → EReal) (ix1 j) := by
  refine (iblk6_apply m c t _ (ix2 (n0 := 1) (n1 := 128) 0 j) rfl rfl).trans ?_
  rw [V_b1]
  exact row_of_vec _ _ j

/-- The third layer's weights: the argument matrix. -/
theorem w2_at (c : Dev nD) (t : Fin cfg0.N) (k : Fin 128) (n : Fin 64) :
    (iblk m c 7 t : Vec Ideal S128x64 .bf16) (ix2 (n0 := 128) (n1 := 64) k n) = ((m ((c : Thread nD τ).loc main_arg9)) : S128x64.Idx → EReal) (ix2 (n0 := 128) (n1 := 64) k n) := by
  refine (iblk7_apply m c t _ (ix2 (n0 := 128) (n1 := 64) k n) rfl rfl).trans ?_
  rw [V_w2]
  rfl

/-- The third layer's bias is the argument vector. -/
theorem b2_at (c : Dev nD) (t : Fin cfg0.N) (j : Fin 64) :
    (iblk m c 8 t : Vec Ideal S1x64 .f32) (ix2 (n0 := 1) (n1 := 64) 0 j) = ((m ((c : Thread nD τ).loc main_arg10)) : S64.Idx → EReal) (ix1 j) := by
  refine (iblk8_apply m c t _ (ix2 (n0 := 1) (n1 := 64) 0 j) rfl rfl).trans ?_
  rw [V_b2]
  exact row_of_vec _ _ j

/-- Slab `k`, row `r` of the block of `x` at point `t` is row `1000·t + 200·k + r` of the argument. -/
theorem x_row (c : Dev nD) (t : Fin cfg0.N) (k : Fin k0_t1_loop.trips) (r : Fin 200) (j : Fin 2048)
    (hr : 200 * k.val + r.val < 1000) (hn : 1000 * t.val + (200 * k.val + r.val) < 50000) :
    slab0 (iblk m c 0 t) k (ix2 (n0 := 200) (n1 := 2048) r j)
      = ((m ((c : Thread nD τ).loc main_arg0)) : S50000x2048.Idx → EReal) (ix2 (n0 := 50000) (n1 := 2048) ⟨1000 * t.val + (200 * k.val + r.val), hn⟩ j) := by
  refine (slab0_apply _ k r j hr).trans ?_
  refine (iblk0_apply m c t _ (ix2 (n0 := 50000) (n1 := 2048) ⟨1000 * t.val + (200 * k.val + r.val), hn⟩ j) rfl rfl).trans ?_
  rw [V_arg0]

/-! ## What a point writes back, and the array after the run -/

set_option maxHeartbeats 1000000 in
/-- Row `y0`, column `y1` of what point `t` stores is the activations at row `1000·t + y0`, column `y1`: both are the
    row function of that row of `x` and the parameters. -/
theorem block_row (c : Dev nD) (t : Fin cfg0.N) (y0 : Fin 1000) (y1 : Fin 64) (hn : 1000 * t.val + y0.val < 50000) :
    blockOut (iblk m c 0 t) (iblk m c 1 t) (iblk m c 2 t) (iblk m c 3 t) (iblk m c 4 t) (iblk m c 5 t) (iblk m c 6 t) (iblk m c 7 t) (iblk m c 8 t) (ix2 (n0 := 1000) (n1 := 64) y0 y1)
      = acts m c (ix2 (n0 := 50000) (n1 := 64) ⟨1000 * t.val + y0.val, hn⟩ y1) := by
  have hy0 : y0.val < 1000 := y0.isLt
  have hk : y0.val / 200 < k0_t1_loop.trips := by rw [trips_eq]; omega
  have hr : y0.val % 200 < 200 := Nat.mod_lt _ (by norm_num)
  refine (blockOut_at _ _ _ _ _ _ _ _ _ _ ⟨y0.val / 200, hk⟩
    (ix2 (n0 := 200) (n1 := 64) ⟨y0.val % 200, hr⟩ y1)
    (by show y0.val = 200 * (y0.val / 200) + y0.val % 200; omega) rfl).trans ?_
  unfold slabOut
  refine (Cert.SpecK.kernel_payload_apply _ _ _ _ _ _ _ _ _ _ _).trans ?_
  unfold acts
  refine Eq.trans ?_ (Cert.SpecR.refPrefix_apply _ _ _ _ _ _ _ _ _ ⟨1000 * t.val + y0.val, hn⟩ y1).symm
  have a0 : (fun j => slab0 (iblk m c 0 t) ⟨y0.val / 200, hk⟩ (ix2 (n0 := 200) (n1 := 2048) ⟨y0.val % 200, hr⟩ j))
      = fun j => ((m ((c : Thread nD τ).loc main_arg0)) : S50000x2048.Idx → EReal) (ix2 (n0 := 50000) (n1 := 2048) ⟨1000 * t.val + y0.val, hn⟩ j) := by
    funext j
    refine (x_row m c t ⟨y0.val / 200, hk⟩ ⟨y0.val % 200, hr⟩ j (by show 200 * (y0.val / 200) + y0.val % 200 < 1000; omega)
      (by show 1000 * t.val + (200 * (y0.val / 200) + y0.val % 200) < 50000; omega)).trans ?_
    congr 2
    apply Fin.ext
    show 1000 * t.val + (200 * (y0.val / 200) + y0.val % 200) = 1000 * t.val + y0.val
    omega
  have a1 := funext (scale_at m c t)
  have a2 := funext (shift_at m c t)
  have a3 : (fun k n => (iblk m c 3 t : Vec Ideal S1024x512 .bf16) (ix2 (n0 := 1024) (n1 := 512) k n)) = _ := funext fun k => funext fun n => w0_at m c t k n
  have a4 := funext (b0_at m c t)
  have a5 : (fun k n => (iblk m c 5 t : Vec Ideal S512x128 .bf16) (ix2 (n0 := 512) (n1 := 128) k n)) = _ := funext fun k => funext fun n => w1_at m c t k n
  have a6 := funext (b1_at m c t)
  have a7 : (fun k n => (iblk m c 7 t : Vec Ideal S128x64 .bf16) (ix2 (n0 := 128) (n1 := 64) k n)) = _ := funext fun k => funext fun n => w2_at m c t k n
  have a8 := funext (b2_at m c t)
  rw [a0, a1, a2, a3, a4, a5, a6, a7, a8]

/-- An entry of the output block at point `t` sits in the array at row `1000·t +` its row, at its own column. -/
theorem out_emb (t : Fin cfg0.N) (y : ((cfg0.win 9).xblock (cfg0.grid.coords t)).Idx)
    (hn : 1000 * t.val + (y 0).val < 50000) (hy1 : (y 1).val < 64) :
    ((cfg0.win 9).blk t).view.emb y = ix2 (n0 := 50000) (n1 := 64) ⟨1000 * t.val + (y 0).val, hn⟩ ⟨(y 1).val, hy1⟩ := by
  obtain ⟨e0, e1, -⟩ := index_facts t
  funext a; apply Fin.ext
  match a with
  | ⟨0, _⟩ => show win0_9.index t 0 * 1000 + 1 * (y 0).val = 1000 * t.val + (y 0).val; rw [e0]; omega
  | ⟨1, _⟩ => show win0_9.index t 1 * 64 + 1 * (y 1).val = (y 1).val; rw [e1]; omega

/-- Any array read through the output window's block at point `t`. -/
theorem read_out_block (G : S50000x64.Idx → EReal) (t : Fin cfg0.N) (y : ((cfg0.win 9).xblock (cfg0.grid.coords t)).Idx) :
    ((cfg0.win 9).blk t).view.read (Elt Ideal) G y = G (((cfg0.win 9).blk t).view.emb y) := by
  rw [View.read_apply]
  rfl

/-- The part of a staged block that is written back is, for this window, all of it. -/
theorem cut_out_block (X : Vec Ideal S1000x64 .f32) (t : Fin cfg0.N) (y : ((cfg0.win 9).xblock (cfg0.grid.coords t)).Idx)
    (hy0 : (y 0).val < 1000) (hy1 : (y 1).val < 64) :
    (cfg0.win 9).cut (grid0.coords t) X y = X (ix2 (n0 := 1000) (n1 := 64) ⟨(y 0).val, hy0⟩ ⟨(y 1).val, hy1⟩) := by
  show X ((cfg0.win 9).xinj (grid0.coords t) y) = _
  congr 1
  funext a; apply Fin.ext
  match a with
  | ⟨0, _⟩ => rfl
  | ⟨1, _⟩ => rfl

set_option maxHeartbeats 1000000 in
/-- Point `t` writes back block `t` of the activations. -/
theorem flushed_eq (c : Dev nD) (t : Fin cfg0.N) :
    (dats m 0 c).flushed 9 t = ((cfg0.win 9).blk t).view.read (Elt Ideal) (acts m c) := by
  show (cfg0.win 9).cut (grid0.coords t) ((dats m 0 c).after 9 t) = _
  rw [after0_9]
  unfold outsAt0
  rw [out0_9_eq]
  funext y
  have hy0 : (y 0).val < 1000 := (y 0).isLt
  have hy1 : (y 1).val < 64 := (y 1).isLt
  have ht : t.val < 50 := lt_of_lt_of_eq t.isLt N_0
  have hn : 1000 * t.val + (y 0).val < 50000 := by omega
  rw [read_out_block, out_emb t y hn hy1, cut_out_block _ t y hy0 hy1]
  exact block_row m c t ⟨(y 0).val, hy0⟩ ⟨(y 1).val, hy1⟩ hn

/-- After the run the output array holds the activations. -/
theorem final (c : Dev nD) : (dats m 0 c).arrAt 9 cfg0.N = acts m c :=
  (dats m 0 c).arrAt_eq_of_cover 9 (acts m c) (fun t _ => flushed_eq m c t) out_covered

end Cert.KernelIdeal.Final

end
-- ==== Proof.ValTail.lean ====
/-
  After the fused prefix both programs apply the same host operations to the [50000, 64] activations: two graph
  convolutions (in-degrees counted by a scatter-add of ones over the edges and the self-loops, clamped, their inverse
  square roots gathered at both end points and multiplied, the transformed rows gathered at the sources, scaled and
  scatter-added at the targets, bias; ELU between the two), the rows gathered at the queried edges' end points and
  concatenated, and a two-layer perceptron. Read from contents that agree on the activations, on the two edge-index
  rows and on the arguments those operations read, the two chains end in the same array: operation by operation they
  are one term.
-/
import proofs.«106491_j82652350644592_2_alg».proof.Proof.KIHostDefs
import proofs.«106491_j82652350644592_2_alg».proof.Proof.RefOps
import Idealize.ShloMosaic.Lib.StableHlo.Run
import Idealize.ShloMosaic.PureOps.Ideal

noncomputable section

namespace Cert.Tail

open Idealize.ShloMosaic Idealize.ShloMosaic.TcCoe Idealize.SL.Sem
open Idealize.ShloMosaic.StableHlo

/-- A concatenation of two arrays, its operands plain arguments (the list of shape–array pairs spelt out). -/
def concat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = concat2 t a s₁ s₂ h x₁ x₂ := rfl

set_option maxHeartbeats 8000000 in
set_option maxRecDepth 65536 in
/-- The two chains from agreeing contents end in one array. -/
theorem tail_agree (WK : Valuation Cert.KernelIdeal.τ Cert.KernelIdeal.sig (Elt Ideal)) (WR : Valuation Cert.ReferenceIdeal.τ Cert.ReferenceIdeal.sig (Elt Ideal))
    (hH : (WK (Proc.devRef .tc Cert.KernelIdeal.main_v12) : Cert.KernelIdeal.S50000x64.Idx → EReal) = WR (Proc.devRef .tc Cert.ReferenceIdeal.main_v44))
    (h1 : (WK (Proc.devRef .tc Cert.KernelIdeal.main_v1) : Cert.KernelIdeal.S1600000.Idx → BitVec 32) = WR (Proc.devRef .tc Cert.ReferenceIdeal.main_v1))
    (h3 : (WK (Proc.devRef .tc Cert.KernelIdeal.main_v3) : Cert.KernelIdeal.S1600000.Idx → BitVec 32) = WR (Proc.devRef .tc Cert.ReferenceIdeal.main_v3))
    (ha1 : WK (Proc.devRef .tc Cert.KernelIdeal.main_arg1) = WR (Proc.devRef .tc Cert.ReferenceIdeal.main_arg1))
    (ha2 : WK (Proc.devRef .tc Cert.KernelIdeal.main_arg2) = WR (Proc.devRef .tc Cert.ReferenceIdeal.main_arg2))
    (ha11 : WK (Proc.devRef .tc Cert.KernelIdeal.main_arg11) = WR (Proc.devRef .tc Cert.ReferenceIdeal.main_arg11))
    (ha12 : WK (Proc.devRef .tc Cert.KernelIdeal.main_arg12) = WR (Proc.devRef .tc Cert.ReferenceIdeal.main_arg12))
    (ha13 : WK (Proc.devRef .tc Cert.KernelIdeal.main_arg13) = WR (Proc.devRef .tc Cert.ReferenceIdeal.main_arg13))
    (ha14 : WK (Proc.devRef .tc Cert.KernelIdeal.main_arg14) = WR (Proc.devRef .tc Cert.ReferenceIdeal.main_arg14))
    (ha15 : WK (Proc.devRef .tc Cert.KernelIdeal.main_arg15) = WR (Proc.devRef .tc Cert.ReferenceIdeal.main_arg15))
    (ha16 : WK (Proc.devRef .tc Cert.KernelIdeal.main_arg16) = WR (Proc.devRef .tc Cert.ReferenceIdeal.main_arg16))
    (ha17 : WK (Proc.devRef .tc Cert.KernelIdeal.main_arg17) = WR (Proc.devRef .tc Cert.ReferenceIdeal.main_arg17))
    (ha18 : WK (Proc.devRef .tc Cert.KernelIdeal.main_arg18) = WR (Proc.devRef .tc Cert.ReferenceIdeal.main_arg18)) :
    (StableHlo.after (List.flatten (Cert.KernelIdeal.Hand.tails (F := Ideal))) WK (Proc.devRef .tc Cert.KernelIdeal.main_v132) : Cert.KernelIdeal.S200000x2.Idx → EReal)
      = StableHlo.after (Cert.ReferenceIdeal.HandRun.ops_tail (F := Ideal)) WR (Proc.devRef .tc Cert.ReferenceIdeal.main_v164) := by
  simp only [Cert.KernelIdeal.Hand.tails, Cert.ReferenceIdeal.HandRun.ops_tail, Cert.ReferenceIdeal.HandRun.ops_p0b, Cert.ReferenceIdeal.HandRun.ops_p1, Cert.ReferenceIdeal.HandRun.ops_p2, Cert.ReferenceIdeal.HandRun.ops_p3,
    List.flatten_cons, List.flatten_nil, List.append_nil, List.cons_append, List.nil_append]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concatenate_pair]
  rw [hH, h1, h3, ha1, ha2, ha11, ha12, ha13, ha14, ha15, ha16, ha17, ha18]
  rfl

end Cert.Tail

end
-- ==== Proof.ValEdges.lean ====
/-
  The two rows of the edge-index array, each re-laid as a vector of 1,600,000 words: both programs slice row 0 and
  row 1 out of the [2, 1600000] argument and drop the unit axis, before anything else; from equal arguments the
  vectors are equal. And the reference's operations before the graph convolutions write none of the arguments the
  later operations read.
-/
import proofs.«106491_j82652350644592_2_alg».proof.Proof.KIHostDefs
import proofs.«106491_j82652350644592_2_alg».proof.Proof.RefOps
import Idealize.ShloMosaic.Lib.StableHlo.Run
import Idealize.ShloMosaic.PureOps.Ideal

noncomputable section

namespace Cert.Tail

open Idealize.ShloMosaic Idealize.ShloMosaic.TcCoe Idealize.SL.Sem
open Idealize.ShloMosaic.StableHlo

set_option maxHeartbeats 4000000 in
/-- Row 0 of the edge index (the sources), as both programs re-lay it. -/
theorem sources_agree (VK : Valuation Cert.KernelIdeal.τ Cert.KernelIdeal.sig (Elt Ideal)) (VR : Valuation Cert.ReferenceIdeal.τ Cert.ReferenceIdeal.sig (Elt Ideal))
    (h : VK (Proc.devRef .tc Cert.KernelIdeal.main_arg1) = VR (Proc.devRef .tc Cert.ReferenceIdeal.main_arg1)) :
    (StableHlo.after (Cert.KernelIdeal.Gen.hostOps0 (F := Ideal)) VK (Proc.devRef .tc Cert.KernelIdeal.main_v1) : Cert.KernelIdeal.S1600000.Idx → BitVec 32)
      = StableHlo.after (Cert.ReferenceIdeal.HandRun.ops_pre (F := Ideal)) VR (Proc.devRef .tc Cert.ReferenceIdeal.main_v1) := by
  simp only [Cert.ReferenceIdeal.HandRun.ops_pre]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rw [h]
  rfl

set_option maxHeartbeats 4000000 in
/-- Row 1 of the edge index (the targets), as both programs re-lay it. -/
theorem targets_agree (VK : Valuation Cert.KernelIdeal.τ Cert.KernelIdeal.sig (Elt Ideal)) (VR : Valuation Cert.ReferenceIdeal.τ Cert.ReferenceIdeal.sig (Elt Ideal))
    (h : VK (Proc.devRef .tc Cert.KernelIdeal.main_arg1) = VR (Proc.devRef .tc Cert.ReferenceIdeal.main_arg1)) :
    (StableHlo.after (Cert.KernelIdeal.Gen.hostOps0 (F := Ideal)) VK (Proc.devRef .tc Cert.KernelIdeal.main_v3) : Cert.KernelIdeal.S1600000.Idx → BitVec 32)
      = StableHlo.after (Cert.ReferenceIdeal.HandRun.ops_pre (F := Ideal)) VR (Proc.devRef .tc Cert.ReferenceIdeal.main_v3) := by
  simp only [Cert.ReferenceIdeal.HandRun.ops_pre]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rw [h]
  rfl

set_option maxHeartbeats 4000000 in
theorem pre_arg1 (VR : Valuation Cert.ReferenceIdeal.τ Cert.ReferenceIdeal.sig (Elt Ideal)) :
    StableHlo.after (Cert.ReferenceIdeal.HandRun.ops_pre (F := Ideal)) VR (Proc.devRef .tc Cert.ReferenceIdeal.main_arg1) = VR (Proc.devRef .tc Cert.ReferenceIdeal.main_arg1) := by
  simp only [Cert.ReferenceIdeal.HandRun.ops_pre]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 4000000 in
theorem pre_arg2 (VR : Valuation Cert.ReferenceIdeal.τ Cert.ReferenceIdeal.sig (Elt Ideal)) :
    StableHlo.after (Cert.ReferenceIdeal.HandRun.ops_pre (F := Ideal)) VR (Proc.devRef .tc Cert.ReferenceIdeal.main_arg2) = VR (Proc.devRef .tc Cert.ReferenceIdeal.main_arg2) := by
  simp only [Cert.ReferenceIdeal.HandRun.ops_pre]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 4000000 in
theorem pre_arg11 (VR : Valuation Cert.ReferenceIdeal.τ Cert.ReferenceIdeal.sig (Elt Ideal)) :
    StableHlo.after (Cert.ReferenceIdeal.HandRun.ops_pre (F := Ideal)) VR (Proc.devRef .tc Cert.ReferenceIdeal.main_arg11) = VR (Proc.devRef .tc Cert.ReferenceIdeal.main_arg11) := by
  simp only [Cert.ReferenceIdeal.HandRun.ops_pre]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 4000000 in
theorem pre_arg12 (VR : Valuation Cert.ReferenceIdeal.τ Cert.ReferenceIdeal.sig (Elt Ideal)) :
    StableHlo.after (Cert.ReferenceIdeal.HandRun.ops_pre (F := Ideal)) VR (Proc.devRef .tc Cert.ReferenceIdeal.main_arg12) = VR (Proc.devRef .tc Cert.ReferenceIdeal.main_arg12) := by
  simp only [Cert.ReferenceIdeal.HandRun.ops_pre]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 4000000 in
theorem pre_arg13 (VR : Valuation Cert.ReferenceIdeal.τ Cert.ReferenceIdeal.sig (Elt Ideal)) :
    StableHlo.after (Cert.ReferenceIdeal.HandRun.ops_pre (F := Ideal)) VR (Proc.devRef .tc Cert.ReferenceIdeal.main_arg13) = VR (Proc.devRef .tc Cert.ReferenceIdeal.main_arg13) := by
  simp only [Cert.ReferenceIdeal.HandRun.ops_pre]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 4000000 in
theorem pre_arg14 (VR : Valuation Cert.ReferenceIdeal.τ Cert.ReferenceIdeal.sig (Elt Ideal)) :
    StableHlo.after (Cert.ReferenceIdeal.HandRun.ops_pre (F := Ideal)) VR (Proc.devRef .tc Cert.ReferenceIdeal.main_arg14) = VR (Proc.devRef .tc Cert.ReferenceIdeal.main_arg14) := by
  simp only [Cert.ReferenceIdeal.HandRun.ops_pre]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 4000000 in
theorem pre_arg15 (VR : Valuation Cert.ReferenceIdeal.τ Cert.ReferenceIdeal.sig (Elt Ideal)) :
    StableHlo.after (Cert.ReferenceIdeal.HandRun.ops_pre (F := Ideal)) VR (Proc.devRef .tc Cert.ReferenceIdeal.main_arg15) = VR (Proc.devRef .tc Cert.ReferenceIdeal.main_arg15) := by
  simp only [Cert.ReferenceIdeal.HandRun.ops_pre]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 4000000 in
theorem pre_arg16 (VR : Valuation Cert.ReferenceIdeal.τ Cert.ReferenceIdeal.sig (Elt Ideal)) :
    StableHlo.after (Cert.ReferenceIdeal.HandRun.ops_pre (F := Ideal)) VR (Proc.devRef .tc Cert.ReferenceIdeal.main_arg16) = VR (Proc.devRef .tc Cert.ReferenceIdeal.main_arg16) := by
  simp only [Cert.ReferenceIdeal.HandRun.ops_pre]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 4000000 in
theorem pre_arg17 (VR : Valuation Cert.ReferenceIdeal.τ Cert.ReferenceIdeal.sig (Elt Ideal)) :
    StableHlo.after (Cert.ReferenceIdeal.HandRun.ops_pre (F := Ideal)) VR (Proc.devRef .tc Cert.ReferenceIdeal.main_arg17) = VR (Proc.devRef .tc Cert.ReferenceIdeal.main_arg17) := by
  simp only [Cert.ReferenceIdeal.HandRun.ops_pre]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 4000000 in
theorem pre_arg18 (VR : Valuation Cert.ReferenceIdeal.τ Cert.ReferenceIdeal.sig (Elt Ideal)) :
    StableHlo.after (Cert.ReferenceIdeal.HandRun.ops_pre (F := Ideal)) VR (Proc.devRef .tc Cert.ReferenceIdeal.main_arg18) = VR (Proc.devRef .tc Cert.ReferenceIdeal.main_arg18) := by
  simp only [Cert.ReferenceIdeal.HandRun.ops_pre]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']

end Cert.Tail

end
-- ==== Proof.RefSplit.lean ====
/- The reference's operations up to the third ELU, cut at the three ELUs: each affine stage and each ELU a list of its own, the same entries in the same order. -/
import proofs.«106491_j82652350644592_2_alg».proof.Proof.RefOps0

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The pairwise maximum, the layer normalisation over the 1024 features, and the first affine layer (product with the 1024 × 512 weights, bias). -/
abbrev pre_a : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    reshape main_arg0 main_v4 rfl shapeCasts_S50000x2048_S50000x1024x2,
    nullary main_cst (constant S_ .f32 0xFF800000#32),
    binary main_v4 main_cst main_v5 ((fun x v => Host.reduce FloatOps.maximumf x v reducesTo_S50000x1024x2_S50000x1024_d2 h_S_) : (⟨S50000x1024x2, .f32⟩ : BufTy).Contents (Elt F) → (⟨S_, .f32⟩ : BufTy).Contents (Elt F) → (⟨S50000x1024, .f32⟩ : BufTy).Contents (Elt F)),
    nullary main_cst_0 (constant S_ .f32 0x00000000#32),
    binary main_v5 main_cst_0 main_v6 ((fun x v => Host.reduceAdd x v reducesTo_S50000x1024_S50000_d1 h_S_) : (⟨S50000x1024, .f32⟩ : BufTy).Contents (Elt F) → (⟨S_, .f32⟩ : BufTy).Contents (Elt F) → (⟨S50000, .f32⟩ : BufTy).Contents (Elt F)),
    unary main_v6 main_v7 (broadcastInDim S50000x1 ![0] bcast_S50000_S50000x1_0 : (⟨S50000, .f32⟩ : BufTy).Contents (Elt F) → (⟨S50000x1, .f32⟩ : BufTy).Contents (Elt F)),
    nullary main_cst_1 (constant S_ .f32 0x44800000#32),
    unary main_cst_1 main_v8 (broadcastInDim S50000x1 ![] bcast_S_S50000x1 : (⟨S_, .f32⟩ : BufTy).Contents (Elt F) → (⟨S50000x1, .f32⟩ : BufTy).Contents (Elt F)),
    binary main_v7 main_v8 main_v9 (Host.divf : (⟨S50000x1, .f32⟩ : BufTy).Contents (Elt F) → (⟨S50000x1, .f32⟩ : BufTy).Contents (Elt F) → (⟨S50000x1, .f32⟩ : BufTy).Contents (Elt F)),
    unary main_v9 main_v10 (broadcastInDim S50000x1024 ![0, 1] bcast_S50000x1_S50000x1024_0_1 : (⟨S50000x1, .f32⟩ : BufTy).Contents (Elt F) → (⟨S50000x1024, .f32⟩ : BufTy).Contents (Elt F)),
    binary main_v5 main_v10 main_v11 (subf : (⟨S50000x1024, .f32⟩ : BufTy).Contents (Elt F) → (⟨S50000x1024, .f32⟩ : BufTy).Contents (Elt F) → (⟨S50000x1024, .f32⟩ : BufTy).Contents (Elt F)),
    binary main_v11 main_v11 main_v12 (mulf : (⟨S50000x1024, .f32⟩ : BufTy).Contents (Elt F) → (⟨S50000x1024, .f32⟩ : BufTy).Contents (Elt F) → (⟨S50000x1024, .f32⟩ : BufTy).Contents (Elt F)),
    nullary main_cst_2 (constant S_ .f32 0x00000000#32),
    binary main_v12 main_cst_2 main_v13 ((fun x v => Host.reduceAdd x v reducesTo_S50000x1024_S50000_d1 h_S_) : (⟨S50000x1024, .f32⟩ : BufTy).Contents (Elt F) → (⟨S_, .f32⟩ : BufTy).Contents (Elt F) → (⟨S50000, .f32⟩ : BufTy).Contents (Elt F)),
    unary main_v13 main_v14 (broadcastInDim S50000x1 ![0] bcast_S50000_S50000x1_0 : (⟨S50000, .f32⟩ : BufTy).Contents (Elt F) → (⟨S50000x1, .f32⟩ : BufTy).Contents (Elt F)),
    nullary main_cst_3 (constant S_ .f32 0x44800000#32),
    unary main_cst_3 main_v15 (broadcastInDim S50000x1 ![] bcast_S_S50000x1 : (⟨S_, .f32⟩ : BufTy).Contents (Elt F) → (⟨S50000x1, .f32⟩ : BufTy).Contents (Elt F)),
    binary main_v14 main_v15 main_v16 (Host.divf : (⟨S50000x1, .f32⟩ : BufTy).Contents (Elt F) → (⟨S50000x1, .f32⟩ : BufTy).Contents (Elt F) → (⟨S50000x1, .f32⟩ : BufTy).Contents (Elt F)),
    unary main_v9 main_v17 (broadcastInDim S50000x1024 ![0, 1] bcast_S50000x1_S50000x1024_0_1 : (⟨S50000x1, .f32⟩ : BufTy).Contents (Elt F) → (⟨S50000x1024, .f32⟩ : BufTy).Contents (Elt F)),
    binary main_v5 main_v17 main_v18 (subf : (⟨S50000x1024, .f32⟩ : BufTy).Contents (Elt F) → (⟨S50000x1024, .f32⟩ : BufTy).Contents (Elt F) → (⟨S50000x1024, .f32⟩ : BufTy).Contents (Elt F)),
    nullary main_cst_4 (constant S_ .f32 0x3727C5AC#32),
    unary main_cst_4 main_v19 (broadcastInDim S50000x1 ![] bcast_S_S50000x1 : (⟨S_, .f32⟩ : BufTy).Contents (Elt F) → (⟨S50000x1, .f32⟩ : BufTy).Contents (Elt F)),
    binary main_v16 main_v19 main_v20 (addf : (⟨S50000x1, .f32⟩ : BufTy).Contents (Elt F) → (⟨S50000x1, .f32⟩ : BufTy).Contents (Elt F) → (⟨S50000x1, .f32⟩ : BufTy).Contents (Elt F)),
    unary main_v20 main_v21 (Host.rsqrt : (⟨S50000x1, .f32⟩ : BufTy).Contents (Elt F) → (⟨S50000x1, .f32⟩ : BufTy).Contents (Elt F)),
    unary main_v21 main_v22 (broadcastInDim S50000x1024 ![0, 1] bcast_S50000x1_S50000x1024_0_1 : (⟨S50000x1, .f32⟩ : BufTy).Contents (Elt F) → (⟨S50000x1024, .f32⟩ : BufTy).Contents (Elt F)),
    binary main_v18 main_v22 main_v23 (mulf : (⟨S50000x1024, .f32⟩ : BufTy).Contents (Elt F) → (⟨S50000x1024, .f32⟩ : BufTy).Contents (Elt F) → (⟨S50000x1024, .f32⟩ : BufTy).Contents (Elt F)),
    unary main_arg3 main_v24 (broadcastInDim S1x1024 ![1] bcast_S1024_S1x1024_1 : (⟨S1024, .f32⟩ : BufTy).Contents (Elt F) → (⟨S1x1024, .f32⟩ : BufTy).Contents (Elt F)),
    unary main_v24 main_v25 (broadcastInDim S50000x1024 ![0, 1] bcast_S1x1024_S50000x1024_0_1 : (⟨S1x1024, .f32⟩ : BufTy).Contents (Elt F) → (⟨S50000x1024, .f32⟩ : BufTy).Contents (Elt F)),
    binary main_v23 main_v25 main_v26 (mulf : (⟨S50000x1024, .f32⟩ : BufTy).Contents (Elt F) → (⟨S50000x1024, .f32⟩ : BufTy).Contents (Elt F) → (⟨S50000x1024, .f32⟩ : BufTy).Contents (Elt F)),
    unary main_arg4 main_v27 (broadcastInDim S1x1024 ![1] bcast_S1024_S1x1024_1 : (⟨S1024, .f32⟩ : BufTy).Contents (Elt F) → (⟨S1x1024, .f32⟩ : BufTy).Contents (Elt F)),
    unary main_v27 main_v28 (broadcastInDim S50000x1024 ![0, 1] bcast_S1x1024_S50000x1024_0_1 : (⟨S1x1024, .f32⟩ : BufTy).Contents (Elt F) → (⟨S50000x1024, .f32⟩ : BufTy).Contents (Elt F)),
    binary main_v26 main_v28 main_v29 (addf : (⟨S50000x1024, .f32⟩ : BufTy).Contents (Elt F) → (⟨S50000x1024, .f32⟩ : BufTy).Contents (Elt F) → (⟨S50000x1024, .f32⟩ : BufTy).Contents (Elt F)),
    binary main_v29 main_arg5 main_v30 ((fun l r => Host.dotGeneral dot_S50000x1024_S1024x512_S50000x512_1_0_0_1_n_n none l r) : (⟨S50000x1024, .f32⟩ : BufTy).Contents (Elt F) → (⟨S1024x512, .f32⟩ : BufTy).Contents (Elt F) → (⟨S50000x512, .f32⟩ : BufTy).Contents (Elt F)),
    unary main_arg6 main_v31 (broadcastInDim S1x512 ![1] bcast_S512_S1x512_1 : (⟨S512, .f32⟩ : BufTy).Contents (Elt F) → (⟨S1x512, .f32⟩ : BufTy).Contents (Elt F)),
    unary main_v31 main_v32 (broadcastInDim S50000x512 ![0, 1] bcast_S1x512_S50000x512_0_1 : (⟨S1x512, .f32⟩ : BufTy).Contents (Elt F) → (⟨S50000x512, .f32⟩ : BufTy).Contents (Elt F)),
    binary main_v30 main_v32 main_v33 (addf : (⟨S50000x512, .f32⟩ : BufTy).Contents (Elt F) → (⟨S50000x512, .f32⟩ : BufTy).Contents (Elt F) → (⟨S50000x512, .f32⟩ : BufTy).Contents (Elt F)) ]

/-- The buffers those operations write, in order. -/
abbrev pre_a_W : List (Ref sig .tc) :=
  [main_v0, main_v1, main_v2, main_v3, main_v4, main_cst, main_v5, main_cst_0,
   main_v6, main_v7, main_cst_1, main_v8, main_v9, main_v10, main_v11, main_v12,
   main_cst_2, main_v13, main_v14, main_cst_3, main_v15, main_v16, main_v17, main_v18,
   main_cst_4, main_v19, main_v20, main_v21, main_v22, main_v23, main_v24, main_v25,
   main_v26, main_v27, main_v28, main_v29, main_v30, main_v31, main_v32, main_v33]

theorem pre_a_writes : (pre_a : List (HloOp τ sig (Elt F))).Forall fun op =>
    op.writes ⊆ (pre_a_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer those operations do not write holds after them what it held before. -/
theorem pre_a_keep (V : Valuation τ sig (Elt F)) (r : Ref sig .tc) (h : r ∉ pre_a_W) :
    after pre_a V (Proc.devRef .tc r) = V (Proc.devRef .tc r) :=
  after_of_writes_sub pre_a V pre_a_writes h

/-- The first ELU on 50000 × 512: x where x > 0, else 1 · expm1 (0 where x > 0, else x). -/
abbrev elu_a : List (HloOp τ sig (Elt F)) :=
  [ TRef.nullary main_call0.cst (constant S_ .f32 0x00000000#32),
    TRef.unary main_call0.cst main_call0.v0 (broadcastInDim S50000x512 ![] bcast_S_S50000x512),
    TRef.binary (.of main_v33 : TRef sig ⟨S50000x512, .f32⟩) main_call0.v0 main_call0.v1 (cmpf .ogt),
    TRef.nullary main_call0.cst_0 (constant S_ .f32 0x00000000#32),
    TRef.unary main_call0.cst_0 main_call0.v2 (broadcastInDim S50000x512 ![] bcast_S_S50000x512),
    TRef.binary (.of main_v33 : TRef sig ⟨S50000x512, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S50000x512 ![] bcast_S_S50000x512),
    TRef.ternary main_call0.v3 main_call0.call0.v1 (.of main_v33 : TRef sig ⟨S50000x512, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S50000x512 ![] bcast_S_S50000x512),
    TRef.binary main_call0.v6 main_call0.v5 main_call0.v7 mulf,
    TRef.ternary main_call0.v1 (.of main_v33 : TRef sig ⟨S50000x512, .f32⟩) main_call0.v7 main_call0.call1.v0 select ]

/-- The buffers those operations write, in order. -/
abbrev elu_a_W : List (Ref sig .tc) :=
  [main_call0.cst.ref, main_call0.v0.ref, main_call0.v1.ref, main_call0.cst_0.ref, main_call0.v2.ref, main_call0.v3.ref, main_call0.cst_1.ref, main_call0.call0.v0.ref,
   main_call0.call0.v1.ref, main_call0.call0.v2.ref, main_call0.v5.ref, main_call0.cst_2.ref, main_call0.v6.ref, main_call0.v7.ref, main_call0.call1.v0.ref]

theorem elu_a_writes : (elu_a : List (HloOp τ sig (Elt F))).Forall fun op =>
    op.writes ⊆ (elu_a_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer those operations do not write holds after them what it held before. -/
theorem elu_a_keep (V : Valuation τ sig (Elt F)) (r : Ref sig .tc) (h : r ∉ elu_a_W) :
    after elu_a V (Proc.devRef .tc r) = V (Proc.devRef .tc r) :=
  after_of_writes_sub elu_a V elu_a_writes h

/-- The second affine layer: product with the 512 × 128 weights, bias. -/
abbrev pre_b : List (HloOp τ sig (Elt F)) :=
  [ binary main_v34 main_arg7 main_v35 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    unary main_arg8 main_v36 (broadcastInDim S1x128 ![1] bcast_S128_S1x128_1 : (⟨S128, .f32⟩ : BufTy).Contents (Elt F) → (⟨S1x128, .f32⟩ : BufTy).Contents (Elt F)),
    unary main_v36 main_v37 (broadcastInDim S50000x128 ![0, 1] bcast_S1x128_S50000x128_0_1 : (⟨S1x128, .f32⟩ : BufTy).Contents (Elt F) → (⟨S50000x128, .f32⟩ : BufTy).Contents (Elt F)),
    binary main_v35 main_v37 main_v38 (addf : (⟨S50000x128, .f32⟩ : BufTy).Contents (Elt F) → (⟨S50000x128, .f32⟩ : BufTy).Contents (Elt F) → (⟨S50000x128, .f32⟩ : BufTy).Contents (Elt F)) ]

/-- The buffers those operations write, in order. -/
abbrev pre_b_W : List (Ref sig .tc) :=
  [main_v35, main_v36, main_v37, main_v38]

theorem pre_b_writes : (pre_b : List (HloOp τ sig (Elt F))).Forall fun op =>
    op.writes ⊆ (pre_b_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer those operations do not write holds after them what it held before. -/
theorem pre_b_keep (V : Valuation τ sig (Elt F)) (r : Ref sig .tc) (h : r ∉ pre_b_W) :
    after pre_b V (Proc.devRef .tc r) = V (Proc.devRef .tc r) :=
  after_of_writes_sub pre_b V pre_b_writes h

/-- The second ELU, on 50000 × 128. -/
abbrev elu_b : List (HloOp τ sig (Elt F)) :=
  [ TRef.nullary main_call1.cst (constant S_ .f32 0x00000000#32),
    TRef.unary main_call1.cst main_call1.v0 (broadcastInDim S50000x128 ![] bcast_S_S50000x128),
    TRef.binary (.of main_v38 : TRef sig ⟨S50000x128, .f32⟩) main_call1.v0 main_call1.v1 (cmpf .ogt),
    TRef.nullary main_call1.cst_0 (constant S_ .f32 0x00000000#32),
    TRef.unary main_call1.cst_0 main_call1.v2 (broadcastInDim S50000x128 ![] bcast_S_S50000x128),
    TRef.binary (.of main_v38 : TRef sig ⟨S50000x128, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S50000x128 ![] bcast_S_S50000x128),
    TRef.ternary main_call1.v3 main_call1.call0.v1 (.of main_v38 : TRef sig ⟨S50000x128, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S50000x128 ![] bcast_S_S50000x128),
    TRef.binary main_call1.v6 main_call1.v5 main_call1.v7 mulf,
    TRef.ternary main_call1.v1 (.of main_v38 : TRef sig ⟨S50000x128, .f32⟩) main_call1.v7 main_call1.call1.v0 select ]

/-- The buffers those operations write, in order. -/
abbrev elu_b_W : List (Ref sig .tc) :=
  [main_call1.cst.ref, main_call1.v0.ref, main_call1.v1.ref, main_call1.cst_0.ref, main_call1.v2.ref, main_call1.v3.ref, main_call1.cst_1.ref, main_call1.call0.v0.ref,
   main_call1.call0.v1.ref, main_call1.call0.v2.ref, main_call1.v5.ref, main_call1.cst_2.ref, main_call1.v6.ref, main_call1.v7.ref, main_call1.call1.v0.ref]

theorem elu_b_writes : (elu_b : List (HloOp τ sig (Elt F))).Forall fun op =>
    op.writes ⊆ (elu_b_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer those operations do not write holds after them what it held before. -/
theorem elu_b_keep (V : Valuation τ sig (Elt F)) (r : Ref sig .tc) (h : r ∉ elu_b_W) :
    after elu_b V (Proc.devRef .tc r) = V (Proc.devRef .tc r) :=
  after_of_writes_sub elu_b V elu_b_writes h

/-- The third affine layer: product with the 128 × 64 weights, bias. -/
abbrev pre_c : List (HloOp τ sig (Elt F)) :=
  [ binary main_v39 main_arg9 main_v40 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg10 main_v41 (broadcastInDim S1x64 ![1] bcast_S64_S1x64_1 : (⟨S64, .f32⟩ : BufTy).Contents (Elt F) → (⟨S1x64, .f32⟩ : BufTy).Contents (Elt F)),
    unary main_v41 main_v42 (broadcastInDim S50000x64 ![0, 1] bcast_S1x64_S50000x64_0_1 : (⟨S1x64, .f32⟩ : BufTy).Contents (Elt F) → (⟨S50000x64, .f32⟩ : BufTy).Contents (Elt F)),
    binary main_v40 main_v42 main_v43 (addf : (⟨S50000x64, .f32⟩ : BufTy).Contents (Elt F) → (⟨S50000x64, .f32⟩ : BufTy).Contents (Elt F) → (⟨S50000x64, .f32⟩ : BufTy).Contents (Elt F)) ]

/-- The buffers those operations write, in order. -/
abbrev pre_c_W : List (Ref sig .tc) :=
  [main_v40, main_v41, main_v42, main_v43]

theorem pre_c_writes : (pre_c : List (HloOp τ sig (Elt F))).Forall fun op =>
    op.writes ⊆ (pre_c_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer those operations do not write holds after them what it held before. -/
theorem pre_c_keep (V : Valuation τ sig (Elt F)) (r : Ref sig .tc) (h : r ∉ pre_c_W) :
    after pre_c V (Proc.devRef .tc r) = V (Proc.devRef .tc r) :=
  after_of_writes_sub pre_c V pre_c_writes h

/-- The third ELU, on 50000 × 64. -/
abbrev elu_c : List (HloOp τ sig (Elt F)) :=
  [ TRef.nullary main_call2.cst (constant S_ .f32 0x00000000#32),
    TRef.unary main_call2.cst main_call2.v0 (broadcastInDim S50000x64 ![] bcast_S_S50000x64),
    TRef.binary (.of main_v43 : TRef sig ⟨S50000x64, .f32⟩) main_call2.v0 main_call2.v1 (cmpf .ogt),
    TRef.nullary main_call2.cst_0 (constant S_ .f32 0x00000000#32),
    TRef.unary main_call2.cst_0 main_call2.v2 (broadcastInDim S50000x64 ![] bcast_S_S50000x64),
    TRef.binary (.of main_v43 : TRef sig ⟨S50000x64, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S50000x64 ![] bcast_S_S50000x64),
    TRef.ternary main_call2.v3 main_call2.call0.v1 (.of main_v43 : TRef sig ⟨S50000x64, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S50000x64 ![] bcast_S_S50000x64),
    TRef.binary main_call2.v6 main_call2.v5 main_call2.v7 mulf,
    TRef.ternary main_call2.v1 (.of main_v43 : TRef sig ⟨S50000x64, .f32⟩) main_call2.v7 main_call2.call1.v0 select ]

/-- The buffers those operations write, in order. -/
abbrev elu_c_W : List (Ref sig .tc) :=
  [main_call2.cst.ref, main_call2.v0.ref, main_call2.v1.ref, main_call2.cst_0.ref, main_call2.v2.ref, main_call2.v3.ref, main_call2.cst_1.ref, main_call2.call0.v0.ref,
   main_call2.call0.v1.ref, main_call2.call0.v2.ref, main_call2.v5.ref, main_call2.cst_2.ref, main_call2.v6.ref, main_call2.v7.ref, main_call2.call1.v0.ref]

theorem elu_c_writes : (elu_c : List (HloOp τ sig (Elt F))).Forall fun op =>
    op.writes ⊆ (elu_c_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer those operations do not write holds after them what it held before. -/
theorem elu_c_keep (V : Valuation τ sig (Elt F)) (r : Ref sig .tc) (h : r ∉ elu_c_W) :
    after elu_c V (Proc.devRef .tc r) = V (Proc.devRef .tc r) :=
  after_of_writes_sub elu_c V elu_c_writes h

/-- The prefix is its six pieces in order. -/
theorem ops_pre_split : (ops_pre : List (HloOp τ sig (Elt F))) = pre_a ++ (elu_a ++ (pre_b ++ (elu_b ++ (pre_c ++ (elu_c))))) := rfl

end Cert.ReferenceIdeal.HandRun

end
-- ==== Proof.ValRefPre.lean ====
/-
  What the reference's first operations leave in the [50000, 64] buffer the graph convolutions start from. The
  operations are read in six stretches — the pooling, normalisation and first dense layer; the first ELU; the second
  dense layer; its ELU; the third dense layer; its ELU — each from any contents: a stretch's result is its stage
  function of the buffers it reads, and the buffers it does not write pass through it. Composed, the six stages are
  the prefix term of the arguments.
-/
import proofs.«106491_j82652350644592_2_alg».proof.Proof.RefSplit
import proofs.«106491_j82652350644592_2_alg».proof.Proof.SpecRef
import Idealize.ShloMosaic.Lib.StableHlo.Run
import Idealize.ShloMosaic.Lib.Pipeline.Frame
import Idealize.ShloMosaic.PureOps.Ideal

noncomputable section

namespace Cert.Tail

open Idealize.ShloMosaic Idealize.ShloMosaic.TcCoe Idealize.SL.Sem
open Idealize.ShloMosaic.StableHlo

variable (W : Valuation Cert.ReferenceIdeal.τ Cert.ReferenceIdeal.sig (Elt Ideal))

set_option maxHeartbeats 4000000 in
/-- Pooling, normalisation and the first dense layer. -/
theorem stage_pre_a :
    (StableHlo.after (Cert.ReferenceIdeal.HandRun.pre_a (F := Ideal)) W (Proc.devRef .tc Cert.ReferenceIdeal.main_v33) : Cert.ReferenceIdeal.S50000x512.Idx → EReal)
      = Cert.SpecR.denseR Cert.ReferenceIdeal.Gen.dot_S50000x1024_S1024x512_S50000x512_1_0_0_1_n_n_wf Cert.ReferenceIdeal.Gen.bcast_S512_S1x512_1 Cert.ReferenceIdeal.Gen.bcast_S1x512_S50000x512_0_1
          (Cert.SpecR.normR (Cert.SpecR.poolR (W (Proc.devRef .tc Cert.ReferenceIdeal.main_arg0))) (W (Proc.devRef .tc Cert.ReferenceIdeal.main_arg3)) (W (Proc.devRef .tc Cert.ReferenceIdeal.main_arg4)))
          (W (Proc.devRef .tc Cert.ReferenceIdeal.main_arg5)) (W (Proc.devRef .tc Cert.ReferenceIdeal.main_arg6)) := by
  simp only [Cert.ReferenceIdeal.HandRun.pre_a]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
/-- The first ELU. -/
theorem stage_elu_a :
    (StableHlo.after (Cert.ReferenceIdeal.HandRun.elu_a (F := Ideal)) W (Proc.devRef .tc Cert.ReferenceIdeal.main_v34) : Cert.ReferenceIdeal.S50000x512.Idx → EReal)
      = Cert.SpecR.eluR Cert.ReferenceIdeal.Gen.bcast_S_S50000x512 (W (Proc.devRef .tc Cert.ReferenceIdeal.main_v33)) := by
  simp only [Cert.ReferenceIdeal.HandRun.elu_a]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
/-- The second dense layer. -/
theorem stage_pre_b :
    (StableHlo.after (Cert.ReferenceIdeal.HandRun.pre_b (F := Ideal)) W (Proc.devRef .tc Cert.ReferenceIdeal.main_v38) : Cert.ReferenceIdeal.S50000x128.Idx → EReal)
      = Cert.SpecR.denseR Cert.ReferenceIdeal.Gen.dot_S50000x512_S512x128_S50000x128_1_0_0_1_n_n_wf Cert.ReferenceIdeal.Gen.bcast_S128_S1x128_1 Cert.ReferenceIdeal.Gen.bcast_S1x128_S50000x128_0_1
          (W (Proc.devRef .tc Cert.ReferenceIdeal.main_v34)) (W (Proc.devRef .tc Cert.ReferenceIdeal.main_arg7)) (W (Proc.devRef .tc Cert.ReferenceIdeal.main_arg8)) := by
  simp only [Cert.ReferenceIdeal.HandRun.pre_b]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
/-- The second ELU. -/
theorem stage_elu_b :
    (StableHlo.after (Cert.ReferenceIdeal.HandRun.elu_b (F := Ideal)) W (Proc.devRef .tc Cert.ReferenceIdeal.main_v39) : Cert.ReferenceIdeal.S50000x128.Idx → EReal)
      = Cert.SpecR.eluR Cert.ReferenceIdeal.Gen.bcast_S_S50000x128 (W (Proc.devRef .tc Cert.ReferenceIdeal.main_v38)) := by
  simp only [Cert.ReferenceIdeal.HandRun.elu_b]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
/-- The third dense layer. -/
theorem stage_pre_c :
    (StableHlo.after (Cert.ReferenceIdeal.HandRun.pre_c (F := Ideal)) W (Proc.devRef .tc Cert.ReferenceIdeal.main_v43) : Cert.ReferenceIdeal.S50000x64.Idx → EReal)
      = Cert.SpecR.denseR Cert.ReferenceIdeal.Gen.dot_S50000x128_S128x64_S50000x64_1_0_0_1_n_n_wf Cert.ReferenceIdeal.Gen.bcast_S64_S1x64_1 Cert.ReferenceIdeal.Gen.bcast_S1x64_S50000x64_0_1
          (W (Proc.devRef .tc Cert.ReferenceIdeal.main_v39)) (W (Proc.devRef .tc Cert.ReferenceIdeal.main_arg9)) (W (Proc.devRef .tc Cert.ReferenceIdeal.main_arg10)) := by
  simp only [Cert.ReferenceIdeal.HandRun.pre_c]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
/-- The third ELU. -/
theorem stage_elu_c :
    (StableHlo.after (Cert.ReferenceIdeal.HandRun.elu_c (F := Ideal)) W (Proc.devRef .tc Cert.ReferenceIdeal.main_v44) : Cert.ReferenceIdeal.S50000x64.Idx → EReal)
      = Cert.SpecR.eluR Cert.ReferenceIdeal.Gen.bcast_S_S50000x64 (W (Proc.devRef .tc Cert.ReferenceIdeal.main_v43)) := by
  simp only [Cert.ReferenceIdeal.HandRun.elu_c]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

/-- The six stages composed: after the reference's first operations the buffer holds the prefix term of the arguments. -/
theorem pre_acts (VR : Valuation Cert.ReferenceIdeal.τ Cert.ReferenceIdeal.sig (Elt Ideal)) :
    (StableHlo.after (Cert.ReferenceIdeal.HandRun.ops_pre (F := Ideal)) VR (Proc.devRef .tc Cert.ReferenceIdeal.main_v44) : Cert.ReferenceIdeal.S50000x64.Idx → EReal)
      = Cert.SpecR.refPrefix (VR (Proc.devRef .tc Cert.ReferenceIdeal.main_arg0)) (VR (Proc.devRef .tc Cert.ReferenceIdeal.main_arg3)) (VR (Proc.devRef .tc Cert.ReferenceIdeal.main_arg4))
          (VR (Proc.devRef .tc Cert.ReferenceIdeal.main_arg5)) (VR (Proc.devRef .tc Cert.ReferenceIdeal.main_arg6)) (VR (Proc.devRef .tc Cert.ReferenceIdeal.main_arg7))
          (VR (Proc.devRef .tc Cert.ReferenceIdeal.main_arg8)) (VR (Proc.devRef .tc Cert.ReferenceIdeal.main_arg9)) (VR (Proc.devRef .tc Cert.ReferenceIdeal.main_arg10)) := by
  rw [Cert.ReferenceIdeal.HandRun.ops_pre_split, StableHlo.after_append, StableHlo.after_append, StableHlo.after_append, StableHlo.after_append,
    StableHlo.after_append]
  rw [stage_elu_c, stage_pre_c, stage_elu_b, stage_pre_b, stage_elu_a, stage_pre_a]
  rw [Cert.ReferenceIdeal.HandRun.elu_b_keep _ Cert.ReferenceIdeal.main_arg9 (by decide), Cert.ReferenceIdeal.HandRun.elu_b_keep _ Cert.ReferenceIdeal.main_arg10 (by decide)]
  rw [Cert.ReferenceIdeal.HandRun.pre_b_keep _ Cert.ReferenceIdeal.main_arg9 (by decide), Cert.ReferenceIdeal.HandRun.pre_b_keep _ Cert.ReferenceIdeal.main_arg10 (by decide)]
  rw [Cert.ReferenceIdeal.HandRun.elu_a_keep _ Cert.ReferenceIdeal.main_arg7 (by decide), Cert.ReferenceIdeal.HandRun.elu_a_keep _ Cert.ReferenceIdeal.main_arg8 (by decide),
    Cert.ReferenceIdeal.HandRun.elu_a_keep _ Cert.ReferenceIdeal.main_arg9 (by decide), Cert.ReferenceIdeal.HandRun.elu_a_keep _ Cert.ReferenceIdeal.main_arg10 (by decide)]
  rw [Cert.ReferenceIdeal.HandRun.pre_a_keep _ Cert.ReferenceIdeal.main_arg7 (by decide), Cert.ReferenceIdeal.HandRun.pre_a_keep _ Cert.ReferenceIdeal.main_arg8 (by decide),
    Cert.ReferenceIdeal.HandRun.pre_a_keep _ Cert.ReferenceIdeal.main_arg9 (by decide), Cert.ReferenceIdeal.HandRun.pre_a_keep _ Cert.ReferenceIdeal.main_arg10 (by decide)]
  rw [Cert.SpecR.refPrefix_eq]

end Cert.Tail

end
-- ==== Proof.ValBridge.lean ====
/-
  The two programs' results from memories that agree on the arguments. The kernel program ends with the host
  operations after its region applied to the region's output array — the activations (the prefix term of the
  arguments) — beside the re-laid edge rows and the arguments; the reference ends with the same operations applied to
  what its first operations computed: the same prefix term, the same edge rows, the same arguments. So the two result
  arrays are equal.
-/
import proofs.«106491_j82652350644592_2_alg».proof.Proof.KIRun
import proofs.«106491_j82652350644592_2_alg».proof.Proof.RefRun
import proofs.«106491_j82652350644592_2_alg».proof.Proof.ValFinal
import proofs.«106491_j82652350644592_2_alg».proof.Proof.ValTail
import proofs.«106491_j82652350644592_2_alg».proof.Proof.ValEdges
import proofs.«106491_j82652350644592_2_alg».proof.Proof.ValRefPre

noncomputable section

namespace Cert.Bridge

open Idealize.ShloMosaic Idealize.ShloMosaic.TcCoe Idealize.SL.Sem
open Idealize.ShloMosaic.StableHlo

set_option maxHeartbeats 2000000 in
/-- From memories agreeing on the nineteen arguments, the reference's result buffer after all its operations holds
    what the kernel program's result buffer holds after the lines that follow its region. -/
theorem result_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    StableHlo.after (Cert.ReferenceIdeal.HandRun.ops_pre (F := Ideal) ++ Cert.ReferenceIdeal.HandRun.ops_tail (F := Ideal)) (fun b => m' (c, b)) (Proc.devRef .tc Cert.ReferenceIdeal.main_v164)
      = Pipeline.afterTail₀ Cert.KernelIdeal.cfgs (Cert.KernelIdeal.Hand.dats m) 0 (Cert.KernelIdeal.Hand.V0 m) (Cert.KernelIdeal.Hand.tails (F := Ideal)) c Cert.KernelIdeal.main_v132 := by
  obtain ⟨h0, h1, h2, h3, h4, h5, h6, h7, h8, h9, h10, h11, h12, h13, h14, h15, h16, h17, h18⟩ := hag
  have e0 : m' (c, Proc.devRef .tc Cert.ReferenceIdeal.main_arg0) = m ((c.tc : Thread Cert.KernelIdeal.nD Cert.KernelIdeal.τ).loc Cert.KernelIdeal.main_arg0) := h0
  have e1 : m' (c, Proc.devRef .tc Cert.ReferenceIdeal.main_arg1) = m ((c.tc : Thread Cert.KernelIdeal.nD Cert.KernelIdeal.τ).loc Cert.KernelIdeal.main_arg1) := h1
  have e2 : m' (c, Proc.devRef .tc Cert.ReferenceIdeal.main_arg2) = m ((c.tc : Thread Cert.KernelIdeal.nD Cert.KernelIdeal.τ).loc Cert.KernelIdeal.main_arg2) := h2
  have e3 : m' (c, Proc.devRef .tc Cert.ReferenceIdeal.main_arg3) = m ((c.tc : Thread Cert.KernelIdeal.nD Cert.KernelIdeal.τ).loc Cert.KernelIdeal.main_arg3) := h3
  have e4 : m' (c, Proc.devRef .tc Cert.ReferenceIdeal.main_arg4) = m ((c.tc : Thread Cert.KernelIdeal.nD Cert.KernelIdeal.τ).loc Cert.KernelIdeal.main_arg4) := h4
  have e5 : m' (c, Proc.devRef .tc Cert.ReferenceIdeal.main_arg5) = m ((c.tc : Thread Cert.KernelIdeal.nD Cert.KernelIdeal.τ).loc Cert.KernelIdeal.main_arg5) := h5
  have e6 : m' (c, Proc.devRef .tc Cert.ReferenceIdeal.main_arg6) = m ((c.tc : Thread Cert.KernelIdeal.nD Cert.KernelIdeal.τ).loc Cert.KernelIdeal.main_arg6) := h6
  have e7 : m' (c, Proc.devRef .tc Cert.ReferenceIdeal.main_arg7) = m ((c.tc : Thread Cert.KernelIdeal.nD Cert.KernelIdeal.τ).loc Cert.KernelIdeal.main_arg7) := h7
  have e8 : m' (c, Proc.devRef .tc Cert.ReferenceIdeal.main_arg8) = m ((c.tc : Thread Cert.KernelIdeal.nD Cert.KernelIdeal.τ).loc Cert.KernelIdeal.main_arg8) := h8
  have e9 : m' (c, Proc.devRef .tc Cert.ReferenceIdeal.main_arg9) = m ((c.tc : Thread Cert.KernelIdeal.nD Cert.KernelIdeal.τ).loc Cert.KernelIdeal.main_arg9) := h9
  have e10 : m' (c, Proc.devRef .tc Cert.ReferenceIdeal.main_arg10) = m ((c.tc : Thread Cert.KernelIdeal.nD Cert.KernelIdeal.τ).loc Cert.KernelIdeal.main_arg10) := h10
  have e11 : m' (c, Proc.devRef .tc Cert.ReferenceIdeal.main_arg11) = m ((c.tc : Thread Cert.KernelIdeal.nD Cert.KernelIdeal.τ).loc Cert.KernelIdeal.main_arg11) := h11
  have e12 : m' (c, Proc.devRef .tc Cert.ReferenceIdeal.main_arg12) = m ((c.tc : Thread Cert.KernelIdeal.nD Cert.KernelIdeal.τ).loc Cert.KernelIdeal.main_arg12) := h12
  have e13 : m' (c, Proc.devRef .tc Cert.ReferenceIdeal.main_arg13) = m ((c.tc : Thread Cert.KernelIdeal.nD Cert.KernelIdeal.τ).loc Cert.KernelIdeal.main_arg13) := h13
  have e14 : m' (c, Proc.devRef .tc Cert.ReferenceIdeal.main_arg14) = m ((c.tc : Thread Cert.KernelIdeal.nD Cert.KernelIdeal.τ).loc Cert.KernelIdeal.main_arg14) := h14
  have e15 : m' (c, Proc.devRef .tc Cert.ReferenceIdeal.main_arg15) = m ((c.tc : Thread Cert.KernelIdeal.nD Cert.KernelIdeal.τ).loc Cert.KernelIdeal.main_arg15) := h15
  have e16 : m' (c, Proc.devRef .tc Cert.ReferenceIdeal.main_arg16) = m ((c.tc : Thread Cert.KernelIdeal.nD Cert.KernelIdeal.τ).loc Cert.KernelIdeal.main_arg16) := h16
  have e17 : m' (c, Proc.devRef .tc Cert.ReferenceIdeal.main_arg17) = m ((c.tc : Thread Cert.KernelIdeal.nD Cert.KernelIdeal.τ).loc Cert.KernelIdeal.main_arg17) := h17
  have e18 : m' (c, Proc.devRef .tc Cert.ReferenceIdeal.main_arg18) = m ((c.tc : Thread Cert.KernelIdeal.nD Cert.KernelIdeal.τ).loc Cert.KernelIdeal.main_arg18) := h18
  rw [StableHlo.after_append]
  unfold Pipeline.afterTail₀
  symm
  refine Cert.Tail.tail_agree _ _ ?_ ?_ ?_ ?_ ?_ ?_ ?_ ?_ ?_ ?_ ?_ ?_ ?_
  · -- the activations
    refine (Pipeline.withArrays_arr Cert.KernelIdeal.spec0 Cert.KernelIdeal.Gen.launch0.win.arr_inj c _ _ (9 : Fin 10)).trans ?_
    refine (Cert.KernelIdeal.Final.final m c).trans ?_
    rw [Cert.Tail.pre_acts, e0, e3, e4, e5, e6, e7, e8, e9, e10]
    rfl
  · -- the sources
    refine (Pipeline.withArrays_of_ne Cert.KernelIdeal.spec0 c _ _ Cert.KernelIdeal.main_v1 (by decide)).trans ?_
    exact Cert.Tail.sources_agree _ _ e1.symm
  · -- the targets
    refine (Pipeline.withArrays_of_ne Cert.KernelIdeal.spec0 c _ _ Cert.KernelIdeal.main_v3 (by decide)).trans ?_
    exact Cert.Tail.targets_agree _ _ e1.symm
  · refine (Pipeline.withArrays_of_ne Cert.KernelIdeal.spec0 c _ _ Cert.KernelIdeal.main_arg1 (by decide)).trans ?_
    rw [Cert.KernelIdeal.Hand.V0_of_lt m c Cert.KernelIdeal.main_arg1 (by decide), Cert.Tail.pre_arg1]
    exact e1.symm
  · refine (Pipeline.withArrays_of_ne Cert.KernelIdeal.spec0 c _ _ Cert.KernelIdeal.main_arg2 (by decide)).trans ?_
    rw [Cert.KernelIdeal.Hand.V0_of_lt m c Cert.KernelIdeal.main_arg2 (by decide), Cert.Tail.pre_arg2]
    exact e2.symm
  · refine (Pipeline.withArrays_of_ne Cert.KernelIdeal.spec0 c _ _ Cert.KernelIdeal.main_arg11 (by decide)).trans ?_
    rw [Cert.KernelIdeal.Hand.V0_of_lt m c Cert.KernelIdeal.main_arg11 (by decide), Cert.Tail.pre_arg11]
    exact e11.symm
  · refine (Pipeline.withArrays_of_ne Cert.KernelIdeal.spec0 c _ _ Cert.KernelIdeal.main_arg12 (by decide)).trans ?_
    rw [Cert.KernelIdeal.Hand.V0_of_lt m c Cert.KernelIdeal.main_arg12 (by decide), Cert.Tail.pre_arg12]
    exact e12.symm
  · refine (Pipeline.withArrays_of_ne Cert.KernelIdeal.spec0 c _ _ Cert.KernelIdeal.main_arg13 (by decide)).trans ?_
    rw [Cert.KernelIdeal.Hand.V0_of_lt m c Cert.KernelIdeal.main_arg13 (by decide), Cert.Tail.pre_arg13]
    exact e13.symm
  · refine (Pipeline.withArrays_of_ne Cert.KernelIdeal.spec0 c _ _ Cert.KernelIdeal.main_arg14 (by decide)).trans ?_
    rw [Cert.KernelIdeal.Hand.V0_of_lt m c Cert.KernelIdeal.main_arg14 (by decide), Cert.Tail.pre_arg14]
    exact e14.symm
  · refine (Pipeline.withArrays_of_ne Cert.KernelIdeal.spec0 c _ _ Cert.KernelIdeal.main_arg15 (by decide)).trans ?_
    rw [Cert.KernelIdeal.Hand.V0_of_lt m c Cert.KernelIdeal.main_arg15 (by decide), Cert.Tail.pre_arg15]
    exact e15.symm
  · refine (Pipeline.withArrays_of_ne Cert.KernelIdeal.spec0 c _ _ Cert.KernelIdeal.main_arg16 (by decide)).trans ?_
    rw [Cert.KernelIdeal.Hand.V0_of_lt m c Cert.KernelIdeal.main_arg16 (by decide), Cert.Tail.pre_arg16]
    exact e16.symm
  · refine (Pipeline.withArrays_of_ne Cert.KernelIdeal.spec0 c _ _ Cert.KernelIdeal.main_arg17 (by decide)).trans ?_
    rw [Cert.KernelIdeal.Hand.V0_of_lt m c Cert.KernelIdeal.main_arg17 (by decide), Cert.Tail.pre_arg17]
    exact e17.symm
  · refine (Pipeline.withArrays_of_ne Cert.KernelIdeal.spec0 c _ _ Cert.KernelIdeal.main_arg18 (by decide)).trans ?_
    rw [Cert.KernelIdeal.Hand.V0_of_lt m c Cert.KernelIdeal.main_arg18 (by decide), Cert.Tail.pre_arg18]
    exact e18.symm

end Cert.Bridge

end
-- ==== Proof.lean ====
/-
  The certificate of the fused pooling–normalisation–perceptron kernel against its jnp reference.

  The kernel program re-lays its arguments, runs one region over fifty grid points — each point takes 1000 rows of
  `x` and, five slabs of 200 rows at a time, computes pairwise maxima, LayerNorm over the 1024 maxima, and three dense
  layers 1024 → 512 → 128 → 64 each followed by ELU — and then applies two graph convolutions, gathers at the queried
  edges and a two-layer perceptron on the host. The reference computes the same prefix in plain host operations on the
  whole [50000, 2048] array and applies the same later operations.

  On the extended reals the two prefixes are one function of a row of `x`: a change of float format is the identity,
  a matrix product into a zero accumulator is the host's product, a lane reduction is the host's reduction, and the
  kernel's ELU `select (z > 0) z (exp z − 1)` is the reference's `select (z > 0) z (1 · expm1 (select (z > 0) 0 z))`
  because `expm1 z` is `exp z − 1` there and the inner select is `z` wherever the outer one reads it. No finiteness is
  used. The later operations are the same term on both sides, read from equal activations and equal arguments.

  The three frames: each program runs to its end from any memory and leaves its nineteen arguments as they were (the
  kernel programs by the region's run — the body's triple through the five-trip loop, the proof data, the host lines
  around the region —, the reference by its operations' run).
-/
import proofs.«106491_j82652350644592_2_alg».proof.Defs
import proofs.«106491_j82652350644592_2_alg».proof.Proof.Gen.Kernel
import proofs.«106491_j82652350644592_2_alg».proof.Proof.Gen.KernelIdeal
import proofs.«106491_j82652350644592_2_alg».proof.Proof.Gen.ReferenceIdeal
import proofs.«106491_j82652350644592_2_alg».proof.Proof.Gen.Pre_finite_inputs
import proofs.«106491_j82652350644592_2_alg».proof.Proof.KBRun
import proofs.«106491_j82652350644592_2_alg».proof.Proof.KIRun
import proofs.«106491_j82652350644592_2_alg».proof.Proof.RefFrame
import proofs.«106491_j82652350644592_2_alg».proof.Proof.ValBridge

noncomputable section

namespace Cert.Proof

open Idealize.ShloMosaic Idealize.SL.Sem

/-- The kernel program at the word-level instance runs and keeps its arguments. -/
theorem frame_kernel : Cert.frame_Kernel := fun m ρ _ =>
  Cert.Kernel.Hand.frame_of m ρ (Cert.Kernel.Hand.dats m) (Cert.Kernel.Hand.A_eq m) (Cert.Kernel.Hand.run_main (F := Bits) m ρ)

/-- The idealized kernel program runs and keeps its arguments. -/
theorem frame_kernelIdeal : Cert.frame_KernelIdeal := fun m ρ _ =>
  Cert.KernelIdeal.Hand.frame_of m ρ (Cert.KernelIdeal.Hand.dats m) (Cert.KernelIdeal.Hand.A_eq m) (Cert.KernelIdeal.Hand.run_main (F := Ideal) m ρ)

/-- The idealized reference runs and keeps its arguments. -/
theorem frame_referenceIdeal : Cert.frame_ReferenceIdeal := Cert.ReferenceIdeal.HandRun.frame_ri

/-- The ideal pass rewrote nothing: the idealized kernel is the kernel's own text. -/
theorem preserves : Cert.preserves_Kernel_KernelIdeal := trivial

/-- On the extended reals, from memories agreeing on the arguments, both programs end with the same result array. -/
theorem algebraic : Cert.algebraic_KernelIdeal_ReferenceIdeal := by
  intro m ρ m' ρ' _ hagree
  refine ⟨fun c => Pipeline.afterTail₀ Cert.KernelIdeal.cfgs (Cert.KernelIdeal.Hand.dats m) 0 (Cert.KernelIdeal.Hand.V0 m) (Cert.KernelIdeal.Hand.tails (F := Ideal)) c Cert.KernelIdeal.main_v132,
    Cert.KernelIdeal.Hand.result_of m ρ (Cert.KernelIdeal.Hand.dats m) (Cert.KernelIdeal.Hand.A_eq m) (Cert.KernelIdeal.Hand.run_main (F := Ideal) m ρ), ?_⟩
  refine (θ_run Cert.ReferenceIdeal.defs _ _).mono (fun _ h c => ⟨(h c).1.trans ?_, (h c).2⟩) (Cert.ReferenceIdeal.HandRun.run (F := Ideal) m' ρ')
  exact Cert.Bridge.result_agree m m' c (hagree c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
